-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩
abbrev S256x256 : Shape := ⟨2, ![256, 256]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  reducesTo_S_S_d : S_.ReducesTo [] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256x256 .f32) (main_arg10 : FVec F S256 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S256x256 .f32 := Host.absf main_arg9
  let main_cst_14 : FVec F S_ .f32 := constant S_ .f32 0x7F800000#32
  let main_v39 : FVec F S256x256 .f32 := broadcastInDim S256x256 ![] bcast_S_S256x256 main_cst_14
  let main_v40 : IVec S256x256 1 := cmpf .olt main_v38 main_v39
  let main_c_15 : IVec S_ 1 := constantI S_ 1 1#1
  let main_v41 : IVec S_ 1 := (fun x v => Host.reduce IntOp.andi x v reducesTo_S256x256_S_d0_1 h_S_) main_v40 main_c_15
  let main_v42 : IVec S_ 1 := andi main_v37 main_v41
  let main_v43 : FVec F S256 .f32 := Host.absf main_arg10
  let main_cst_16 : FVec F S_ .f32 := constant S_ .f32 0x7F800000#32
  let main_v44 : FVec F S256 .f32 := broadcastInDim S256 ![] bcast_S_S256 main_cst_16
  let main_v45 : IVec S256 1 := cmpf .olt main_v43 main_v44
  let main_c_17 : IVec S_ 1 := constantI S_ 1 1#1
  let main_v46 : IVec S_ 1 := (fun x v => Host.reduce IntOp.andi x v reducesTo_S256_S_d0 h_S_) main_v45 main_c_17
  let main_v47 : IVec S_ 1 := andi main_v42 main_v46
  main_v47

def fn_part1 {F : FTy → Type} [FloatOps F] (main_arg5 : FVec F S256 .f32) (main_arg6 : FVec F S_ .f32) (main_arg7 : FVec F S256x256 .f32) (main_arg8 : FVec F S256 .f32) (main_arg9 : FVec F S256x256 .f32) (main_arg10 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S256x256 .f32 := Host.absf main_arg7
  let main_cst_10 : FVec F S_ .f32 := constant S_ .f32 0x7F800000#32
  let main_v29 : FVec F S256x256 .f32 := broadcastInDim S256x256 ![] bcast_S_S256x256 main_cst_10
  let main_v30 : IVec S256x256 1 := cmpf .olt main_v28 main_v29
  let main_c_11 : IVec S_ 1 := constantI S_ 1 1#1
  let main_v31 : IVec S_ 1 := (fun x v => Host.reduce IntOp.andi x v reducesTo_S256x256_S_d0_1 h_S_) main_v30 main_c_11
  let main_v32 : IVec S_ 1 := andi main_v27 main_v31
  let main_v33 : FVec F S256 .f32 := Host.absf main_arg8
  fn_part2 (F := F) main_arg9 main_arg10 main_v32 main_v33

def fn {F : FTy → Type} [FloatOps F] (main_arg0 : FVec F S20000x512 .f32) (main_arg1 : IVec S2x320000 32) (main_arg2 : FVec F S512x512 .f32) (main_arg3 : FVec F S512 .f32) (main_arg4 : FVec F S512x256 .f32) (main_arg5 : FVec F S256 .f32) (main_arg6 : FVec F S_ .f32) (main_arg7 : FVec F S256x256 .f32) (main_arg8 : FVec F S256 .f32) (main_arg9 : FVec F S256x256 .f32) (main_arg10 : FVec F S256 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_arg10 main_v13 main_v16
-- ==== Kernel.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩
abbrev S256x256 : Shape := ⟨2, ![256, 256]⟩
abbrev S1x320000 : Shape := ⟨2, ![1, 320000]⟩
abbrev S320000 : Shape := ⟨1, ![320000]⟩
abbrev S20000 : Shape := ⟨1, ![20000]⟩
abbrev S320000x1 : Shape := ⟨2, ![320000, 1]⟩
abbrev S2000x512 : Shape := ⟨2, ![2000, 512]⟩
abbrev S320000x512 : Shape := ⟨2, ![320000, 512]⟩
abbrev S20000x1 : Shape := ⟨2, ![20000, 1]⟩
abbrev S1x512 : Shape := ⟨2, ![1, 512]⟩
abbrev S20000x256 : Shape := ⟨2, ![20000, 256]⟩
abbrev S2000x256 : Shape := ⟨2, ![2000, 256]⟩
abbrev S320000x256 : Shape := ⟨2, ![320000, 256]⟩
abbrev S1x256 : Shape := ⟨2, ![1, 256]⟩

abbrev nBuf : Space → Nat
  | .hbm => 109
  | .vmem => 22
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S_, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .f32⟩
  | .hbm, ⟨16, _⟩ => ⟨S320000, .f32⟩
  | .hbm, ⟨17, _⟩ => ⟨S_, .f32⟩
  | .hbm, ⟨18, _⟩ => ⟨S20000, .f32⟩
  | .hbm, ⟨19, _⟩ => ⟨S320000x1, .i32⟩
  | .hbm, ⟨20, _⟩ => ⟨S20000, .f32⟩
  | .hbm, ⟨21, _⟩ => ⟨S_, .f32⟩
  | .hbm, ⟨22, _⟩ => ⟨S20000, .f32⟩
  | .hbm, ⟨23, _⟩ => ⟨S20000, .f32⟩
  | .hbm, ⟨24, _⟩ => ⟨S20000, .f32⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S320000, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000, .f32⟩
  | .hbm, ⟨43, _⟩ => ⟨S320000, .f32⟩
  | .hbm, ⟨44, _⟩ => ⟨S20000, .f32⟩
  | .hbm, ⟨45, _⟩ => ⟨S20000x512, .f32⟩
  | .hbm, ⟨46, _⟩ => ⟨S_, .i32⟩
  | .hbm, ⟨47, _⟩ => ⟨S320000, .i32⟩
  | .hbm, ⟨48, _⟩ => ⟨S320000, .i1⟩
  | .hbm, ⟨49, _⟩ => ⟨S_, .i32⟩
  | .hbm, ⟨50, _⟩ => ⟨S320000, .i32⟩
  | .hbm, ⟨51, _⟩ => ⟨S320000, .i32⟩
  | .hbm, ⟨52, _⟩ => ⟨S320000, .i32⟩
  | .hbm, ⟨53, _⟩ => ⟨S320000x1, .i32⟩
  | .hbm, ⟨54, _⟩ => ⟨S320000x512, .f32⟩
  | .hbm, ⟨55, _⟩ => ⟨S320000x1, .f32⟩
  | .hbm, ⟨56, _⟩ => ⟨S320000x512, .f32⟩
  | .hbm, ⟨57, _⟩ => ⟨S320000x512, .f32⟩
  | .hbm, ⟨58, _⟩ => ⟨S_, .f32⟩
  | .hbm, ⟨59, _⟩ => ⟨S20000x512, .f32⟩
  | .hbm, ⟨60, _⟩ => ⟨S320000x1, .i32⟩
  | .hbm, ⟨61, _⟩ => ⟨S20000x512, .f32⟩
  | .hbm, ⟨62, _⟩ => ⟨S20000x1, .f32⟩
  | .hbm, ⟨63, _⟩ => ⟨S20000x512, .f32⟩
  | .hbm, ⟨64, _⟩ => ⟨S20000x512, .f32⟩
  | .hbm, ⟨65, _⟩ => ⟨S20000x512, .f32⟩
  | .hbm, ⟨66, _⟩ => ⟨S1x512, .f32⟩
  | .hbm, ⟨67, _⟩ => ⟨S20000x512, .f32⟩
  | .hbm, ⟨68, _⟩ => ⟨S20000x512, .f32⟩
  | .hbm, ⟨69, _⟩ => ⟨S_, .f32⟩
  | .hbm, ⟨70, _⟩ => ⟨S20000x512, .f32⟩
  | .hbm, ⟨71, _⟩ => ⟨S20000x512, .i1⟩
  | .hbm, ⟨72, _⟩ => ⟨S20000x512, .f32⟩
  | .hbm, ⟨73, _⟩ => ⟨S20000x512, .f32⟩
  | .hbm, ⟨74, _⟩ => ⟨S20000x512, .f32⟩
  | .hbm, ⟨75, _⟩ => ⟨S20000x256, .f32⟩
  | .hbm, ⟨76, _⟩ => ⟨S_, .i32⟩
  | .hbm, ⟨77, _⟩ => ⟨S320000, .i32⟩
  | .hbm, ⟨78, _⟩ => ⟨S320000, .i1⟩
  | .hbm, ⟨79, _⟩ => ⟨S_, .i32⟩
  | .hbm, ⟨80, _⟩ => ⟨S320000, .i32⟩
  | .hbm, ⟨81, _⟩ => ⟨S320000, .i32⟩
  | .hbm, ⟨82, _⟩ => ⟨S320000, .i32⟩
  | .hbm, ⟨83, _⟩ => ⟨S320000x1, .i32⟩
  | .hbm, ⟨84, _⟩ => ⟨S320000x256, .f32⟩
  | .hbm, ⟨85, _⟩ => ⟨S320000x1, .f32⟩
  | .hbm, ⟨86, _⟩ => ⟨S320000x256, .f32⟩
  | .hbm, ⟨87, _⟩ => ⟨S320000x256, .f32⟩
  | .hbm, ⟨88, _⟩ => ⟨S_, .f32⟩
  | .hbm, ⟨89, _⟩ => ⟨S20000x256, .f32⟩
  | .hbm, ⟨90, _⟩ => ⟨S320000x1, .i32⟩
  | .hbm, ⟨91, _⟩ => ⟨S20000x256, .f32⟩
  | .hbm, ⟨92, _⟩ => ⟨S20000x1, .f32⟩
  | .hbm, ⟨93, _⟩ => ⟨S20000x256, .f32⟩
  | .hbm, ⟨94, _⟩ => ⟨S20000x256, .f32⟩
  | .hbm, ⟨95, _⟩ => ⟨S20000x256, .f32⟩
  | .hbm, ⟨96, _⟩ => ⟨S1x256, .f32⟩
  | .hbm, ⟨97, _⟩ => ⟨S20000x256, .f32⟩
  | .hbm, ⟨98, _⟩ => ⟨S20000x256, .f32⟩
  | .hbm, ⟨99, _⟩ => ⟨S_, .f32⟩
  | .hbm, ⟨100, _⟩ => ⟨S20000x256, .f32⟩
  | .hbm, ⟨101, _⟩ => ⟨S20000x256, .i1⟩
  | .hbm, ⟨102, _⟩ => ⟨S20000x256, .f32⟩
  | .hbm, ⟨103, _⟩ => ⟨S20000x256, .f32⟩
  | .hbm, ⟨104, _⟩ => ⟨S20000x256, .f32⟩
  | .hbm, ⟨105, _⟩ => ⟨S1x256, .f32⟩
  | .hbm, ⟨106, _⟩ => ⟨S20000x256, .f32⟩
  | .hbm, ⟨107, _⟩ => ⟨S1x256, .f32⟩
  | .hbm, ⟨108, _⟩ => ⟨S20000x256, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S320000x1_S320000x512_0_1 : S320000x1.BroadcastsInDim S320000x512 (![0, 1] : Fin 2 → Fin S320000x512.rank)
  bcast_S_S20000x512 : S_.BroadcastsInDim S20000x512 (![] : Fin 0 → Fin S20000x512.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  shapeCasts_S256_S1x256 : S256.ShapeCasts S1x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  dot_S2000x512_S512x512_S2000x512_1_0_0_1_n_n_wf : DotDims.WF S2000x512 S512x512 S2000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S2000x512_S512x256_S2000x256_1_0_0_1_n_n_wf : DotDims.WF S2000x512 S512x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .f32 = 32 ∨ (Rect.block (s := S20000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S20000x256.size a
  hwx2_3 : ∀ i : grid2.Coords, EltTy.bits .f32 = 32 ∨ (Rect.block (s := S20000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S20000x256.size a
  hwx3_3 : ∀ i : grid3.Coords, EltTy.bits .f32 = 32 ∨ (Rect.block (s := S20000x256) S2000x256.size (cc3_transform_3 i) (hinb3_3 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v80) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩
abbrev S256x256 : Shape := ⟨2, ![256, 256]⟩
abbrev S1x320000 : Shape := ⟨2, ![1, 320000]⟩
abbrev S320000 : Shape := ⟨1, ![320000]⟩
abbrev S20000 : Shape := ⟨1, ![20000]⟩
abbrev S320000x1 : Shape := ⟨2, ![320000, 1]⟩
abbrev S320000x512 : Shape := ⟨2, ![320000, 512]⟩
abbrev S20000x1 : Shape := ⟨2, ![20000, 1]⟩
abbrev S1x512 : Shape := ⟨2, ![1, 512]⟩
abbrev S20000x256 : Shape := ⟨2, ![20000, 256]⟩
abbrev S320000x256 : Shape := ⟨2, ![320000, 256]⟩
abbrev S1x256 : Shape := ⟨2, ![1, 256]⟩

abbrev nBuf : Space → Nat
  | .hbm => 158
  | .vmem => 0
  | .smem => 0
  | _ => 0

abbrev hbmTy0_0 (i : Nat) : BufTy := match i % 128 with
  | 0 => ⟨S20000x512, .f32⟩
  | 1 => ⟨S2x320000, .i32⟩
  | 2 => ⟨S512x512, .f32⟩
  | 3 => ⟨S512, .f32⟩
  | 4 => ⟨S512x256, .f32⟩
  | 5 => ⟨S256, .f32⟩
  | 6 => ⟨S_, .f32⟩
  | 7 => ⟨S256x256, .f32⟩
  | 8 => ⟨S256, .f32⟩
  | 9 => ⟨S256x256, .f32⟩
  | 10 => ⟨S256, .f32⟩
  | 11 => ⟨S1x320000, .i32⟩
  | 12 => ⟨S320000, .i32⟩
  | 13 => ⟨S1x320000, .i32⟩
  | 14 => ⟨S320000, .i32⟩
  | 15 => ⟨S20000x512, .f32⟩
  | 16 => ⟨S_, .f32⟩
  | 17 => ⟨S320000, .f32⟩
  | 18 => ⟨S_, .f32⟩
  | 19 => ⟨S20000, .f32⟩
  | 20 => ⟨S320000x1, .i32⟩
  | 21 => ⟨S20000, .f32⟩
  | 22 => ⟨S_, .f32⟩
  | 23 => ⟨S20000, .f32⟩
  | 24 => ⟨S20000, .f32⟩
  | 25 => ⟨S20000, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .f32⟩
  | 44 => ⟨S320000, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000x512, .f32⟩
  | 54 => ⟨S320000x1, .f32⟩
  | 55 => ⟨S320000x512, .f32⟩
  | 56 => ⟨S320000x512, .f32⟩
  | 57 => ⟨S_, .f32⟩
  | 58 => ⟨S20000x512, .f32⟩
  | 59 => ⟨S320000x1, .i32⟩
  | 60 => ⟨S20000x512, .f32⟩
  | 61 => ⟨S20000, .f32⟩
  | 62 => ⟨S20000x1, .f32⟩
  | 63 => ⟨S20000x512, .f32⟩
  | 64 => ⟨S20000x512, .f32⟩
  | 65 => ⟨S20000x512, .f32⟩
  | 66 => ⟨S1x512, .f32⟩
  | 67 => ⟨S20000x512, .f32⟩
  | 68 => ⟨S20000x512, .f32⟩
  | 69 => ⟨S_, .f32⟩
  | 70 => ⟨S20000x512, .f32⟩
  | 71 => ⟨S20000x512, .i1⟩
  | 72 => ⟨S20000x512, .f32⟩
  | 73 => ⟨S20000x512, .f32⟩
  | 74 => ⟨S20000x512, .f32⟩
  | 75 => ⟨S20000x256, .f32⟩
  | 76 => ⟨S_, .f32⟩
  | 77 => ⟨S320000, .f32⟩
  | 78 => ⟨S_, .f32⟩
  | 79 => ⟨S20000, .f32⟩
  | 80 => ⟨S320000x1, .i32⟩
  | 81 => ⟨S20000, .f32⟩
  | 82 => ⟨S_, .f32⟩
  | 83 => ⟨S20000, .f32⟩
  | 84 => ⟨S20000, .f32⟩
  | 85 => ⟨S20000, .f32⟩
  | 86 => ⟨S_, .i32⟩
  | 87 => ⟨S320000, .i32⟩
  | 88 => ⟨S320000, .i1⟩
  | 89 => ⟨S_, .i32⟩
  | 90 => ⟨S320000, .i32⟩
  | 91 => ⟨S320000, .i32⟩
  | 92 => ⟨S320000, .i32⟩
  | 93 => ⟨S320000x1, .i32⟩
  | 94 => ⟨S320000, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S320000, .f32⟩
  | 104 => ⟨S320000, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x256, .f32⟩
  | 114 => ⟨S320000x1, .f32⟩
  | 115 => ⟨S320000x256, .f32⟩
  | 116 => ⟨S320000x256, .f32⟩
  | 117 => ⟨S_, .f32⟩
  | 118 => ⟨S20000x256, .f32⟩
  | 119 => ⟨S320000x1, .i32⟩
  | 120 => ⟨S20000x256, .f32⟩
  | 121 => ⟨S20000, .f32⟩
  | 122 => ⟨S20000x1, .f32⟩
  | 123 => ⟨S20000x256, .f32⟩
  | 124 => ⟨S20000x256, .f32⟩
  | 125 => ⟨S20000x256, .f32⟩
  | 126 => ⟨S1x256, .f32⟩
  | 127 => ⟨S20000x256, .f32⟩
  | _ => ⟨S20000x512, .f32⟩

abbrev hbmTy0_1 (i : Nat) : BufTy := match i % 128 with
  | 0 => ⟨S20000x256, .f32⟩
  | 1 => ⟨S_, .f32⟩
  | 2 => ⟨S20000x256, .f32⟩
  | 3 => ⟨S20000x256, .i1⟩
  | 4 => ⟨S20000x256, .f32⟩
  | 5 => ⟨S20000x256, .f32⟩
  | 6 => ⟨S20000x256, .f32⟩
  | 7 => ⟨S20000x256, .f32⟩
  | 8 => ⟨S1x256, .f32⟩
  | 9 => ⟨S20000x256, .f32⟩
  | 10 => ⟨S20000x256, .f32⟩
  | 11 => ⟨S_, .f32⟩
  | 12 => ⟨S20000x256, .f32⟩
  | 13 => ⟨S20000x256, .i1⟩
  | 14 => ⟨S_, .f32⟩
  | 15 => ⟨S20000x256, .f32⟩
  | 16 => ⟨S20000x256, .i1⟩
  | 17 => ⟨S_, .f32⟩
  | 18 => ⟨S_, .f32⟩
  | 19 => ⟨S20000x256, .f32⟩
  | 20 => ⟨S20000x256, .f32⟩
  | 21 => ⟨S20000x256, .f32⟩
  | 22 => ⟨S_, .f32⟩
  | 23 => ⟨S20000x256, .f32⟩
  | 24 => ⟨S20000x256, .f32⟩
  | 25 => ⟨S20000x256, .f32⟩
  | 26 => ⟨S20000x256, .f32⟩
  | 27 => ⟨S1x256, .f32⟩
  | 28 => ⟨S20000x256, .f32⟩
  | 29 => ⟨S20000x256, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_16 : Ref sig .tc := ⟨.hbm, 105, rfl⟩
abbrev main_v76 : Ref sig .tc := ⟨.hbm, 106, rfl⟩
abbrev main_v77 : Ref sig .tc := ⟨.hbm, 107, rfl⟩
abbrev main_c_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_18 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_19 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_call2_cst : Ref sig .tc := ⟨.hbm, 139, rfl⟩
abbrev main_call2_v0 : Ref sig .tc := ⟨.hbm, 140, rfl⟩
abbrev main_call2_v1 : Ref sig .tc := ⟨.hbm, 141, rfl⟩
abbrev main_call2_cst_0 : Ref sig .tc := ⟨.hbm, 142, rfl⟩
abbrev main_call2_v2 : Ref sig .tc := ⟨.hbm, 143, rfl⟩
abbrev main_call2_v3 : Ref sig .tc := ⟨.hbm, 144, rfl⟩
abbrev main_call2_cst_1 : Ref sig .tc := ⟨.hbm, 145, rfl⟩
abbrev main_call2_call0_v0 : Ref sig .tc := ⟨.hbm, 146, rfl⟩
abbrev main_call2_call0_v1 : Ref sig .tc := ⟨.hbm, 147, rfl⟩
abbrev main_call2_v4 : Ref sig .tc := ⟨.hbm, 148, rfl⟩
abbrev main_call2_v5 : Ref sig .tc := ⟨.hbm, 149, rfl⟩
abbrev main_call2_cst_2 : Ref sig .tc := ⟨.hbm, 150, rfl⟩
abbrev main_call2_v6 : Ref sig .tc := ⟨.hbm, 151, rfl⟩
abbrev main_call2_v7 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S320000x1_S320000x512_0_1 : S320000x1.BroadcastsInDim S320000x512 (![0, 1] : Fin 2 → Fin S320000x512.rank)
  bcast_S_S20000x512 : S_.BroadcastsInDim S20000x512 (![] : Fin 0 → Fin S20000x512.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  dot_S20000x512_S512x512_S20000x512_1_0_0_1_n_n_wf : DotDims.WF S20000x512 S512x512 S20000x512 [1] [0] [0] [1] [] []
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x256_S20000x256_1_0_0_1_n_n_wf : DotDims.WF S20000x512 S512x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.KernelRun.lean ====
/-
  The idealized kernel's run with its result buffer named.

  The program is four kernel regions among stretches of host operations. Its run from any launch memory ends, on every
  core, with each unscoped buffer at the fold of the segments over the launch contents: a host stretch applies its
  operations in order, a region replaces its output array by what its grid points wrote back and leaves every other buffer
  as it found it. Read at the result buffer this names the program's value; read at an argument buffer it is the launch
  contents, since no segment writes an argument.
-/
import proofs.«133885_j69879117906024_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last boundary's
    contents of it, and the eleven argument arrays end as launched. -/
theorem run_value : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v82 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.KValue

end
-- ==== Proof.RefSpec.lean ====
/-
  The reference network, stage by stage, as pure functions of whole arrays.

  A graph of 20000 nodes has 320000 directed edges, given as a 2×320000 integer array: row 0 the sources, row 1 the
  targets. A node's degree is one plus the number of edges that end in it, its weight d the reciprocal square root of the
  degree, and an edge's coefficient the product of its two ends' weights. A convolution layer multiplies the node features
  by a weight matrix, giving rows y; it then sums into every node the coefficient-scaled rows of the sources of the edges
  that end in it, adds the node's own row scaled by d², and adds a bias row. A negative node index counts from the end.
  Between layers a leaky unit keeps a positive entry and scales any other by one shared slope. Two dense layers follow, the
  first through the exponential linear unit.
-/
import proofs.«133885_j69879117906024_1_alg».proof.ReferenceIdeal

noncomputable section

namespace Cert.ReferenceIdeal.Spec

open Cert.ReferenceIdeal Idealize.ShloMosaic

variable {F : FTy → Type} [FloatOps F] [Facts]
open Facts₀ Facts

/-- An array of the given shape and element type, over the float values `F`. -/
abbrev Arr (F : FTy → Type) [FloatOps F] (s : Shape) (e : EltTy) : Type := (⟨s, e⟩ : BufTy).Contents (Elt F)

/-- The edges' source nodes: row 0 of the edge array. -/
def srcIdx (e : Arr F S2x320000 .i32) : Arr F S320000 .i32 :=
  fun i => shapeCast S320000 (extractStridedSlice S1x320000 ![0, 0] e slices_S2x320000_S1x320000_0_0) shapeCasts_S1x320000_S320000 i

/-- The edges' target nodes: row 1 of the edge array. -/
def dstIdx (e : Arr F S2x320000 .i32) : Arr F S320000 .i32 :=
  fun i => shapeCast S320000 (extractStridedSlice S1x320000 ![1, 0] e slices_S2x320000_S1x320000_1_0) shapeCasts_S1x320000_S320000 i

/-- A negative node index counts from the end: 20000 is added to it. -/
def wrap (i : Arr F S320000 .i32) : Arr F S320000 .i32 :=
  select (cmpi .slt i (broadcastInDim S320000 ![] bcast_S_S320000 (constantI S_ 32 0#32)))
    (addi i (broadcastInDim S320000 ![] bcast_S_S320000 (constantI S_ 32 20000#32))) i

/-- Each node's weight: the reciprocal square root of one plus the number of edges ending in it. -/
def dis (e : Arr F S2x320000 .i32) : Arr F S20000 .f32 :=
  Host.rsqrt (addf
    (Host.scatterAdd scatter_S20000_S320000x1_S320000_n_0_0_1
      (broadcastInDim S20000 ![] bcast_S_S20000 (constant S_ .f32 0x00000000#32))
      (broadcastInDim S320000x1 ![0] bcast_S320000_S320000x1_0 (dstIdx e))
      (broadcastInDim S320000 ![] bcast_S_S320000 (constant S_ .f32 0x3F800000#32)))
    (broadcastInDim S20000 ![] bcast_S_S20000 (constant S_ .f32 0x3F800000#32)))

/-- Each edge's coefficient: the product of its source's and its target's weights. -/
def coef (e : Arr F S2x320000 .i32) : Arr F S320000 .f32 :=
  mulf
    (Host.gather gather_S20000_S320000x1_S320000_n_0_n_n_0_1_1 (dis e)
      (broadcastInDim S320000x1 ![0] bcast_S320000_S320000x1_0 (wrap (srcIdx e))))
    (Host.gather gather_S20000_S320000x1_S320000_n_0_n_n_0_1_1 (dis e)
      (broadcastInDim S320000x1 ![0] bcast_S320000_S320000x1_0 (wrap (dstIdx e))))

/-- The aggregation of a layer of width 512 from the projected rows `y`, given the edges' sources and targets, their
    coefficients and the squared node weights: every node receives the coefficient-scaled rows of its incoming edges'
    sources, its own row scaled by its squared weight, and the bias row. -/
def layer512p (y : Arr F S20000x512 .f32) (src dst : Arr F S320000 .i32) (cf : Arr F S320000 .f32) (d2 : Arr F S20000 .f32)
    (b : Arr F S512 .f32) : Arr F S20000x512 .f32 :=
  addf
    (addf
      (Host.scatterAdd scatter_S20000x512_S320000x1_S320000x512_1_0_0_1
        (broadcastInDim S20000x512 ![] bcast_S_S20000x512 (constant S_ .f32 0x00000000#32))
        (broadcastInDim S320000x1 ![0] bcast_S320000_S320000x1_0 dst)
        (mulf
          (Host.gather gather_S20000x512_S320000x1_S320000x512_1_0_n_n_0_1_1512 y
            (broadcastInDim S320000x1 ![0] bcast_S320000_S320000x1_0 (wrap src)))
          (broadcastInDim S320000x512 ![0, 1] bcast_S320000x1_S320000x512_0_1
            (broadcastInDim S320000x1 ![0] bcast_S320000_S320000x1_0 cf))))
      (mulf y
        (broadcastInDim S20000x512 ![0, 1] bcast_S20000x1_S20000x512_0_1
          (broadcastInDim S20000x1 ![0] bcast_S20000_S20000x1_0 d2))))
    (broadcastInDim S20000x512 ![0, 1] bcast_S1x512_S20000x512_0_1 (broadcastInDim S1x512 ![1] bcast_S512_S1x512_1 b))

/-- The layer of width 512 on a graph: sources, targets, coefficients and squared weights all read off the edge array. -/
def layer512 (y : Arr F S20000x512 .f32) (e : Arr F S2x320000 .i32) (b : Arr F S512 .f32) : Arr F S20000x512 .f32 :=
  layer512p y (srcIdx e) (dstIdx e) (coef e) (mulf (dis e) (dis e)) b

/-- The aggregation of a layer of width 256 from the projected rows `y`, given the edges' sources and targets, their
    coefficients and the squared node weights: every node receives the coefficient-scaled rows of its incoming edges'
    sources, its own row scaled by its squared weight, and the bias row. -/
def layer256p (y : Arr F S20000x256 .f32) (src dst : Arr F S320000 .i32) (cf : Arr F S320000 .f32) (d2 : Arr F S20000 .f32)
    (b : Arr F S256 .f32) : Arr F S20000x256 .f32 :=
  addf
    (addf
      (Host.scatterAdd scatter_S20000x256_S320000x1_S320000x256_1_0_0_1
        (broadcastInDim S20000x256 ![] bcast_S_S20000x256 (constant S_ .f32 0x00000000#32))
        (broadcastInDim S320000x1 ![0] bcast_S320000_S320000x1_0 dst)
        (mulf
          (Host.gather gather_S20000x256_S320000x1_S320000x256_1_0_n_n_0_1_1256 y
            (broadcastInDim S320000x1 ![0] bcast_S320000_S320000x1_0 (wrap src)))
          (broadcastInDim S320000x256 ![0, 1] bcast_S320000x1_S320000x256_0_1
            (broadcastInDim S320000x1 ![0] bcast_S320000_S320000x1_0 cf))))
      (mulf y
        (broadcastInDim S20000x256 ![0, 1] bcast_S20000x1_S20000x256_0_1
          (broadcastInDim S20000x1 ![0] bcast_S20000_S20000x1_0 d2))))
    (broadcastInDim S20000x256 ![0, 1] bcast_S1x256_S20000x256_0_1 (broadcastInDim S1x256 ![1] bcast_S256_S1x256_1 b))

/-- The layer of width 256 on a graph: sources, targets, coefficients and squared weights all read off the edge array. -/
def layer256 (y : Arr F S20000x256 .f32) (e : Arr F S2x320000 .i32) (b : Arr F S256 .f32) : Arr F S20000x256 .f32 :=
  layer256p y (srcIdx e) (dstIdx e) (coef e) (mulf (dis e) (dis e)) b

/-- The leaky unit at width 512: a positive entry is kept, any other is scaled by the shared slope `a`. -/
def prelu512 (a : Arr F S_ .f32) (h : Arr F S20000x512 .f32) : Arr F S20000x512 .f32 :=
  select (cmpf .ogt h (broadcastInDim S20000x512 ![] bcast_S_S20000x512 (constant S_ .f32 0x00000000#32))) h
    (mulf (broadcastInDim S20000x512 ![] bcast_S_S20000x512 a) h)

/-- The leaky unit at width 256. -/
def prelu256 (a : Arr F S_ .f32) (h : Arr F S20000x256 .f32) : Arr F S20000x256 .f32 :=
  select (cmpf .ogt h (broadcastInDim S20000x256 ![] bcast_S_S20000x256 (constant S_ .f32 0x00000000#32))) h
    (mulf (broadcastInDim S20000x256 ![] bcast_S_S20000x256 a) h)

/-- A bias of 256 entries as a 20000×256 array: the same row on every row. -/
def biasRows256 (b : Arr F S256 .f32) : Arr F S20000x256 .f32 :=
  broadcastInDim S20000x256 ![0, 1] bcast_S1x256_S20000x256_0_1 (broadcastInDim S1x256 ![1] bcast_S256_S1x256_1 b)

/-- The exponential linear unit as the reference spells it: a positive entry is kept; elsewhere one times exp(z) - 1, the
    exponent taken of the entry with the positive entries first replaced by zero. -/
def eluR (z : Arr F S20000x256 .f32) : Arr F S20000x256 .f32 :=
  select (cmpf .ogt z (broadcastInDim S20000x256 ![] bcast_S_S20000x256 (constant S_ .f32 0x00000000#32))) z
    (mulf (broadcastInDim S20000x256 ![] bcast_S_S20000x256 (constant S_ .f32 0x3F800000#32))
      (Host.expm1
        (select (cmpf .ogt z (broadcastInDim S20000x256 ![] bcast_S_S20000x256 (constant S_ .f32 0x00000000#32)))
          (broadcastInDim S20000x256 ![] bcast_S_S20000x256 (id (constant S_ .f32 0x00000000#32))) z)))

/-- First convolution layer and its leaky unit. -/
def stage1 (x : Arr F S20000x512 .f32) (e : Arr F S2x320000 .i32) (W1 : Arr F S512x512 .f32) (b1 : Arr F S512 .f32)
    (a : Arr F S_ .f32) : Arr F S20000x512 .f32 :=
  prelu512 a (layer512 (Host.dotGeneral dot_S20000x512_S512x512_S20000x512_1_0_0_1_n_n none x W1) e b1)

/-- Second convolution layer and its leaky unit. -/
def stage2 (h : Arr F S20000x512 .f32) (e : Arr F S2x320000 .i32) (W2 : Arr F S512x256 .f32) (b2 : Arr F S256 .f32)
    (a : Arr F S_ .f32) : Arr F S20000x256 .f32 :=
  prelu256 a (layer256 (Host.dotGeneral dot_S20000x512_S512x256_S20000x256_1_0_0_1_n_n none h W2) e b2)

/-- First dense layer, through the exponential linear unit. -/
def stage3 (h : Arr F S20000x256 .f32) (W3 : Arr F S256x256 .f32) (b3 : Arr F S256 .f32) : Arr F S20000x256 .f32 :=
  eluR (addf (Host.dotGeneral dot_S20000x256_S256x256_S20000x256_1_0_0_1_n_n none h W3) (biasRows256 b3))

/-- Second dense layer. -/
def stage4 (h : Arr F S20000x256 .f32) (W4 : Arr F S256x256 .f32) (b4 : Arr F S256 .f32) : Arr F S20000x256 .f32 :=
  addf (Host.dotGeneral dot_S20000x256_S256x256_S20000x256_1_0_0_1_n_n none h W4) (biasRows256 b4)

/-- The whole network. -/
def refFinal (x : Arr F S20000x512 .f32) (e : Arr F S2x320000 .i32) (W1 : Arr F S512x512 .f32) (b1 : Arr F S512 .f32)
    (W2 : Arr F S512x256 .f32) (b2 : Arr F S256 .f32) (a : Arr F S_ .f32) (W3 : Arr F S256x256 .f32) (b3 : Arr F S256 .f32)
    (W4 : Arr F S256x256 .f32) (b4 : Arr F S256 .f32) : Arr F S20000x256 .f32 :=
  stage4 (stage3 (stage2 (stage1 x e W1 b1 a) e W2 b2 a) W3 b3) W4 b4

end Cert.ReferenceIdeal.Spec

end
-- ==== Proof.KernelHost.lean ====
/-
  The idealized kernel program's host stretches, read as the network's stages.

  Between its kernel regions the program runs on the host exactly the operations of a convolution layer's aggregation: the
  first stretch reads the sources, the targets, the edge coefficients and the squared node weights off the edge array;
  each of the next two aggregates a layer from the rows a region produced and applies the leaky unit; the last two only
  turn a bias of 256 entries into a 1×256 row for the region that follows. A stretch leaves every buffer it does not
  write as it was.
-/
import proofs.«133885_j69879117906024_1_alg».proof.Proof.Gen.KernelIdeal.Launch
import proofs.«133885_j69879117906024_1_alg».proof.Proof.Gen.ReferenceIdeal
import proofs.«133885_j69879117906024_1_alg».proof.Proof.RefSpec
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo

variable {F : FTy → Type} [FloatOps F]

/-! ## The first stretch: the graph's quantities -/

theorem s0_src (W : Valuation τ sig (Elt F)) :
    after hostOps0 W (Proc.devRef .tc main_v1) = Cert.ReferenceIdeal.Spec.srcIdx (W (Proc.devRef .tc main_arg1)) := by
  dsimp only [hostOps0]; after_results_simp; rfl

theorem s0_dst (W : Valuation τ sig (Elt F)) :
    after hostOps0 W (Proc.devRef .tc main_v3) = Cert.ReferenceIdeal.Spec.dstIdx (W (Proc.devRef .tc main_arg1)) := by
  dsimp only [hostOps0]; after_results_simp; rfl

theorem s0_coef (W : Valuation τ sig (Elt F)) :
    after hostOps0 W (Proc.devRef .tc main_v25) = Cert.ReferenceIdeal.Spec.coef (W (Proc.devRef .tc main_arg1)) := by
  dsimp only [hostOps0]; after_results_simp; rfl

theorem s0_dis2 (W : Valuation τ sig (Elt F)) :
    after hostOps0 W (Proc.devRef .tc main_v26)
      = mulf (Cert.ReferenceIdeal.Spec.dis (W (Proc.devRef .tc main_arg1))) (Cert.ReferenceIdeal.Spec.dis (W (Proc.devRef .tc main_arg1))) := by
  dsimp only [hostOps0]; after_results_simp; rfl

/-! ## The second and third stretches: a layer's aggregation and the leaky unit -/

theorem s1_h (W : Valuation τ sig (Elt F)) :
    after hostOps1_1 (after hostOps1 W) (Proc.devRef .tc main_v52)
      = Cert.ReferenceIdeal.Spec.prelu512 (W (Proc.devRef .tc main_arg6))
          (Cert.ReferenceIdeal.Spec.layer512p (W (Proc.devRef .tc main_v27)) (W (Proc.devRef .tc main_v1)) (W (Proc.devRef .tc main_v3))
            (W (Proc.devRef .tc main_v25)) (W (Proc.devRef .tc main_v26)) (W (Proc.devRef .tc main_arg3))) := by
  dsimp only [hostOps1_1, hostOps1]; after_results_simp; rfl

theorem s2_h (W : Valuation τ sig (Elt F)) :
    after hostOps2_2 (after hostOps2_1 (after hostOps2 W)) (Proc.devRef .tc main_v78)
      = Cert.ReferenceIdeal.Spec.prelu256 (W (Proc.devRef .tc main_arg6))
          (Cert.ReferenceIdeal.Spec.layer256p (W (Proc.devRef .tc main_v53)) (W (Proc.devRef .tc main_v1)) (W (Proc.devRef .tc main_v3))
            (W (Proc.devRef .tc main_v25)) (W (Proc.devRef .tc main_v26)) (W (Proc.devRef .tc main_arg5))) := by
  dsimp only [hostOps2_2, hostOps2_1, hostOps2]; after_results_simp; rfl

/-! ## The bias rows -/

theorem s2_bias (W : Valuation τ sig (Elt F)) :
    after hostOps2_2 (after hostOps2_1 (after hostOps2 W)) (Proc.devRef .tc main_v79)
      = fun i => shapeCast S1x256 (W (Proc.devRef .tc main_arg8)) shapeCasts_S256_S1x256 i := by
  dsimp only [hostOps2_2, hostOps2_1, hostOps2]; after_results_simp; rfl

theorem s3_bias (W : Valuation τ sig (Elt F)) :
    after hostOps3 W (Proc.devRef .tc main_v81)
      = fun i => shapeCast S1x256 (W (Proc.devRef .tc main_arg10)) shapeCasts_S256_S1x256 i := by
  dsimp only [hostOps3]; after_results_simp; rfl

/-! ## What a stretch does not write it keeps -/

/-- No operation of the named stretch writes the buffer: each writes its one result buffer, another one. -/
local macro "not_written " ops:ident : tactic => `(tactic|
  exact after_of_forall_not_mem _ _ (List.forall_iff_forall_mem.mp (by
    simp only [$ops:ident, List.Forall, nullary_writes, unary_writes, binary_writes, ternary_writes, reshape_writes,
      Finset.mem_singleton]
    repeat' apply And.intro
    all_goals exact devRef_ne_of_ne (by decide))))

theorem k0_arg0 (W : Valuation τ sig (Elt F)) : after hostOps0 W (Proc.devRef .tc main_arg0) = W (Proc.devRef .tc main_arg0) := by not_written hostOps0
theorem k0_arg2 (W : Valuation τ sig (Elt F)) : after hostOps0 W (Proc.devRef .tc main_arg2) = W (Proc.devRef .tc main_arg2) := by not_written hostOps0
theorem k0_arg3 (W : Valuation τ sig (Elt F)) : after hostOps0 W (Proc.devRef .tc main_arg3) = W (Proc.devRef .tc main_arg3) := by not_written hostOps0
theorem k0_arg4 (W : Valuation τ sig (Elt F)) : after hostOps0 W (Proc.devRef .tc main_arg4) = W (Proc.devRef .tc main_arg4) := by not_written hostOps0
theorem k0_arg5 (W : Valuation τ sig (Elt F)) : after hostOps0 W (Proc.devRef .tc main_arg5) = W (Proc.devRef .tc main_arg5) := by not_written hostOps0
theorem k0_arg6 (W : Valuation τ sig (Elt F)) : after hostOps0 W (Proc.devRef .tc main_arg6) = W (Proc.devRef .tc main_arg6) := by not_written hostOps0
theorem k0_arg7 (W : Valuation τ sig (Elt F)) : after hostOps0 W (Proc.devRef .tc main_arg7) = W (Proc.devRef .tc main_arg7) := by not_written hostOps0
theorem k0_arg8 (W : Valuation τ sig (Elt F)) : after hostOps0 W (Proc.devRef .tc main_arg8) = W (Proc.devRef .tc main_arg8) := by not_written hostOps0
theorem k0_arg9 (W : Valuation τ sig (Elt F)) : after hostOps0 W (Proc.devRef .tc main_arg9) = W (Proc.devRef .tc main_arg9) := by not_written hostOps0
theorem k0_arg10 (W : Valuation τ sig (Elt F)) : after hostOps0 W (Proc.devRef .tc main_arg10) = W (Proc.devRef .tc main_arg10) := by not_written hostOps0
theorem k1_v1 (W : Valuation τ sig (Elt F)) : after hostOps1 W (Proc.devRef .tc main_v1) = W (Proc.devRef .tc main_v1) := by not_written hostOps1
theorem k1_v3 (W : Valuation τ sig (Elt F)) : after hostOps1 W (Proc.devRef .tc main_v3) = W (Proc.devRef .tc main_v3) := by not_written hostOps1
theorem k1_v25 (W : Valuation τ sig (Elt F)) : after hostOps1 W (Proc.devRef .tc main_v25) = W (Proc.devRef .tc main_v25) := by not_written hostOps1
theorem k1_v26 (W : Valuation τ sig (Elt F)) : after hostOps1 W (Proc.devRef .tc main_v26) = W (Proc.devRef .tc main_v26) := by not_written hostOps1
theorem k1_arg4 (W : Valuation τ sig (Elt F)) : after hostOps1 W (Proc.devRef .tc main_arg4) = W (Proc.devRef .tc main_arg4) := by not_written hostOps1
theorem k1_arg5 (W : Valuation τ sig (Elt F)) : after hostOps1 W (Proc.devRef .tc main_arg5) = W (Proc.devRef .tc main_arg5) := by not_written hostOps1
theorem k1_arg6 (W : Valuation τ sig (Elt F)) : after hostOps1 W (Proc.devRef .tc main_arg6) = W (Proc.devRef .tc main_arg6) := by not_written hostOps1
theorem k1_arg7 (W : Valuation τ sig (Elt F)) : after hostOps1 W (Proc.devRef .tc main_arg7) = W (Proc.devRef .tc main_arg7) := by not_written hostOps1
theorem k1_arg8 (W : Valuation τ sig (Elt F)) : after hostOps1 W (Proc.devRef .tc main_arg8) = W (Proc.devRef .tc main_arg8) := by not_written hostOps1
theorem k1_arg9 (W : Valuation τ sig (Elt F)) : after hostOps1 W (Proc.devRef .tc main_arg9) = W (Proc.devRef .tc main_arg9) := by not_written hostOps1
theorem k1_arg10 (W : Valuation τ sig (Elt F)) : after hostOps1 W (Proc.devRef .tc main_arg10) = W (Proc.devRef .tc main_arg10) := by not_written hostOps1
theorem k1b_v1 (W : Valuation τ sig (Elt F)) : after hostOps1_1 W (Proc.devRef .tc main_v1) = W (Proc.devRef .tc main_v1) := by not_written hostOps1_1
theorem k1b_v3 (W : Valuation τ sig (Elt F)) : after hostOps1_1 W (Proc.devRef .tc main_v3) = W (Proc.devRef .tc main_v3) := by not_written hostOps1_1
theorem k1b_v25 (W : Valuation τ sig (Elt F)) : after hostOps1_1 W (Proc.devRef .tc main_v25) = W (Proc.devRef .tc main_v25) := by not_written hostOps1_1
theorem k1b_v26 (W : Valuation τ sig (Elt F)) : after hostOps1_1 W (Proc.devRef .tc main_v26) = W (Proc.devRef .tc main_v26) := by not_written hostOps1_1
theorem k1b_arg4 (W : Valuation τ sig (Elt F)) : after hostOps1_1 W (Proc.devRef .tc main_arg4) = W (Proc.devRef .tc main_arg4) := by not_written hostOps1_1
theorem k1b_arg5 (W : Valuation τ sig (Elt F)) : after hostOps1_1 W (Proc.devRef .tc main_arg5) = W (Proc.devRef .tc main_arg5) := by not_written hostOps1_1
theorem k1b_arg6 (W : Valuation τ sig (Elt F)) : after hostOps1_1 W (Proc.devRef .tc main_arg6) = W (Proc.devRef .tc main_arg6) := by not_written hostOps1_1
theorem k1b_arg7 (W : Valuation τ sig (Elt F)) : after hostOps1_1 W (Proc.devRef .tc main_arg7) = W (Proc.devRef .tc main_arg7) := by not_written hostOps1_1
theorem k1b_arg8 (W : Valuation τ sig (Elt F)) : after hostOps1_1 W (Proc.devRef .tc main_arg8) = W (Proc.devRef .tc main_arg8) := by not_written hostOps1_1
theorem k1b_arg9 (W : Valuation τ sig (Elt F)) : after hostOps1_1 W (Proc.devRef .tc main_arg9) = W (Proc.devRef .tc main_arg9) := by not_written hostOps1_1
theorem k1b_arg10 (W : Valuation τ sig (Elt F)) : after hostOps1_1 W (Proc.devRef .tc main_arg10) = W (Proc.devRef .tc main_arg10) := by not_written hostOps1_1
theorem k2_arg7 (W : Valuation τ sig (Elt F)) : after hostOps2 W (Proc.devRef .tc main_arg7) = W (Proc.devRef .tc main_arg7) := by not_written hostOps2
theorem k2_arg9 (W : Valuation τ sig (Elt F)) : after hostOps2 W (Proc.devRef .tc main_arg9) = W (Proc.devRef .tc main_arg9) := by not_written hostOps2
theorem k2_arg10 (W : Valuation τ sig (Elt F)) : after hostOps2 W (Proc.devRef .tc main_arg10) = W (Proc.devRef .tc main_arg10) := by not_written hostOps2
theorem k2b_arg7 (W : Valuation τ sig (Elt F)) : after hostOps2_1 W (Proc.devRef .tc main_arg7) = W (Proc.devRef .tc main_arg7) := by not_written hostOps2_1
theorem k2b_arg9 (W : Valuation τ sig (Elt F)) : after hostOps2_1 W (Proc.devRef .tc main_arg9) = W (Proc.devRef .tc main_arg9) := by not_written hostOps2_1
theorem k2b_arg10 (W : Valuation τ sig (Elt F)) : after hostOps2_1 W (Proc.devRef .tc main_arg10) = W (Proc.devRef .tc main_arg10) := by not_written hostOps2_1
theorem k2c_arg7 (W : Valuation τ sig (Elt F)) : after hostOps2_2 W (Proc.devRef .tc main_arg7) = W (Proc.devRef .tc main_arg7) := by not_written hostOps2_2
theorem k2c_arg9 (W : Valuation τ sig (Elt F)) : after hostOps2_2 W (Proc.devRef .tc main_arg9) = W (Proc.devRef .tc main_arg9) := by not_written hostOps2_2
theorem k2c_arg10 (W : Valuation τ sig (Elt F)) : after hostOps2_2 W (Proc.devRef .tc main_arg10) = W (Proc.devRef .tc main_arg10) := by not_written hostOps2_2
theorem k3_v80 (W : Valuation τ sig (Elt F)) : after hostOps3 W (Proc.devRef .tc main_v80) = W (Proc.devRef .tc main_v80) := by not_written hostOps3
theorem k3_arg9 (W : Valuation τ sig (Elt F)) : after hostOps3 W (Proc.devRef .tc main_arg9) = W (Proc.devRef .tc main_arg9) := by not_written hostOps3

end Cert.KernelIdeal.KHost

end
-- ==== Proof.Spec.lean ====
/-
  The dense stages of the network, as functions of whole arrays on the extended reals.

  Every dense stage multiplies a 20000-row activation matrix by a weight matrix: entry (r, c) of the product is the sum over
  the contracted index k of activation (r, k) times weight (k, c). Two of the stages then add a row of biases, the same row
  to every row of the product, and one of those applies the unit's activation entry by entry: a positive entry is kept, any
  other entry y becomes exp y - 1.
-/
import Idealize.ShloMosaic.PureOps.Ideal
import Idealize.ShloMosaic.Lib.ValueIdx

noncomputable section

namespace Cert.Spec

open Idealize.ShloMosaic Idealize.ShloMosaic.ValueIdx

variable {M K N : Nat}

/-- The product of an M×K matrix and a K×N matrix: entry (r, c) is the sum over k of x (r, k) · w (k, c). -/
def mm (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

/-- The product with one row of biases added to each of its rows: entry (r, c) is the product's entry plus b (0, c). -/
def mmb (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => mm x w j + b (ix2 0 (j 1))

/-- The exponential linear unit on one extended real: y where y is positive, exp y - 1 elsewhere. -/
def elu (y : EReal) : EReal := if 0 < y then y else Ideal.exp y - 1

/-- The biased product with the exponential linear unit applied to every entry. -/
def mmbElu (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => elu (mmb x w b j)

end Cert.Spec

end
-- ==== Proof.KernelSpec.lean ====
/-
  The network as the idealized kernel program computes it, as one function of its arguments.

  The aggregation, the leaky unit and the graph's quantities are the reference's own functions; each dense projection is a
  product of matrices read entry by entry as a sum over the contracted index, the last two with a bias row added — the
  bias of 256 entries laid out as one 1×256 row — and the third through the exponential linear unit.
-/
import proofs.«133885_j69879117906024_1_alg».proof.KernelIdeal
import proofs.«133885_j69879117906024_1_alg».proof.Proof.Gen.KernelIdeal
import proofs.«133885_j69879117906024_1_alg».proof.Proof.Gen.ReferenceIdeal
import proofs.«133885_j69879117906024_1_alg».proof.Proof.RefSpec
import proofs.«133885_j69879117906024_1_alg».proof.Proof.Spec

noncomputable section

namespace Cert.KernelIdeal.KValue

open Cert.KernelIdeal Idealize.ShloMosaic
open Cert.KernelIdeal.Facts₀ Cert.KernelIdeal.Facts

/-- An array of the given shape and element type on the extended reals. -/
abbrev IArr (s : Shape) (e : EltTy) : Type := (⟨s, e⟩ : BufTy).Contents (Elt Ideal)

/-- First convolution layer and its leaky unit, the projection as a dense product. -/
def kstage1 (x : IArr S20000x512 .f32) (e : IArr S2x320000 .i32) (W1 : IArr S512x512 .f32) (b1 : IArr S512 .f32)
    (a : IArr S_ .f32) : IArr S20000x512 .f32 :=
  Cert.ReferenceIdeal.Spec.prelu512 a
    (Cert.ReferenceIdeal.Spec.layer512 (Cert.Spec.mm (M := 20000) (K := 512) (N := 512) x W1) e b1)

/-- Second convolution layer and its leaky unit. -/
def kstage2 (h : IArr S20000x512 .f32) (e : IArr S2x320000 .i32) (W2 : IArr S512x256 .f32) (b2 : IArr S256 .f32)
    (a : IArr S_ .f32) : IArr S20000x256 .f32 :=
  Cert.ReferenceIdeal.Spec.prelu256 a
    (Cert.ReferenceIdeal.Spec.layer256 (Cert.Spec.mm (M := 20000) (K := 512) (N := 256) h W2) e b2)

/-- A bias of 256 entries as one 1×256 row. -/
def biasRow (b : IArr S256 .f32) : IArr S1x256 .f32 := fun i => shapeCast S1x256 b shapeCasts_S256_S1x256 i

/-- First dense layer, through the exponential linear unit. -/
def kstage3 (h : IArr S20000x256 .f32) (W3 : IArr S256x256 .f32) (b3 : IArr S256 .f32) : IArr S20000x256 .f32 :=
  Cert.Spec.mmbElu (M := 20000) (K := 256) (N := 256) h W3 (biasRow b3)

/-- Second dense layer. -/
def kstage4 (h : IArr S20000x256 .f32) (W4 : IArr S256x256 .f32) (b4 : IArr S256 .f32) : IArr S20000x256 .f32 :=
  Cert.Spec.mmb (M := 20000) (K := 256) (N := 256) h W4 (biasRow b4)

/-- The whole network as the kernel program computes it. -/
def kfinal (x : IArr S20000x512 .f32) (e : IArr S2x320000 .i32) (W1 : IArr S512x512 .f32) (b1 : IArr S512 .f32)
    (W2 : IArr S512x256 .f32) (b2 : IArr S256 .f32) (a : IArr S_ .f32) (W3 : IArr S256x256 .f32) (b3 : IArr S256 .f32)
    (W4 : IArr S256x256 .f32) (b4 : IArr S256 .f32) : IArr S20000x256 .f32 :=
  kstage4 (kstage3 (kstage2 (kstage1 x e W1 b1 a) e W2 b2 a) W3 b3) W4 b4

end Cert.KernelIdeal.KValue

end
-- ==== Proof.KernelValue.lean ====
/-
  The idealized kernel program's value as one function of its arguments.

  Boundary by boundary, the buffer contents are read off the program's segments: a host stretch gives the graph's quantities
  or a layer's aggregation and leaky unit; a region replaces its output array by the dense product of the arrays it was
  entered with (with the bias row, and the exponential linear unit, in the last two); what a segment does not write it
  keeps, the arguments in particular. Composed, the result buffer holds the network of four dense products, two
  aggregations, two leaky units and one exponential linear unit applied to the launch contents of the arguments.
  The four regions' products enter as hypotheses, so that this module depends on no region's proof.
-/
import proofs.«133885_j69879117906024_1_alg».proof.Proof.Gen.KernelIdeal.Frame
import proofs.«133885_j69879117906024_1_alg».proof.Proof.KernelHost
import proofs.«133885_j69879117906024_1_alg».proof.Proof.Spec
import proofs.«133885_j69879117906024_1_alg».proof.Proof.KernelSpec

set_option maxRecDepth 16384

noncomputable section

namespace Cert.KernelIdeal.KValue

open Cert.KernelIdeal Cert.KernelIdeal.Gen Cert.KernelIdeal.KHost
open Idealize.ShloMosaic Idealize.ShloMosaic.TcCoe Idealize.ShloMosaic.StableHlo

variable (m : (ℓ : Loc nD τ sig) → Buf (Elt Ideal) ℓ) (ρ : Dev nD → PrngReg) (c : Dev nD)

/-! ## The arguments, and the graph's quantities, at the boundaries where they are read -/

theorem a1_0 : W1 (F := Ideal) m ρ c (Proc.devRef .tc main_arg0) = m ((c : Thread nD τ).loc main_arg0) := k0_arg0 (W0 m ρ c)
theorem a1_2 : W1 (F := Ideal) m ρ c (Proc.devRef .tc main_arg2) = m ((c : Thread nD τ).loc main_arg2) := k0_arg2 (W0 m ρ c)
theorem a1_3 : W1 (F := Ideal) m ρ c (Proc.devRef .tc main_arg3) = m ((c : Thread nD τ).loc main_arg3) := k0_arg3 (W0 m ρ c)
theorem a1_4 : W1 (F := Ideal) m ρ c (Proc.devRef .tc main_arg4) = m ((c : Thread nD τ).loc main_arg4) := k0_arg4 (W0 m ρ c)
theorem a1_5 : W1 (F := Ideal) m ρ c (Proc.devRef .tc main_arg5) = m ((c : Thread nD τ).loc main_arg5) := k0_arg5 (W0 m ρ c)
theorem a1_6 : W1 (F := Ideal) m ρ c (Proc.devRef .tc main_arg6) = m ((c : Thread nD τ).loc main_arg6) := k0_arg6 (W0 m ρ c)
theorem a1_7 : W1 (F := Ideal) m ρ c (Proc.devRef .tc main_arg7) = m ((c : Thread nD τ).loc main_arg7) := k0_arg7 (W0 m ρ c)
theorem a1_8 : W1 (F := Ideal) m ρ c (Proc.devRef .tc main_arg8) = m ((c : Thread nD τ).loc main_arg8) := k0_arg8 (W0 m ρ c)
theorem a1_9 : W1 (F := Ideal) m ρ c (Proc.devRef .tc main_arg9) = m ((c : Thread nD τ).loc main_arg9) := k0_arg9 (W0 m ρ c)
theorem a1_10 : W1 (F := Ideal) m ρ c (Proc.devRef .tc main_arg10) = m ((c : Thread nD τ).loc main_arg10) := k0_arg10 (W0 m ρ c)
theorem a2_3 : W2 (F := Ideal) m ρ c (Proc.devRef .tc main_arg3) = m ((c : Thread nD τ).loc main_arg3) := (W2_of_ne m ρ c main_arg3 (by decide)).trans (a1_3 m ρ c)
theorem a2_4 : W2 (F := Ideal) m ρ c (Proc.devRef .tc main_arg4) = m ((c : Thread nD τ).loc main_arg4) := (W2_of_ne m ρ c main_arg4 (by decide)).trans (a1_4 m ρ c)
theorem a2_5 : W2 (F := Ideal) m ρ c (Proc.devRef .tc main_arg5) = m ((c : Thread nD τ).loc main_arg5) := (W2_of_ne m ρ c main_arg5 (by decide)).trans (a1_5 m ρ c)
theorem a2_6 : W2 (F := Ideal) m ρ c (Proc.devRef .tc main_arg6) = m ((c : Thread nD τ).loc main_arg6) := (W2_of_ne m ρ c main_arg6 (by decide)).trans (a1_6 m ρ c)
theorem a2_7 : W2 (F := Ideal) m ρ c (Proc.devRef .tc main_arg7) = m ((c : Thread nD τ).loc main_arg7) := (W2_of_ne m ρ c main_arg7 (by decide)).trans (a1_7 m ρ c)
theorem a2_8 : W2 (F := Ideal) m ρ c (Proc.devRef .tc main_arg8) = m ((c : Thread nD τ).loc main_arg8) := (W2_of_ne m ρ c main_arg8 (by decide)).trans (a1_8 m ρ c)
theorem a2_9 : W2 (F := Ideal) m ρ c (Proc.devRef .tc main_arg9) = m ((c : Thread nD τ).loc main_arg9) := (W2_of_ne m ρ c main_arg9 (by decide)).trans (a1_9 m ρ c)
theorem a2_10 : W2 (F := Ideal) m ρ c (Proc.devRef .tc main_arg10) = m ((c : Thread nD τ).loc main_arg10) := (W2_of_ne m ρ c main_arg10 (by decide)).trans (a1_10 m ρ c)
theorem a3_4 : W3 (F := Ideal) m ρ c (Proc.devRef .tc main_arg4) = m ((c : Thread nD τ).loc main_arg4) := (k1_arg4 (W2 m ρ c)).trans (a2_4 m ρ c)
theorem a3_5 : W3 (F := Ideal) m ρ c (Proc.devRef .tc main_arg5) = m ((c : Thread nD τ).loc main_arg5) := (k1_arg5 (W2 m ρ c)).trans (a2_5 m ρ c)
theorem a3_6 : W3 (F := Ideal) m ρ c (Proc.devRef .tc main_arg6) = m ((c : Thread nD τ).loc main_arg6) := (k1_arg6 (W2 m ρ c)).trans (a2_6 m ρ c)
theorem a3_7 : W3 (F := Ideal) m ρ c (Proc.devRef .tc main_arg7) = m ((c : Thread nD τ).loc main_arg7) := (k1_arg7 (W2 m ρ c)).trans (a2_7 m ρ c)
theorem a3_8 : W3 (F := Ideal) m ρ c (Proc.devRef .tc main_arg8) = m ((c : Thread nD τ).loc main_arg8) := (k1_arg8 (W2 m ρ c)).trans (a2_8 m ρ c)
theorem a3_9 : W3 (F := Ideal) m ρ c (Proc.devRef .tc main_arg9) = m ((c : Thread nD τ).loc main_arg9) := (k1_arg9 (W2 m ρ c)).trans (a2_9 m ρ c)
theorem a3_10 : W3 (F := Ideal) m ρ c (Proc.devRef .tc main_arg10) = m ((c : Thread nD τ).loc main_arg10) := (k1_arg10 (W2 m ρ c)).trans (a2_10 m ρ c)
theorem a4_4 : W4 (F := Ideal) m ρ c (Proc.devRef .tc main_arg4) = m ((c : Thread nD τ).loc main_arg4) := (k1b_arg4 (W3 m ρ c)).trans (a3_4 m ρ c)
theorem a4_5 : W4 (F := Ideal) m ρ c (Proc.devRef .tc main_arg5) = m ((c : Thread nD τ).loc main_arg5) := (k1b_arg5 (W3 m ρ c)).trans (a3_5 m ρ c)
theorem a4_6 : W4 (F := Ideal) m ρ c (Proc.devRef .tc main_arg6) = m ((c : Thread nD τ).loc main_arg6) := (k1b_arg6 (W3 m ρ c)).trans (a3_6 m ρ c)
theorem a4_7 : W4 (F := Ideal) m ρ c (Proc.devRef .tc main_arg7) = m ((c : Thread nD τ).loc main_arg7) := (k1b_arg7 (W3 m ρ c)).trans (a3_7 m ρ c)
theorem a4_8 : W4 (F := Ideal) m ρ c (Proc.devRef .tc main_arg8) = m ((c : Thread nD τ).loc main_arg8) := (k1b_arg8 (W3 m ρ c)).trans (a3_8 m ρ c)
theorem a4_9 : W4 (F := Ideal) m ρ c (Proc.devRef .tc main_arg9) = m ((c : Thread nD τ).loc main_arg9) := (k1b_arg9 (W3 m ρ c)).trans (a3_9 m ρ c)
theorem a4_10 : W4 (F := Ideal) m ρ c (Proc.devRef .tc main_arg10) = m ((c : Thread nD τ).loc main_arg10) := (k1b_arg10 (W3 m ρ c)).trans (a3_10 m ρ c)
theorem a5_5 : W5 (F := Ideal) m ρ c (Proc.devRef .tc main_arg5) = m ((c : Thread nD τ).loc main_arg5) := (W5_of_ne m ρ c main_arg5 (by decide)).trans (a4_5 m ρ c)
theorem a5_6 : W5 (F := Ideal) m ρ c (Proc.devRef .tc main_arg6) = m ((c : Thread nD τ).loc main_arg6) := (W5_of_ne m ρ c main_arg6 (by decide)).trans (a4_6 m ρ c)
theorem a5_7 : W5 (F := Ideal) m ρ c (Proc.devRef .tc main_arg7) = m ((c : Thread nD τ).loc main_arg7) := (W5_of_ne m ρ c main_arg7 (by decide)).trans (a4_7 m ρ c)
theorem a5_8 : W5 (F := Ideal) m ρ c (Proc.devRef .tc main_arg8) = m ((c : Thread nD τ).loc main_arg8) := (W5_of_ne m ρ c main_arg8 (by decide)).trans (a4_8 m ρ c)
theorem a5_9 : W5 (F := Ideal) m ρ c (Proc.devRef .tc main_arg9) = m ((c : Thread nD τ).loc main_arg9) := (W5_of_ne m ρ c main_arg9 (by decide)).trans (a4_9 m ρ c)
theorem a5_10 : W5 (F := Ideal) m ρ c (Proc.devRef .tc main_arg10) = m ((c : Thread nD τ).loc main_arg10) := (W5_of_ne m ρ c main_arg10 (by decide)).trans (a4_10 m ρ c)
theorem a6_7 : W6 (F := Ideal) m ρ c (Proc.devRef .tc main_arg7) = m ((c : Thread nD τ).loc main_arg7) := (k2_arg7 (W5 m ρ c)).trans (a5_7 m ρ c)
theorem a6_9 : W6 (F := Ideal) m ρ c (Proc.devRef .tc main_arg9) = m ((c : Thread nD τ).loc main_arg9) := (k2_arg9 (W5 m ρ c)).trans (a5_9 m ρ c)
theorem a6_10 : W6 (F := Ideal) m ρ c (Proc.devRef .tc main_arg10) = m ((c : Thread nD τ).loc main_arg10) := (k2_arg10 (W5 m ρ c)).trans (a5_10 m ρ c)
theorem a7_7 : W7 (F := Ideal) m ρ c (Proc.devRef .tc main_arg7) = m ((c : Thread nD τ).loc main_arg7) := (k2b_arg7 (W6 m ρ c)).trans (a6_7 m ρ c)
theorem a7_9 : W7 (F := Ideal) m ρ c (Proc.devRef .tc main_arg9) = m ((c : Thread nD τ).loc main_arg9) := (k2b_arg9 (W6 m ρ c)).trans (a6_9 m ρ c)
theorem a7_10 : W7 (F := Ideal) m ρ c (Proc.devRef .tc main_arg10) = m ((c : Thread nD τ).loc main_arg10) := (k2b_arg10 (W6 m ρ c)).trans (a6_10 m ρ c)
theorem a8_7 : W8 (F := Ideal) m ρ c (Proc.devRef .tc main_arg7) = m ((c : Thread nD τ).loc main_arg7) := (k2c_arg7 (W7 m ρ c)).trans (a7_7 m ρ c)
theorem a8_9 : W8 (F := Ideal) m ρ c (Proc.devRef .tc main_arg9) = m ((c : Thread nD τ).loc main_arg9) := (k2c_arg9 (W7 m ρ c)).trans (a7_9 m ρ c)
theorem a8_10 : W8 (F := Ideal) m ρ c (Proc.devRef .tc main_arg10) = m ((c : Thread nD τ).loc main_arg10) := (k2c_arg10 (W7 m ρ c)).trans (a7_10 m ρ c)
theorem a9_9 : W9 (F := Ideal) m ρ c (Proc.devRef .tc main_arg9) = m ((c : Thread nD τ).loc main_arg9) := (W9_of_ne m ρ c main_arg9 (by decide)).trans (a8_9 m ρ c)
theorem a9_10 : W9 (F := Ideal) m ρ c (Proc.devRef .tc main_arg10) = m ((c : Thread nD τ).loc main_arg10) := (W9_of_ne m ρ c main_arg10 (by decide)).trans (a8_10 m ρ c)
theorem a10_9 : W10 (F := Ideal) m ρ c (Proc.devRef .tc main_arg9) = m ((c : Thread nD τ).loc main_arg9) := (k3_arg9 (W9 m ρ c)).trans (a9_9 m ρ c)
theorem c1_v1 : W1 (F := Ideal) m ρ c (Proc.devRef .tc main_v1) = Cert.ReferenceIdeal.Spec.srcIdx (m ((c : Thread nD τ).loc main_arg1)) := s0_src (W0 m ρ c)
theorem c2_v1 : W2 (F := Ideal) m ρ c (Proc.devRef .tc main_v1) = Cert.ReferenceIdeal.Spec.srcIdx (m ((c : Thread nD τ).loc main_arg1)) := (W2_of_ne m ρ c main_v1 (by decide)).trans (c1_v1 m ρ c)
theorem c5_v1 : W5 (F := Ideal) m ρ c (Proc.devRef .tc main_v1) = Cert.ReferenceIdeal.Spec.srcIdx (m ((c : Thread nD τ).loc main_arg1)) :=
  (W5_of_ne m ρ c main_v1 (by decide)).trans ((k1b_v1 (W3 m ρ c)).trans ((k1_v1 (W2 m ρ c)).trans (c2_v1 m ρ c)))
theorem c1_v3 : W1 (F := Ideal) m ρ c (Proc.devRef .tc main_v3) = Cert.ReferenceIdeal.Spec.dstIdx (m ((c : Thread nD τ).loc main_arg1)) := s0_dst (W0 m ρ c)
theorem c2_v3 : W2 (F := Ideal) m ρ c (Proc.devRef .tc main_v3) = Cert.ReferenceIdeal.Spec.dstIdx (m ((c : Thread nD τ).loc main_arg1)) := (W2_of_ne m ρ c main_v3 (by decide)).trans (c1_v3 m ρ c)
theorem c5_v3 : W5 (F := Ideal) m ρ c (Proc.devRef .tc main_v3) = Cert.ReferenceIdeal.Spec.dstIdx (m ((c : Thread nD τ).loc main_arg1)) :=
  (W5_of_ne m ρ c main_v3 (by decide)).trans ((k1b_v3 (W3 m ρ c)).trans ((k1_v3 (W2 m ρ c)).trans (c2_v3 m ρ c)))
theorem c1_v25 : W1 (F := Ideal) m ρ c (Proc.devRef .tc main_v25) = Cert.ReferenceIdeal.Spec.coef (m ((c : Thread nD τ).loc main_arg1)) := s0_coef (W0 m ρ c)
theorem c2_v25 : W2 (F := Ideal) m ρ c (Proc.devRef .tc main_v25) = Cert.ReferenceIdeal.Spec.coef (m ((c : Thread nD τ).loc main_arg1)) := (W2_of_ne m ρ c main_v25 (by decide)).trans (c1_v25 m ρ c)
theorem c5_v25 : W5 (F := Ideal) m ρ c (Proc.devRef .tc main_v25) = Cert.ReferenceIdeal.Spec.coef (m ((c : Thread nD τ).loc main_arg1)) :=
  (W5_of_ne m ρ c main_v25 (by decide)).trans ((k1b_v25 (W3 m ρ c)).trans ((k1_v25 (W2 m ρ c)).trans (c2_v25 m ρ c)))
theorem c1_v26 : W1 (F := Ideal) m ρ c (Proc.devRef .tc main_v26) = mulf (Cert.ReferenceIdeal.Spec.dis (m ((c : Thread nD τ).loc main_arg1))) (Cert.ReferenceIdeal.Spec.dis (m ((c : Thread nD τ).loc main_arg1))) := s0_dis2 (W0 m ρ c)
theorem c2_v26 : W2 (F := Ideal) m ρ c (Proc.devRef .tc main_v26) = mulf (Cert.ReferenceIdeal.Spec.dis (m ((c : Thread nD τ).loc main_arg1))) (Cert.ReferenceIdeal.Spec.dis (m ((c : Thread nD τ).loc main_arg1))) := (W2_of_ne m ρ c main_v26 (by decide)).trans (c1_v26 m ρ c)
theorem c5_v26 : W5 (F := Ideal) m ρ c (Proc.devRef .tc main_v26) = mulf (Cert.ReferenceIdeal.Spec.dis (m ((c : Thread nD τ).loc main_arg1))) (Cert.ReferenceIdeal.Spec.dis (m ((c : Thread nD τ).loc main_arg1))) :=
  (W5_of_ne m ρ c main_v26 (by decide)).trans ((k1b_v26 (W3 m ρ c)).trans ((k1_v26 (W2 m ρ c)).trans (c2_v26 m ρ c)))

/-! ## The regions' outputs and the stages between them -/

section Regions

variable
  (R0 : ∀ (V : (c : Dev nD) → (b : Ref sig .tc) → Buf (Elt Ideal) ((c : Thread nD τ).loc b)) (c : Dev nD), (dat0 (F := Ideal) V c).arrAt 2 cfg0.N
      = Cert.Spec.mm (M := 20000) (K := 512) (N := 512) (V c (Pipeline.arrRef spec0 0)) (V c (Pipeline.arrRef spec0 1)))
  (R1 : ∀ (V : (c : Dev nD) → (b : Ref sig .tc) → Buf (Elt Ideal) ((c : Thread nD τ).loc b)) (c : Dev nD), (dat1 (F := Ideal) V c).arrAt 2 cfg1.N
      = Cert.Spec.mm (M := 20000) (K := 512) (N := 256) (V c (Pipeline.arrRef spec1 0)) (V c (Pipeline.arrRef spec1 1)))
  (R2 : ∀ (V : (c : Dev nD) → (b : Ref sig .tc) → Buf (Elt Ideal) ((c : Thread nD τ).loc b)) (c : Dev nD), (dat2 (F := Ideal) V c).arrAt 3 cfg2.N
      = Cert.Spec.mmbElu (M := 20000) (K := 256) (N := 256) (V c (Pipeline.arrRef spec2 0)) (V c (Pipeline.arrRef spec2 1)) (V c (Pipeline.arrRef spec2 2)))
  (R3 : ∀ (V : (c : Dev nD) → (b : Ref sig .tc) → Buf (Elt Ideal) ((c : Thread nD τ).loc b)) (c : Dev nD), (dat3 (F := Ideal) V c).arrAt 3 cfg3.N
      = Cert.Spec.mmb (M := 20000) (K := 256) (N := 256) (V c (Pipeline.arrRef spec3 0)) (V c (Pipeline.arrRef spec3 1)) (V c (Pipeline.arrRef spec3 2)))

private theorem congr3 {α β γ δ : Type} (f : α → β → γ → δ) {a a' : α} {b b' : β} {g g' : γ} (ha : a = a') (hb : b = b')
    (hg : g = g') : f a b g = f a' b' g' := by subst ha; subst hb; subst hg; rfl

include R0 in
/-- The first region leaves the product of the features and the first weights. -/
theorem y1 : W2 (F := Ideal) m ρ c (Proc.devRef .tc main_v27)
    = Cert.Spec.mm (M := 20000) (K := 512) (N := 512) (m ((c : Thread nD τ).loc main_arg0)) (m ((c : Thread nD τ).loc main_arg2)) :=
  (W2_arr m ρ c 2).trans ((R0 (V1 m ρ) c).trans (congrArg₂ _ (a1_0 m ρ c) (a1_2 m ρ c)))

include R0 in
/-- Before the second region its input holds the first layer's activations. -/
theorem h1 : W4 (F := Ideal) m ρ c (Proc.devRef .tc main_v52)
    = kstage1 (m ((c : Thread nD τ).loc main_arg0)) (m ((c : Thread nD τ).loc main_arg1)) (m ((c : Thread nD τ).loc main_arg2)) (m ((c : Thread nD τ).loc main_arg3)) (m ((c : Thread nD τ).loc main_arg6)) := by
  refine (s1_h (W2 m ρ c)).trans ?_
  rw [a2_6 m ρ c, y1 m ρ c R0, c2_v1 m ρ c, c2_v3 m ρ c, c2_v25 m ρ c, c2_v26 m ρ c, a2_3 m ρ c]
  rfl

include R0 R1 in
/-- The second region leaves the product of those activations and the second weights. -/
theorem y2 : W5 (F := Ideal) m ρ c (Proc.devRef .tc main_v53)
    = Cert.Spec.mm (M := 20000) (K := 512) (N := 256)
        (kstage1 (m ((c : Thread nD τ).loc main_arg0)) (m ((c : Thread nD τ).loc main_arg1)) (m ((c : Thread nD τ).loc main_arg2)) (m ((c : Thread nD τ).loc main_arg3)) (m ((c : Thread nD τ).loc main_arg6)))
        (m ((c : Thread nD τ).loc main_arg4)) :=
  (W5_arr m ρ c 2).trans ((R1 (V4 m ρ) c).trans (congrArg₂ _ (h1 m ρ c R0) (a4_4 m ρ c)))

include R0 R1 in
/-- Before the third region its input holds the second layer's activations. -/
theorem h2 : W8 (F := Ideal) m ρ c (Proc.devRef .tc main_v78)
    = kstage2 (kstage1 (m ((c : Thread nD τ).loc main_arg0)) (m ((c : Thread nD τ).loc main_arg1)) (m ((c : Thread nD τ).loc main_arg2)) (m ((c : Thread nD τ).loc main_arg3)) (m ((c : Thread nD τ).loc main_arg6)))
        (m ((c : Thread nD τ).loc main_arg1)) (m ((c : Thread nD τ).loc main_arg4)) (m ((c : Thread nD τ).loc main_arg5)) (m ((c : Thread nD τ).loc main_arg6)) := by
  refine (s2_h (W5 m ρ c)).trans ?_
  rw [a5_6 m ρ c, y2 m ρ c R0 R1, c5_v1 m ρ c, c5_v3 m ρ c, c5_v25 m ρ c, c5_v26 m ρ c, a5_5 m ρ c]
  rfl

/-- Before the third region its bias row is the third bias. -/
theorem b3row : W8 (F := Ideal) m ρ c (Proc.devRef .tc main_v79) = biasRow (m ((c : Thread nD τ).loc main_arg8)) := by
  refine (s2_bias (W5 m ρ c)).trans ?_
  rw [a5_8 m ρ c]
  rfl

include R0 R1 R2 in
/-- The third region leaves the first dense layer's output. -/
theorem h3 : W9 (F := Ideal) m ρ c (Proc.devRef .tc main_v80)
    = kstage3 (kstage2 (kstage1 (m ((c : Thread nD τ).loc main_arg0)) (m ((c : Thread nD τ).loc main_arg1)) (m ((c : Thread nD τ).loc main_arg2)) (m ((c : Thread nD τ).loc main_arg3)) (m ((c : Thread nD τ).loc main_arg6)))
        (m ((c : Thread nD τ).loc main_arg1)) (m ((c : Thread nD τ).loc main_arg4)) (m ((c : Thread nD τ).loc main_arg5)) (m ((c : Thread nD τ).loc main_arg6))) (m ((c : Thread nD τ).loc main_arg7)) (m ((c : Thread nD τ).loc main_arg8)) :=
  (W9_arr m ρ c 3).trans ((R2 (V8 m ρ) c).trans (congr3 _ (h2 m ρ c R0 R1) (a8_7 m ρ c) (b3row m ρ c)))

/-- Before the fourth region its bias row is the fourth bias. -/
theorem b4row : W10 (F := Ideal) m ρ c (Proc.devRef .tc main_v81) = biasRow (m ((c : Thread nD τ).loc main_arg10)) := by
  refine (s3_bias (W9 m ρ c)).trans ?_
  rw [a9_10 m ρ c]
  rfl

include R0 R1 R2 R3 in
/-- The result buffer ends at the network applied to the launch contents of the arguments. -/
theorem result : W11 (F := Ideal) m ρ c (Proc.devRef .tc main_v82)
    = kfinal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) :=
  (W11_arr m ρ c 3).trans ((R3 (V10 m ρ) c).trans
    (congr3 _ ((k3_v80 (W9 m ρ c)).trans (h3 m ρ c R0 R1 R2)) (a10_9 m ρ c) (b4row m ρ c)))

end Regions

end Cert.KernelIdeal.KValue

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.Region0.lean ====
/-
  The first dense stage, as one function of whole arrays.

  The stage multiplies the 20000×512 activation by the 512×512 weight, 2000 rows at a time: grid point t reads rows
  2000·t … 2000·t + 1999 of the activation and the whole weight, and writes the same rows of the product. On the extended
  reals rounding to the narrower format is the identity, so entry (p, q) of a block's product is the exact sum over k of
  (row p of the activation block) · (column q of the weight). The activation block and the product block share their row
  offset and the weight block sits at offset zero, so that sum is entry (2000·t + p, q) of the whole product; the ten
  blocks tile the output — row r lies in block r / 2000 —, so the output array ends holding the whole product.
-/
import proofs.«133885_j69879117906024_1_alg».proof.Proof.Gen.KernelIdeal.Frame
import proofs.«133885_j69879117906024_1_alg».proof.Proof.Spec
import proofs.«133885_j69879117906024_1_alg».proof.Proof.LibPlainDot
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-buffer access, as the constant function. -/
theorem off_zero0 : (![0, 0] : Fin 2 → Nat) = fun _ => 0 := funext fun a => by fin_cases a <;> rfl

/-- A block's entry (p, q) is the sum over k of (row p of the first block) times (column q of the second). -/
theorem pay0 (x0 : Vec Ideal S2000x512 .f32) (x1 : Vec Ideal S512x512 .f32) (j : S2000x512.Idx) :
    k0_pay1 x0 x1 j = ∑ k : Fin 512, x0 (ix2 (j 0) k) * x1 (ix2 k (j 1)) := by
  unfold k0_pay1
  exact PlainDot.matmul_zero_apply _ rfl none _ _ j

/-- The block indices at grid point t: the activation and the product move down one row block per point, on the
    full width; the weight stays at its one block. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row block t of the product, entry by entry: the activation's row block at t shares the product block's row
    offset, the weight's one block is the whole weight, so the block's sum over k is the whole product's. -/
theorem block0 (A : S20000x512.Idx → EReal) (B : S512x512.Idx → EReal) (t : Fin cfg0.N) (j : S2000x512.Idx) :
    k0_pay1 (F := Ideal) (fun y : S2000x512.Idx => A (((cfg0.win 0).blk t).view.emb y))
        (fun y : S512x512.Idx => B (((cfg0.win 1).blk t).view.emb y)) j
      = Cert.Spec.mm (M := 20000) (K := 512) (N := 512) A B (((cfg0.win 2).blk t).view.emb j) := by
  obtain ⟨e00, e01, e10, e11, e20, e21⟩ := index0 t
  refine (pay0 _ _ _).trans ?_
  show _ = ∑ k : Fin 512, A (ix2 ((((cfg0.win 2).blk t).view.emb j) 0) k) * B (ix2 k ((((cfg0.win 2).blk t).view.emb j) 1))
  refine Finset.sum_congr rfl fun k _ => ?_
  show A (((cfg0.win 0).blk t).view.emb (ix2 (j 0) k)) * B (((cfg0.win 1).blk t).view.emb (ix2 k (j 1))) = _
  have hj0 : (j 0).val < 2000 := (j 0).isLt
  have hj1 : (j 1).val < 512 := (j 1).isLt
  have hk : k.val < 512 := k.isLt
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega
  exact congrArg₂ (fun a b => A a * B b) h0 h1

variable (V : (c : Dev nD) → (b : Ref sig .tc) → Buf (Elt Ideal) ((c : Thread nD τ).loc b))

/-- What grid point t writes back is its row block of the whole product. -/
theorem flushed0 (c : Dev nD) (t : Fin cfg0.N) :
    (dat0 (F := Ideal) V c).flushed 2 t = ((cfg0.win 2).blk t).view.read (Elt Ideal)
      (Cert.Spec.mm (M := 20000) (K := 512) (N := 512) (V c (Pipeline.arrRef spec0 0)) (V c (Pipeline.arrRef spec0 1))) := by
  show (cfg0.win 2).cut (grid0.coords t) ((dat0 V c).after 2 t) = _
  rw [after0_2]
  unfold out0_2
  rw [View.canon_unit_zero off_zero0]
  simp only [View.ld_unit_zero (S := S2000x512) off_zero0, View.ld_unit_zero (S := S512x512) off_zero0]
  funext j
  exact block0 (V c (Pipeline.arrRef spec0 0)) (V c (Pipeline.arrRef spec0 1)) t j

/-- An index of the product is in point t's block iff each coordinate is in the block's range on its axis. -/
theorem mem_block0 (t : Fin cfg0.N) (i : S20000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v27).slice (win0_2.rect t)).set ↔ _
  rw [View.set_slice_whole, Rect.mem_set_unit]
  exact Iff.rfl

/-- Every index of the product is in the block of the point its row falls to: row r belongs to point r / 2000. -/
theorem cover0 (i : S20000x512.Idx) :
    ∃ t : Fin cfg0.N, (cfg0.win 2).flush t = true ∧ i ∈ ((cfg0.win 2).blk t).view.set := by
  have hi0 : (i 0).val < 20000 := (i 0).isLt
  have hi1 : (i 1).val < 512 := (i 1).isLt
  have ht : (i 0).val / 2000 < cfg0.N := by show (i 0).val / 2000 < 10; omega
  obtain ⟨-, -, -, -, e20, e21⟩ := index0 ⟨(i 0).val / 2000, ht⟩
  have e20' : win0_2.index ⟨(i 0).val / 2000, ht⟩ (0 : Fin 2) = (i 0).val / 2000 := e20
  refine ⟨⟨(i 0).val / 2000, ht⟩, flush0_2 _, ?_⟩
  rw [mem_block0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 512 ≤ (i 1).val
      ∧ (i 1).val < win0_2.index ⟨(i 0).val / 2000, ht⟩ (1 : Fin 2) * 512 + 512
    omega

/-- THE PRODUCT: after the region, the output array holds the whole product of the two input arrays as the region
    found them. -/
theorem region0 (c : Dev nD) :
    (dat0 (F := Ideal) V c).arrAt 2 cfg0.N
      = Cert.Spec.mm (M := 20000) (K := 512) (N := 512) (V c (Pipeline.arrRef spec0 0)) (V c (Pipeline.arrRef spec0 1)) :=
  (dat0 (F := Ideal) V c).arrAt_eq_of_cover 2 _ (fun t _ => flushed0 V c t) cover0

end Cert.KernelIdeal.RegionValue

end
-- ==== Proof.Region1.lean ====
/-
  The second dense stage, as one function of whole arrays.

  The stage multiplies the 20000×512 activation by the 512×256 weight, 2000 rows at a time: grid point t reads rows
  2000·t … 2000·t + 1999 of the activation and the whole weight, and writes the same rows of the product. On the extended
  reals a recast to the same shape and rounding to the narrower format are the identity, so entry (p, q) of a block's
  product is the exact sum over k of (row p of the activation block) · (column q of the weight). The activation block and
  the product block share their row offset and the weight block sits at offset zero, so that sum is entry (2000·t + p, q)
  of the whole product; the ten blocks tile the output — row r lies in block r / 2000 —, so the output array ends holding
  the whole product.
-/
import proofs.«133885_j69879117906024_1_alg».proof.Proof.Gen.KernelIdeal.Frame
import proofs.«133885_j69879117906024_1_alg».proof.Proof.Spec
import proofs.«133885_j69879117906024_1_alg».proof.Proof.LibPlainDot
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-buffer access, as the constant function. -/
theorem off_zero1 : (![0, 0] : Fin 2 → Nat) = fun _ => 0 := funext fun a => by fin_cases a <;> rfl

/-- A block's entry (p, q) is the sum over k of (row p of the first block) times (column q of the second): the
    recast to the same shape and the rounding to the narrower format change nothing on the extended reals. -/
theorem pay1 (x0 : Vec Ideal S2000x512 .f32) (x1 : Vec Ideal S512x256 .f32) (j : S2000x256.Idx) :
    k1_pay1 x0 x1 j = ∑ k : Fin 512, x0 (ix2 (j 0) k) * x1 (ix2 k (j 1)) := by
  unfold k1_pay1
  refine (PlainDot.matmul_zero_apply _ rfl none _ _ j).trans ?_
  rw [shapeCast_self]
  rfl

/-- The block indices at grid point t: the activation and the product move down one row block per point, on the
    full width; the weight stays at its one block. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row block t of the product, entry by entry: the activation's row block at t shares the product block's row
    offset, the weight's one block is the whole weight, so the block's sum over k is the whole product's. -/
theorem block1 (A : S20000x512.Idx → EReal) (B : S512x256.Idx → EReal) (t : Fin cfg1.N) (j : S2000x256.Idx) :
    k1_pay1 (F := Ideal) (fun y : S2000x512.Idx => A (((cfg1.win 0).blk t).view.emb y))
        (fun y : S512x256.Idx => B (((cfg1.win 1).blk t).view.emb y)) j
      = Cert.Spec.mm (M := 20000) (K := 512) (N := 256) A B (((cfg1.win 2).blk t).view.emb j) := by
  obtain ⟨e00, e01, e10, e11, e20, e21⟩ := index1 t
  refine (pay1 _ _ _).trans ?_
  show _ = ∑ k : Fin 512, A (ix2 ((((cfg1.win 2).blk t).view.emb j) 0) k) * B (ix2 k ((((cfg1.win 2).blk t).view.emb j) 1))
  refine Finset.sum_congr rfl fun k _ => ?_
  show A (((cfg1.win 0).blk t).view.emb (ix2 (j 0) k)) * B (((cfg1.win 1).blk t).view.emb (ix2 k (j 1))) = _
  have hj0 : (j 0).val < 2000 := (j 0).isLt
  have hj1 : (j 1).val < 256 := (j 1).isLt
  have hk : k.val < 512 := k.isLt
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 512 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 512 + 1 * k.val = k.val; omega
    | ⟨1, _⟩ => show win1_1.index t (1 : Fin 2) * 256 + 1 * (j 1).val = win1_2.index t (1 : Fin 2) * 256 + 1 * (j 1).val; omega
  exact congrArg₂ (fun a b => A a * B b) h0 h1

variable (V : (c : Dev nD) → (b : Ref sig .tc) → Buf (Elt Ideal) ((c : Thread nD τ).loc b))

/-- What grid point t writes back is its row block of the whole product. -/
theorem flushed1 (c : Dev nD) (t : Fin cfg1.N) :
    (dat1 (F := Ideal) V c).flushed 2 t = ((cfg1.win 2).blk t).view.read (Elt Ideal)
      (Cert.Spec.mm (M := 20000) (K := 512) (N := 256) (V c (Pipeline.arrRef spec1 0)) (V c (Pipeline.arrRef spec1 1))) := by
  show (cfg1.win 2).cut (grid1.coords t) ((dat1 V c).after 2 t) = _
  rw [after1_2]
  unfold out1_2
  rw [View.canon_unit_zero off_zero1]
  simp only [View.ld_unit_zero (S := S2000x512) off_zero1, View.ld_unit_zero (S := S512x256) off_zero1]
  funext j
  exact block1 (V c (Pipeline.arrRef spec1 0)) (V c (Pipeline.arrRef spec1 1)) t j

/-- An index of the product is in point t's block iff each coordinate is in the block's range on its axis. -/
theorem mem_block1 (t : Fin cfg1.N) (i : S20000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v53).slice (win1_2.rect t)).set ↔ _
  rw [View.set_slice_whole, Rect.mem_set_unit]
  exact Iff.rfl

/-- Every index of the product is in the block of the point its row falls to: row r belongs to point r / 2000. -/
theorem cover1 (i : S20000x256.Idx) :
    ∃ t : Fin cfg1.N, (cfg1.win 2).flush t = true ∧ i ∈ ((cfg1.win 2).blk t).view.set := by
  have hi0 : (i 0).val < 20000 := (i 0).isLt
  have hi1 : (i 1).val < 256 := (i 1).isLt
  have ht : (i 0).val / 2000 < cfg1.N := by show (i 0).val / 2000 < 10; omega
  obtain ⟨-, -, -, -, e20, e21⟩ := index1 ⟨(i 0).val / 2000, ht⟩
  have e20' : win1_2.index ⟨(i 0).val / 2000, ht⟩ (0 : Fin 2) = (i 0).val / 2000 := e20
  refine ⟨⟨(i 0).val / 2000, ht⟩, flush1_2 _, ?_⟩
  rw [mem_block1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    omega
  | ⟨1, _⟩ =>
    show win1_2.index ⟨(i 0).val / 2000, ht⟩ (1 : Fin 2) * 256 ≤ (i 1).val
      ∧ (i 1).val < win1_2.index ⟨(i 0).val / 2000, ht⟩ (1 : Fin 2) * 256 + 256
    omega

/-- THE PRODUCT: after the region, the output array holds the whole product of the two input arrays as the region
    found them. -/
theorem region1 (c : Dev nD) :
    (dat1 (F := Ideal) V c).arrAt 2 cfg1.N
      = Cert.Spec.mm (M := 20000) (K := 512) (N := 256) (V c (Pipeline.arrRef spec1 0)) (V c (Pipeline.arrRef spec1 1)) :=
  (dat1 (F := Ideal) V c).arrAt_eq_of_cover 2 _ (fun t _ => flushed1 V c t) cover1

end Cert.KernelIdeal.RegionValue

end
-- ==== Proof.Region2.lean ====
/-
  The third dense stage, as one function of whole arrays.

  The stage multiplies the 20000×256 activation by the 256×256 weight, adds one row of 256 biases to every row of the
  product and applies the exponential linear unit to every entry — a positive entry is kept, any other entry y becomes
  exp y - 1 —, 2000 rows at a time: grid point t reads rows 2000·t … 2000·t + 1999 of the activation, the whole weight and
  the row of biases, and writes the same rows of the result. On the extended reals a recast to the same shape and rounding
  to the narrower format are the identity, so entry (p, q) of a block's result is the unit applied to: the exact sum over k
  of (row p of the activation block) · (column q of the weight), plus bias q; the program's comparison with the word of
  zero, exponential and subtraction of the word of one are the unit on one extended real. The activation block and the
  output block share their row offset while the weight's and the biases' blocks sit at offset zero, so that is entry
  (2000·t + p, q) of the whole function; the ten blocks tile the output — row r lies in block r / 2000 —, so the output
  array ends holding the whole function.
-/
import proofs.«133885_j69879117906024_1_alg».proof.Proof.Gen.KernelIdeal.Frame
import proofs.«133885_j69879117906024_1_alg».proof.Proof.Spec
import proofs.«133885_j69879117906024_1_alg».proof.Proof.LibPlainDot
import Idealize.ShloMosaic.Lib.Pipeline.Value
import Idealize.ShloMosaic.Lib.IdealHost

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-buffer access, as the constant function. -/
theorem off_zero2 : (![0, 0] : Fin 2 → Nat) = fun _ => 0 := funext fun a => by fin_cases a <;> rfl

/-- The unit's activation on one extended real, as the program computes it: compare with the word of zero, keep the
    entry where it is greater, else its exponential less the word of one. -/
theorem elu_word (y : EReal) :
    Scalar.select (Ideal.cmp .ogt y (Ideal.ofBits .f32 0x00000000#32)) y (Ideal.exp y - Ideal.ofBits .f32 0x3F800000#32)
      = Cert.Spec.elu y := by
  rw [Ideal.ofBits_zero_f32, Ideal.ofBits_one_f32]
  show (if BitVec.ofBool (decide (0 < y)) = 1 then y else Ideal.exp y - 1) = if 0 < y then y else Ideal.exp y - 1
  by_cases h : 0 < y
  · simp [h]
  · simp [h]

/-- The same on a whole block, entry by entry. -/
theorem elu_block (Y : FVec Ideal S2000x256 .f32) (j : S2000x256.Idx) :
    select (cmpf .ogt Y (broadcast S2000x256 (Scalar.ofBits .f32 0x00000000#32))) Y
      (subf (exp Y) (broadcast S2000x256 (Scalar.ofBits .f32 0x3F800000#32))) j = Cert.Spec.elu (Y j) :=
  elu_word (Y j)

/-- A block's entry (p, q) is the activation of: the sum over k of (row p of the first block) times (column q of the
    second), plus entry q of the one row of biases. The recasts to the same shape and the rounding to the narrower
    format change nothing on the extended reals, and the row of biases is repeated down the block. -/
theorem pay2 (x0 : Vec Ideal S2000x256 .f32) (x1 : Vec Ideal S256x256 .f32) (x2 : Vec Ideal S1x256 .f32) (j : S2000x256.Idx) :
    k2_pay1 x0 x1 x2 j = Cert.Spec.elu ((∑ k : Fin 256, x0 (ix2 (j 0) k) * x1 (ix2 k (j 1))) + x2 (ix2 0 (j 1))) := by
  unfold k2_pay1
  refine (elu_block _ j).trans (congrArg Cert.Spec.elu ?_)
  refine (addf_apply _ _ j).trans ?_
  rw [shapeCast_self, shapeCast_self]
  refine congrArg₂ (fun a b : EReal => a + b) ?_ ?_
  · exact PlainDot.matmul_zero_apply _ rfl none _ _ j
  · refine broadcastTo_apply x2 _ j (ix2 0 (j 1)) fun a => ?_
    match a with
    | ⟨0, _⟩ => rfl
    | ⟨1, _⟩ => rfl

/-- The block indices at grid point t: the activation and the output move down one row block per point, on the
    full width; the weight and the row of biases stay at their one block. -/
theorem index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Where the three input blocks at point t are read in their arrays, against the output block's index: the
    activation's row block shares the output block's row offset, and the weight's and the biases' one block are
    their whole arrays. -/
theorem reads2 (t : Fin cfg2.N) (j : S2000x256.Idx) (k : Fin 256) :
    ((cfg2.win 0).blk t).view.emb (ix2 (j 0) k) = ix2 ((((cfg2.win 3).blk t).view.emb j) 0) k
    ∧ ((cfg2.win 1).blk t).view.emb (ix2 k (j 1)) = ix2 k ((((cfg2.win 3).blk t).view.emb j) 1)
    ∧ ((cfg2.win 2).blk t).view.emb (ix2 0 (j 1)) = ix2 0 ((((cfg2.win 3).blk t).view.emb j) 1) := by
  obtain ⟨e00, e01, e10, e11, e20, e21, e30, e31⟩ := index2 t
  have hj0 : (j 0).val < 2000 := (j 0).isLt
  have hj1 : (j 1).val < 256 := (j 1).isLt
  have hk : k.val < 256 := k.isLt
  refine ⟨?_, ?_, ?_⟩
  · funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 256 + 1 * k.val = k.val; omega
  · funext a; apply Fin.ext
    match a with
    | ⟨0, _⟩ => show win2_1.index t (0 : Fin 2) * 256 + 1 * k.val = k.val; omega
    | ⟨1, _⟩ => show win2_1.index t (1 : Fin 2) * 256 + 1 * (j 1).val = win2_3.index t (1 : Fin 2) * 256 + 1 * (j 1).val; omega
  · funext a; apply Fin.ext
    match a with
    | ⟨0, _⟩ => show win2_2.index t (0 : Fin 2) * 1 + 1 * 0 = 0; omega
    | ⟨1, _⟩ => show win2_2.index t (1 : Fin 2) * 256 + 1 * (j 1).val = win2_3.index t (1 : Fin 2) * 256 + 1 * (j 1).val; omega

/-- The biased product at an entry of the output block, from the three input blocks at point t. -/
theorem sum2 (A : S20000x256.Idx → EReal) (B : S256x256.Idx → EReal) (C : S1x256.Idx → EReal) (t : Fin cfg2.N) (j : S2000x256.Idx) :
    (∑ k : Fin 256, A (((cfg2.win 0).blk t).view.emb (ix2 (j 0) k)) * B (((cfg2.win 1).blk t).view.emb (ix2 k (j 1))))
        + C (((cfg2.win 2).blk t).view.emb (ix2 0 (j 1)))
      = Cert.Spec.mmb (M := 20000) (K := 256) (N := 256) A B C (((cfg2.win 3).blk t).view.emb j) := by
  show _ = (∑ k : Fin 256, A (ix2 ((((cfg2.win 3).blk t).view.emb j) 0) k) * B (ix2 k ((((cfg2.win 3).blk t).view.emb j) 1)))
      + C (ix2 0 ((((cfg2.win 3).blk t).view.emb j) 1))
  refine congrArg₂ (fun a b : EReal => a + b) (Finset.sum_congr rfl fun k _ => ?_) (congrArg C (reads2 t j 0).2.2)
  exact congrArg₂ (fun a b => A a * B b) (reads2 t j k).1 (reads2 t j k).2.1

/-- Row block t of the activated biased product, entry by entry: the activation of the block's sum over k plus its
    bias is the whole function's entry at the block's place. -/
theorem block2 (A : S20000x256.Idx → EReal) (B : S256x256.Idx → EReal) (C : S1x256.Idx → EReal) (t : Fin cfg2.N) (j : S2000x256.Idx) :
    k2_pay1 (F := Ideal) (fun y : S2000x256.Idx => A (((cfg2.win 0).blk t).view.emb y))
        (fun y : S256x256.Idx => B (((cfg2.win 1).blk t).view.emb y))
        (fun y : S1x256.Idx => C (((cfg2.win 2).blk t).view.emb y)) j
      = Cert.Spec.mmbElu (M := 20000) (K := 256) (N := 256) A B C (((cfg2.win 3).blk t).view.emb j) := by
  refine (pay2 _ _ _ _).trans ?_
  exact congrArg Cert.Spec.elu (sum2 A B C t j)

variable (V : (c : Dev nD) → (b : Ref sig .tc) → Buf (Elt Ideal) ((c : Thread nD τ).loc b))

/-- What grid point t writes back is its row block of the whole activated biased product. -/
theorem flushed2 (c : Dev nD) (t : Fin cfg2.N) :
    (dat2 (F := Ideal) V c).flushed 3 t = ((cfg2.win 3).blk t).view.read (Elt Ideal)
      (Cert.Spec.mmbElu (M := 20000) (K := 256) (N := 256) (V c (Pipeline.arrRef spec2 0)) (V c (Pipeline.arrRef spec2 1))
        (V c (Pipeline.arrRef spec2 2))) := by
  show (cfg2.win 3).cut (grid2.coords t) ((dat2 V c).after 3 t) = _
  rw [after2_3]
  unfold out2_3
  rw [View.canon_unit_zero off_zero2]
  simp only [View.ld_unit_zero (S := S2000x256) off_zero2, View.ld_unit_zero (S := S256x256) off_zero2,
    View.ld_unit_zero (S := S1x256) off_zero2]
  funext j
  exact block2 (V c (Pipeline.arrRef spec2 0)) (V c (Pipeline.arrRef spec2 1)) (V c (Pipeline.arrRef spec2 2)) t j

/-- An index of the output is in point t's block iff each coordinate is in the block's range on its axis. -/
theorem mem_block2 (t : Fin cfg2.N) (i : S20000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v80).slice (win2_3.rect t)).set ↔ _
  rw [View.set_slice_whole, Rect.mem_set_unit]
  exact Iff.rfl

/-- Every index of the output is in the block of the point its row falls to: row r belongs to point r / 2000. -/
theorem cover2 (i : S20000x256.Idx) :
    ∃ t : Fin cfg2.N, (cfg2.win 3).flush t = true ∧ i ∈ ((cfg2.win 3).blk t).view.set := by
  have hi0 : (i 0).val < 20000 := (i 0).isLt
  have hi1 : (i 1).val < 256 := (i 1).isLt
  have ht : (i 0).val / 2000 < cfg2.N := by show (i 0).val / 2000 < 10; omega
  obtain ⟨-, -, -, -, -, -, e30, e31⟩ := index2 ⟨(i 0).val / 2000, ht⟩
  have e30' : win2_3.index ⟨(i 0).val / 2000, ht⟩ (0 : Fin 2) = (i 0).val / 2000 := e30
  refine ⟨⟨(i 0).val / 2000, ht⟩, flush2_3 _, ?_⟩
  rw [mem_block2]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    omega
  | ⟨1, _⟩ =>
    show win2_3.index ⟨(i 0).val / 2000, ht⟩ (1 : Fin 2) * 256 ≤ (i 1).val
      ∧ (i 1).val < win2_3.index ⟨(i 0).val / 2000, ht⟩ (1 : Fin 2) * 256 + 256
    omega

/-- THE ACTIVATED BIASED PRODUCT: after the region, the output array holds the activation, entry by entry, of the
    product of the first two input arrays plus the third's row on every row, the arrays as the region found them. -/
theorem region2 (c : Dev nD) :
    (dat2 (F := Ideal) V c).arrAt 3 cfg2.N
      = Cert.Spec.mmbElu (M := 20000) (K := 256) (N := 256) (V c (Pipeline.arrRef spec2 0)) (V c (Pipeline.arrRef spec2 1))
        (V c (Pipeline.arrRef spec2 2)) :=
  (dat2 (F := Ideal) V c).arrAt_eq_of_cover 3 _ (fun t _ => flushed2 V c t) cover2

end Cert.KernelIdeal.RegionValue

end
-- ==== Proof.Region3.lean ====
/-
  The last dense stage, as one function of whole arrays.

  The stage multiplies the 20000×256 activation by the 256×256 weight and adds one row of 256 biases to every row of the
  product, 2000 rows at a time: grid point t reads rows 2000·t … 2000·t + 1999 of the activation, the whole weight and the
  row of biases, and writes the same rows of the result. On the extended reals a recast to the same shape and rounding to
  the narrower format are the identity, so entry (p, q) of a block's result is the exact sum over k of (row p of the
  activation block) · (column q of the weight), plus bias q. The activation block and the output block share their row
  offset while the weight's and the biases' blocks sit at offset zero, so that is entry (2000·t + p, q) of the whole biased
  product; the ten blocks tile the output — row r lies in block r / 2000 —, so the output array ends holding the whole
  biased product.
-/
import proofs.«133885_j69879117906024_1_alg».proof.Proof.Gen.KernelIdeal.Frame
import proofs.«133885_j69879117906024_1_alg».proof.Proof.Spec
import proofs.«133885_j69879117906024_1_alg».proof.Proof.LibPlainDot
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-buffer access, as the constant function. -/
theorem off_zero3 : (![0, 0] : Fin 2 → Nat) = fun _ => 0 := funext fun a => by fin_cases a <;> rfl

/-- A block's entry (p, q) is the sum over k of (row p of the first block) times (column q of the second), plus entry
    q of the one row of biases: the recasts to the same shape and the rounding to the narrower format change nothing
    on the extended reals, and the row of biases is repeated down the block. -/
theorem pay3 (x0 : Vec Ideal S2000x256 .f32) (x1 : Vec Ideal S256x256 .f32) (x2 : Vec Ideal S1x256 .f32) (j : S2000x256.Idx) :
    k3_pay1 x0 x1 x2 j = (∑ k : Fin 256, x0 (ix2 (j 0) k) * x1 (ix2 k (j 1))) + x2 (ix2 0 (j 1)) := by
  unfold k3_pay1
  refine (addf_apply _ _ j).trans ?_
  rw [shapeCast_self, shapeCast_self]
  refine congrArg₂ (fun a b : EReal => a + b) ?_ ?_
  · exact PlainDot.matmul_zero_apply _ rfl none _ _ j
  · refine broadcastTo_apply x2 _ j (ix2 0 (j 1)) fun a => ?_
    match a with
    | ⟨0, _⟩ => rfl
    | ⟨1, _⟩ => rfl

/-- The block indices at grid point t: the activation and the output move down one row block per point, on the
    full width; the weight and the row of biases stay at their one block. -/
theorem index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Where the three input blocks at point t are read in their arrays, against the output block's index: the
    activation's row block shares the output block's row offset, and the weight's and the biases' one block are
    their whole arrays. -/
theorem reads3 (t : Fin cfg3.N) (j : S2000x256.Idx) (k : Fin 256) :
    ((cfg3.win 0).blk t).view.emb (ix2 (j 0) k) = ix2 ((((cfg3.win 3).blk t).view.emb j) 0) k
    ∧ ((cfg3.win 1).blk t).view.emb (ix2 k (j 1)) = ix2 k ((((cfg3.win 3).blk t).view.emb j) 1)
    ∧ ((cfg3.win 2).blk t).view.emb (ix2 0 (j 1)) = ix2 0 ((((cfg3.win 3).blk t).view.emb j) 1) := by
  obtain ⟨e00, e01, e10, e11, e20, e21, e30, e31⟩ := index3 t
  have hj0 : (j 0).val < 2000 := (j 0).isLt
  have hj1 : (j 1).val < 256 := (j 1).isLt
  have hk : k.val < 256 := k.isLt
  refine ⟨?_, ?_, ?_⟩
  · funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 256 + 1 * k.val = k.val; omega
  · funext a; apply Fin.ext
    match a with
    | ⟨0, _⟩ => show win3_1.index t (0 : Fin 2) * 256 + 1 * k.val = k.val; omega
    | ⟨1, _⟩ => show win3_1.index t (1 : Fin 2) * 256 + 1 * (j 1).val = win3_3.index t (1 : Fin 2) * 256 + 1 * (j 1).val; omega
  · funext a; apply Fin.ext
    match a with
    | ⟨0, _⟩ => show win3_2.index t (0 : Fin 2) * 1 + 1 * 0 = 0; omega
    | ⟨1, _⟩ => show win3_2.index t (1 : Fin 2) * 256 + 1 * (j 1).val = win3_3.index t (1 : Fin 2) * 256 + 1 * (j 1).val; omega

/-- The biased product at an entry of the output block, from the three input blocks at point t. -/
theorem sum3 (A : S20000x256.Idx → EReal) (B : S256x256.Idx → EReal) (C : S1x256.Idx → EReal) (t : Fin cfg3.N) (j : S2000x256.Idx) :
    (∑ k : Fin 256, A (((cfg3.win 0).blk t).view.emb (ix2 (j 0) k)) * B (((cfg3.win 1).blk t).view.emb (ix2 k (j 1))))
        + C (((cfg3.win 2).blk t).view.emb (ix2 0 (j 1)))
      = Cert.Spec.mmb (M := 20000) (K := 256) (N := 256) A B C (((cfg3.win 3).blk t).view.emb j) := by
  show _ = (∑ k : Fin 256, A (ix2 ((((cfg3.win 3).blk t).view.emb j) 0) k) * B (ix2 k ((((cfg3.win 3).blk t).view.emb j) 1)))
      + C (ix2 0 ((((cfg3.win 3).blk t).view.emb j) 1))
  refine congrArg₂ (fun a b : EReal => a + b) (Finset.sum_congr rfl fun k _ => ?_) (congrArg C (reads3 t j 0).2.2)
  exact congrArg₂ (fun a b => A a * B b) (reads3 t j k).1 (reads3 t j k).2.1

/-- Row block t of the biased product, entry by entry: the block's sum over k plus its bias is the whole biased
    product's entry at the block's place. -/
theorem block3 (A : S20000x256.Idx → EReal) (B : S256x256.Idx → EReal) (C : S1x256.Idx → EReal) (t : Fin cfg3.N) (j : S2000x256.Idx) :
    k3_pay1 (F := Ideal) (fun y : S2000x256.Idx => A (((cfg3.win 0).blk t).view.emb y))
        (fun y : S256x256.Idx => B (((cfg3.win 1).blk t).view.emb y))
        (fun y : S1x256.Idx => C (((cfg3.win 2).blk t).view.emb y)) j
      = Cert.Spec.mmb (M := 20000) (K := 256) (N := 256) A B C (((cfg3.win 3).blk t).view.emb j) := by
  refine (pay3 _ _ _ _).trans ?_
  exact sum3 A B C t j

variable (V : (c : Dev nD) → (b : Ref sig .tc) → Buf (Elt Ideal) ((c : Thread nD τ).loc b))

/-- What grid point t writes back is its row block of the whole biased product. -/
theorem flushed3 (c : Dev nD) (t : Fin cfg3.N) :
    (dat3 (F := Ideal) V c).flushed 3 t = ((cfg3.win 3).blk t).view.read (Elt Ideal)
      (Cert.Spec.mmb (M := 20000) (K := 256) (N := 256) (V c (Pipeline.arrRef spec3 0)) (V c (Pipeline.arrRef spec3 1))
        (V c (Pipeline.arrRef spec3 2))) := by
  show (cfg3.win 3).cut (grid3.coords t) ((dat3 V c).after 3 t) = _
  rw [after3_3]
  unfold out3_3
  rw [View.canon_unit_zero off_zero3]
  simp only [View.ld_unit_zero (S := S2000x256) off_zero3, View.ld_unit_zero (S := S256x256) off_zero3,
    View.ld_unit_zero (S := S1x256) off_zero3]
  funext j
  exact block3 (V c (Pipeline.arrRef spec3 0)) (V c (Pipeline.arrRef spec3 1)) (V c (Pipeline.arrRef spec3 2)) t j

/-- An index of the output is in point t's block iff each coordinate is in the block's range on its axis. -/
theorem mem_block3 (t : Fin cfg3.N) (i : S20000x256.Idx) :
    i ∈ ((cfg3.win 3).blk t).view.set ↔ ∀ a : Fin 2, win3_3.index t a * S2000x256.size a ≤ (i a).val
      ∧ (i a).val < win3_3.index t a * S2000x256.size a + S2000x256.size a := by
  show i ∈ ((View.whole main_v82).slice (win3_3.rect t)).set ↔ _
  rw [View.set_slice_whole, Rect.mem_set_unit]
  exact Iff.rfl

/-- Every index of the output is in the block of the point its row falls to: row r belongs to point r / 2000. -/
theorem cover3 (i : S20000x256.Idx) :
    ∃ t : Fin cfg3.N, (cfg3.win 3).flush t = true ∧ i ∈ ((cfg3.win 3).blk t).view.set := by
  have hi0 : (i 0).val < 20000 := (i 0).isLt
  have hi1 : (i 1).val < 256 := (i 1).isLt
  have ht : (i 0).val / 2000 < cfg3.N := by show (i 0).val / 2000 < 10; omega
  obtain ⟨-, -, -, -, -, -, e30, e31⟩ := index3 ⟨(i 0).val / 2000, ht⟩
  have e30' : win3_3.index ⟨(i 0).val / 2000, ht⟩ (0 : Fin 2) = (i 0).val / 2000 := e30
  refine ⟨⟨(i 0).val / 2000, ht⟩, flush3_3 _, ?_⟩
  rw [mem_block3]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    omega
  | ⟨1, _⟩ =>
    show win3_3.index ⟨(i 0).val / 2000, ht⟩ (1 : Fin 2) * 256 ≤ (i 1).val
      ∧ (i 1).val < win3_3.index ⟨(i 0).val / 2000, ht⟩ (1 : Fin 2) * 256 + 256
    omega

/-- THE BIASED PRODUCT: after the region, the output array holds the product of the first two input arrays plus the
    third's row on every row, the arrays as the region found them. -/
theorem region3 (c : Dev nD) :
    (dat3 (F := Ideal) V c).arrAt 3 cfg3.N
      = Cert.Spec.mmb (M := 20000) (K := 256) (N := 256) (V c (Pipeline.arrRef spec3 0)) (V c (Pipeline.arrRef spec3 1))
        (V c (Pipeline.arrRef spec3 2)) :=
  (dat3 (F := Ideal) V c).arrAt_eq_of_cover 3 _ (fun t _ => flushed3 V c t) cover3

end Cert.KernelIdeal.RegionValue

end
-- ==== Proof.RefRun.lean ====
import proofs.«133885_j69879117906024_1_alg».proof.Proof.Gen.ReferenceIdeal
import Idealize.ShloMosaic.Lib.StableHlo.Run

/-! # The reference as one straight line of tensor operations

The reference is a two-layer graph convolution (symmetric normalisation, a sloped rectifier after each layer)
followed by a linear layer, an exponential linear unit and a last linear layer, on 20000 nodes and 320000
edges. Its entry function calls three module functions, one of which calls two more; a call is its callee's
body over the buffers of that call, so the whole computation is a single sequence of 147 operations on
buffers. This file writes that sequence down in ten consecutive stretches (one per stage of the network),
shows the entry function equal to it, and reads off the run: every fair execution terminates with each
buffer at the fold of the operations' results over the buffers' initial contents. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge table's two rows as vectors of 320000 indices: row 0 (the edges' sources, `main_v1`) and row 1 (their targets, `main_v3`). -/
abbrev opsA : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000 ]

/-- The first product: the node features times the first weight matrix, `X · W₁`. -/
abbrev opsB : List (HloOp τ sig (Elt F)) :=
  [ binary main_arg0 main_arg2 main_v4 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)) ]

/-- The symmetric normalisation's edge weights. The degree vector is the count of edges arriving at each node plus one (a sum-scatter of ones at the targets over zeros, then `+ 1`); `main_v11` is its inverse square root; it is read at the sources and at the targets (an index below zero first moved up by the node count 20000) and the two are multiplied: `main_v26`, one weight per edge. -/
abbrev opsC : List (HloOp τ sig (Elt F)) :=
  [ nullary main_cst (constant S_ .f32 0x3F800000#32),
    unary main_cst main_v5 (broadcastInDim S320000 ![] bcast_S_S320000 : (⟨S_, .f32⟩ : BufTy).Contents (Elt F) → (⟨S320000, .f32⟩ : BufTy).Contents (Elt F)),
    nullary main_cst_0 (constant S_ .f32 0x00000000#32),
    unary main_cst_0 main_v6 (broadcastInDim S20000 ![] bcast_S_S20000 : (⟨S_, .f32⟩ : BufTy).Contents (Elt F) → (⟨S20000, .f32⟩ : BufTy).Contents (Elt F)),
    unary main_v3 main_v7 (broadcastInDim S320000x1 ![0] bcast_S320000_S320000x1_0 : (⟨S320000, .i32⟩ : BufTy).Contents (Elt F) → (⟨S320000x1, .i32⟩ : BufTy).Contents (Elt F)),
    ternary main_v6 main_v7 main_v5 main_v8 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    nullary main_cst_1 (constant S_ .f32 0x3F800000#32),
    unary main_cst_1 main_v9 (broadcastInDim S20000 ![] bcast_S_S20000 : (⟨S_, .f32⟩ : BufTy).Contents (Elt F) → (⟨S20000, .f32⟩ : BufTy).Contents (Elt F)),
    binary main_v8 main_v9 main_v10 (addf : (⟨S20000, .f32⟩ : BufTy).Contents (Elt F) → (⟨S20000, .f32⟩ : BufTy).Contents (Elt F) → (⟨S20000, .f32⟩ : BufTy).Contents (Elt F)),
    unary main_v10 main_v11 (Host.rsqrt : (⟨S20000, .f32⟩ : BufTy).Contents (Elt F) → (⟨S20000, .f32⟩ : BufTy).Contents (Elt F)),
    nullary main_c (constantI S_ 32 0#32),
    unary main_c main_v12 (broadcastInDim S320000 ![] bcast_S_S320000 : (⟨S_, .i32⟩ : BufTy).Contents (Elt F) → (⟨S320000, .i32⟩ : BufTy).Contents (Elt F)),
    binary main_v1 main_v12 main_v13 (cmpi .slt : (⟨S320000, .i32⟩ : BufTy).Contents (Elt F) → (⟨S320000, .i32⟩ : BufTy).Contents (Elt F) → (⟨S320000, .i1⟩ : BufTy).Contents (Elt F)),
    nullary main_c_2 (constantI S_ 32 20000#32),
    unary main_c_2 main_v14 (broadcastInDim S320000 ![] bcast_S_S320000 : (⟨S_, .i32⟩ : BufTy).Contents (Elt F) → (⟨S320000, .i32⟩ : BufTy).Contents (Elt F)),
    binary main_v1 main_v14 main_v15 (addi : (⟨S320000, .i32⟩ : BufTy).Contents (Elt F) → (⟨S320000, .i32⟩ : BufTy).Contents (Elt F) → (⟨S320000, .i32⟩ : BufTy).Contents (Elt F)),
    ternary main_v13 main_v15 main_v1 main_v16 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v16 main_v17 (broadcastInDim S320000x1 ![0] bcast_S320000_S320000x1_0 : (⟨S320000, .i32⟩ : BufTy).Contents (Elt F) → (⟨S320000x1, .i32⟩ : BufTy).Contents (Elt F)),
    binary main_v11 main_v17 main_v18 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    nullary main_c_3 (constantI S_ 32 0#32),
    unary main_c_3 main_v19 (broadcastInDim S320000 ![] bcast_S_S320000 : (⟨S_, .i32⟩ : BufTy).Contents (Elt F) → (⟨S320000, .i32⟩ : BufTy).Contents (Elt F)),
    binary main_v3 main_v19 main_v20 (cmpi .slt : (⟨S320000, .i32⟩ : BufTy).Contents (Elt F) → (⟨S320000, .i32⟩ : BufTy).Contents (Elt F) → (⟨S320000, .i1⟩ : BufTy).Contents (Elt F)),
    nullary main_c_4 (constantI S_ 32 20000#32),
    unary main_c_4 main_v21 (broadcastInDim S320000 ![] bcast_S_S320000 : (⟨S_, .i32⟩ : BufTy).Contents (Elt F) → (⟨S320000, .i32⟩ : BufTy).Contents (Elt F)),
    binary main_v3 main_v21 main_v22 (addi : (⟨S320000, .i32⟩ : BufTy).Contents (Elt F) → (⟨S320000, .i32⟩ : BufTy).Contents (Elt F) → (⟨S320000, .i32⟩ : BufTy).Contents (Elt F)),
    ternary main_v20 main_v22 main_v3 main_v23 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v23 main_v24 (broadcastInDim S320000x1 ![0] bcast_S320000_S320000x1_0 : (⟨S320000, .i32⟩ : BufTy).Contents (Elt F) → (⟨S320000x1, .i32⟩ : BufTy).Contents (Elt F)),
    binary main_v11 main_v24 main_v25 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    binary main_v18 main_v25 main_v26 (mulf : (⟨S320000, .f32⟩ : BufTy).Contents (Elt F) → (⟨S320000, .f32⟩ : BufTy).Contents (Elt F) → (⟨S320000, .f32⟩ : BufTy).Contents (Elt F)) ]

/-- The first layer's aggregation and activation. The rows of `X · W₁` read at the sources and scaled by the edge weights are summed at the targets over zeros; the node's own row scaled by the square of its inverse-root degree is added, then the bias `b₁` along the rows; the activation keeps a positive entry and multiplies any other by the scalar slope (the select is the module's `_where`, its one operation over the call's buffer `main_call0.v0`, that is `main_v52`). -/
abbrev opsD : List (HloOp τ sig (Elt F)) :=
  [ nullary main_c_5 (constantI S_ 32 0#32),
    unary main_c_5 main_v27 (broadcastInDim S320000 ![] bcast_S_S320000 : (⟨S_, .i32⟩ : BufTy).Contents (Elt F) → (⟨S320000, .i32⟩ : BufTy).Contents (Elt F)),
    binary main_v1 main_v27 main_v28 (cmpi .slt : (⟨S320000, .i32⟩ : BufTy).Contents (Elt F) → (⟨S320000, .i32⟩ : BufTy).Contents (Elt F) → (⟨S320000, .i1⟩ : BufTy).Contents (Elt F)),
    nullary main_c_6 (constantI S_ 32 20000#32),
    unary main_c_6 main_v29 (broadcastInDim S320000 ![] bcast_S_S320000 : (⟨S_, .i32⟩ : BufTy).Contents (Elt F) → (⟨S320000, .i32⟩ : BufTy).Contents (Elt F)),
    binary main_v1 main_v29 main_v30 (addi : (⟨S320000, .i32⟩ : BufTy).Contents (Elt F) → (⟨S320000, .i32⟩ : BufTy).Contents (Elt F) → (⟨S320000, .i32⟩ : BufTy).Contents (Elt F)),
    ternary main_v28 main_v30 main_v1 main_v31 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v31 main_v32 (broadcastInDim S320000x1 ![0] bcast_S320000_S320000x1_0 : (⟨S320000, .i32⟩ : BufTy).Contents (Elt F) → (⟨S320000x1, .i32⟩ : BufTy).Contents (Elt F)),
    binary main_v4 main_v32 main_v33 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    unary main_v26 main_v34 (broadcastInDim S320000x1 ![0] bcast_S320000_S320000x1_0 : (⟨S320000, .f32⟩ : BufTy).Contents (Elt F) → (⟨S320000x1, .f32⟩ : BufTy).Contents (Elt F)),
    unary main_v34 main_v35 (broadcastInDim S320000x512 ![0, 1] bcast_S320000x1_S320000x512_0_1 : (⟨S320000x1, .f32⟩ : BufTy).Contents (Elt F) → (⟨S320000x512, .f32⟩ : BufTy).Contents (Elt F)),
    binary main_v33 main_v35 main_v36 (mulf : (⟨S320000x512, .f32⟩ : BufTy).Contents (Elt F) → (⟨S320000x512, .f32⟩ : BufTy).Contents (Elt F) → (⟨S320000x512, .f32⟩ : BufTy).Contents (Elt F)),
    nullary main_cst_7 (constant S_ .f32 0x00000000#32),
    unary main_cst_7 main_v37 (broadcastInDim S20000x512 ![] bcast_S_S20000x512 : (⟨S_, .f32⟩ : BufTy).Contents (Elt F) → (⟨S20000x512, .f32⟩ : BufTy).Contents (Elt F)),
    unary main_v3 main_v38 (broadcastInDim S320000x1 ![0] bcast_S320000_S320000x1_0 : (⟨S320000, .i32⟩ : BufTy).Contents (Elt F) → (⟨S320000x1, .i32⟩ : BufTy).Contents (Elt F)),
    ternary main_v37 main_v38 main_v36 main_v39 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    binary main_v11 main_v11 main_v40 (mulf : (⟨S20000, .f32⟩ : BufTy).Contents (Elt F) → (⟨S20000, .f32⟩ : BufTy).Contents (Elt F) → (⟨S20000, .f32⟩ : BufTy).Contents (Elt F)),
    unary main_v40 main_v41 (broadcastInDim S20000x1 ![0] bcast_S20000_S20000x1_0 : (⟨S20000, .f32⟩ : BufTy).Contents (Elt F) → (⟨S20000x1, .f32⟩ : BufTy).Contents (Elt F)),
    unary main_v41 main_v42 (broadcastInDim S20000x512 ![0, 1] bcast_S20000x1_S20000x512_0_1 : (⟨S20000x1, .f32⟩ : BufTy).Contents (Elt F) → (⟨S20000x512, .f32⟩ : BufTy).Contents (Elt F)),
    binary main_v4 main_v42 main_v43 (mulf : (⟨S20000x512, .f32⟩ : BufTy).Contents (Elt F) → (⟨S20000x512, .f32⟩ : BufTy).Contents (Elt F) → (⟨S20000x512, .f32⟩ : BufTy).Contents (Elt F)),
    binary main_v39 main_v43 main_v44 (addf : (⟨S20000x512, .f32⟩ : BufTy).Contents (Elt F) → (⟨S20000x512, .f32⟩ : BufTy).Contents (Elt F) → (⟨S20000x512, .f32⟩ : BufTy).Contents (Elt F)),
    unary main_arg3 main_v45 (broadcastInDim S1x512 ![1] bcast_S512_S1x512_1 : (⟨S512, .f32⟩ : BufTy).Contents (Elt F) → (⟨S1x512, .f32⟩ : BufTy).Contents (Elt F)),
    unary main_v45 main_v46 (broadcastInDim S20000x512 ![0, 1] bcast_S1x512_S20000x512_0_1 : (⟨S1x512, .f32⟩ : BufTy).Contents (Elt F) → (⟨S20000x512, .f32⟩ : BufTy).Contents (Elt F)),
    binary main_v44 main_v46 main_v47 (addf : (⟨S20000x512, .f32⟩ : BufTy).Contents (Elt F) → (⟨S20000x512, .f32⟩ : BufTy).Contents (Elt F) → (⟨S20000x512, .f32⟩ : BufTy).Contents (Elt F)),
    nullary main_cst_8 (constant S_ .f32 0x00000000#32),
    unary main_cst_8 main_v48 (broadcastInDim S20000x512 ![] bcast_S_S20000x512 : (⟨S_, .f32⟩ : BufTy).Contents (Elt F) → (⟨S20000x512, .f32⟩ : BufTy).Contents (Elt F)),
    binary main_v47 main_v48 main_v49 (cmpf .ogt : (⟨S20000x512, .f32⟩ : BufTy).Contents (Elt F) → (⟨S20000x512, .f32⟩ : BufTy).Contents (Elt F) → (⟨S20000x512, .i1⟩ : BufTy).Contents (Elt F)),
    unary main_arg6 main_v50 (broadcastInDim S20000x512 ![] bcast_S_S20000x512 : (⟨S_, .f32⟩ : BufTy).Contents (Elt F) → (⟨S20000x512, .f32⟩ : BufTy).Contents (Elt F)),
    binary main_v50 main_v47 main_v51 (mulf : (⟨S20000x512, .f32⟩ : BufTy).Contents (Elt F) → (⟨S20000x512, .f32⟩ : BufTy).Contents (Elt F) → (⟨S20000x512, .f32⟩ : BufTy).Contents (Elt F)),
    TRef.ternary (.of main_v49 : TRef sig ⟨S20000x512, .i1⟩) (.of main_v47 : TRef sig ⟨S20000x512, .f32⟩) (.of main_v51 : TRef sig ⟨S20000x512, .f32⟩) main_call0.v0 select ]

/-- The second product: the first layer's output times the second weight matrix. -/
abbrev opsE : List (HloOp τ sig (Elt F)) :=
  [ binary main_v52 main_arg4 main_v53 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)) ]

/-- The edge weights once more, recomputed from the edge table exactly as before: `main_v60` the inverse-root degrees, `main_v75` the weights. -/
abbrev opsF : List (HloOp τ sig (Elt F)) :=
  [ nullary main_cst_9 (constant S_ .f32 0x3F800000#32),
    unary main_cst_9 main_v54 (broadcastInDim S320000 ![] bcast_S_S320000 : (⟨S_, .f32⟩ : BufTy).Contents (Elt F) → (⟨S320000, .f32⟩ : BufTy).Contents (Elt F)),
    nullary main_cst_10 (constant S_ .f32 0x00000000#32),
    unary main_cst_10 main_v55 (broadcastInDim S20000 ![] bcast_S_S20000 : (⟨S_, .f32⟩ : BufTy).Contents (Elt F) → (⟨S20000, .f32⟩ : BufTy).Contents (Elt F)),
    unary main_v3 main_v56 (broadcastInDim S320000x1 ![0] bcast_S320000_S320000x1_0 : (⟨S320000, .i32⟩ : BufTy).Contents (Elt F) → (⟨S320000x1, .i32⟩ : BufTy).Contents (Elt F)),
    ternary main_v55 main_v56 main_v54 main_v57 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    nullary main_cst_11 (constant S_ .f32 0x3F800000#32),
    unary main_cst_11 main_v58 (broadcastInDim S20000 ![] bcast_S_S20000 : (⟨S_, .f32⟩ : BufTy).Contents (Elt F) → (⟨S20000, .f32⟩ : BufTy).Contents (Elt F)),
    binary main_v57 main_v58 main_v59 (addf : (⟨S20000, .f32⟩ : BufTy).Contents (Elt F) → (⟨S20000, .f32⟩ : BufTy).Contents (Elt F) → (⟨S20000, .f32⟩ : BufTy).Contents (Elt F)),
    unary main_v59 main_v60 (Host.rsqrt : (⟨S20000, .f32⟩ : BufTy).Contents (Elt F) → (⟨S20000, .f32⟩ : BufTy).Contents (Elt F)),
    nullary main_c_12 (constantI S_ 32 0#32),
    unary main_c_12 main_v61 (broadcastInDim S320000 ![] bcast_S_S320000 : (⟨S_, .i32⟩ : BufTy).Contents (Elt F) → (⟨S320000, .i32⟩ : BufTy).Contents (Elt F)),
    binary main_v1 main_v61 main_v62 (cmpi .slt : (⟨S320000, .i32⟩ : BufTy).Contents (Elt F) → (⟨S320000, .i32⟩ : BufTy).Contents (Elt F) → (⟨S320000, .i1⟩ : BufTy).Contents (Elt F)),
    nullary main_c_13 (constantI S_ 32 20000#32),
    unary main_c_13 main_v63 (broadcastInDim S320000 ![] bcast_S_S320000 : (⟨S_, .i32⟩ : BufTy).Contents (Elt F) → (⟨S320000, .i32⟩ : BufTy).Contents (Elt F)),
    binary main_v1 main_v63 main_v64 (addi : (⟨S320000, .i32⟩ : BufTy).Contents (Elt F) → (⟨S320000, .i32⟩ : BufTy).Contents (Elt F) → (⟨S320000, .i32⟩ : BufTy).Contents (Elt F)),
    ternary main_v62 main_v64 main_v1 main_v65 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v65 main_v66 (broadcastInDim S320000x1 ![0] bcast_S320000_S320000x1_0 : (⟨S320000, .i32⟩ : BufTy).Contents (Elt F) → (⟨S320000x1, .i32⟩ : BufTy).Contents (Elt F)),
    binary main_v60 main_v66 main_v67 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    nullary main_c_14 (constantI S_ 32 0#32),
    unary main_c_14 main_v68 (broadcastInDim S320000 ![] bcast_S_S320000 : (⟨S_, .i32⟩ : BufTy).Contents (Elt F) → (⟨S320000, .i32⟩ : BufTy).Contents (Elt F)),
    binary main_v3 main_v68 main_v69 (cmpi .slt : (⟨S320000, .i32⟩ : BufTy).Contents (Elt F) → (⟨S320000, .i32⟩ : BufTy).Contents (Elt F) → (⟨S320000, .i1⟩ : BufTy).Contents (Elt F)),
    nullary main_c_15 (constantI S_ 32 20000#32),
    unary main_c_15 main_v70 (broadcastInDim S320000 ![] bcast_S_S320000 : (⟨S_, .i32⟩ : BufTy).Contents (Elt F) → (⟨S320000, .i32⟩ : BufTy).Contents (Elt F)),
    binary main_v3 main_v70 main_v71 (addi : (⟨S320000, .i32⟩ : BufTy).Contents (Elt F) → (⟨S320000, .i32⟩ : BufTy).Contents (Elt F) → (⟨S320000, .i32⟩ : BufTy).Contents (Elt F)),
    ternary main_v69 main_v71 main_v3 main_v72 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v72 main_v73 (broadcastInDim S320000x1 ![0] bcast_S320000_S320000x1_0 : (⟨S320000, .i32⟩ : BufTy).Contents (Elt F) → (⟨S320000x1, .i32⟩ : BufTy).Contents (Elt F)),
    binary main_v60 main_v73 main_v74 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    binary main_v67 main_v74 main_v75 (mulf : (⟨S320000, .f32⟩ : BufTy).Contents (Elt F) → (⟨S320000, .f32⟩ : BufTy).Contents (Elt F) → (⟨S320000, .f32⟩ : BufTy).Contents (Elt F)) ]

/-- The second layer's aggregation and activation, as the first's at width 256: gather at the sources, scale, sum at the targets, add the self term and the bias `b₂`, and select by sign against the slope (the module's `_where_0`, over `main_call1.v0`, that is `main_v101`). -/
abbrev opsG : List (HloOp τ sig (Elt F)) :=
  [ nullary main_c_16 (constantI S_ 32 0#32),
    unary main_c_16 main_v76 (broadcastInDim S320000 ![] bcast_S_S320000 : (⟨S_, .i32⟩ : BufTy).Contents (Elt F) → (⟨S320000, .i32⟩ : BufTy).Contents (Elt F)),
    binary main_v1 main_v76 main_v77 (cmpi .slt : (⟨S320000, .i32⟩ : BufTy).Contents (Elt F) → (⟨S320000, .i32⟩ : BufTy).Contents (Elt F) → (⟨S320000, .i1⟩ : BufTy).Contents (Elt F)),
    nullary main_c_17 (constantI S_ 32 20000#32),
    unary main_c_17 main_v78 (broadcastInDim S320000 ![] bcast_S_S320000 : (⟨S_, .i32⟩ : BufTy).Contents (Elt F) → (⟨S320000, .i32⟩ : BufTy).Contents (Elt F)),
    binary main_v1 main_v78 main_v79 (addi : (⟨S320000, .i32⟩ : BufTy).Contents (Elt F) → (⟨S320000, .i32⟩ : BufTy).Contents (Elt F) → (⟨S320000, .i32⟩ : BufTy).Contents (Elt F)),
    ternary main_v77 main_v79 main_v1 main_v80 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v80 main_v81 (broadcastInDim S320000x1 ![0] bcast_S320000_S320000x1_0 : (⟨S320000, .i32⟩ : BufTy).Contents (Elt F) → (⟨S320000x1, .i32⟩ : BufTy).Contents (Elt F)),
    binary main_v53 main_v81 main_v82 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    unary main_v75 main_v83 (broadcastInDim S320000x1 ![0] bcast_S320000_S320000x1_0 : (⟨S320000, .f32⟩ : BufTy).Contents (Elt F) → (⟨S320000x1, .f32⟩ : BufTy).Contents (Elt F)),
    unary main_v83 main_v84 (broadcastInDim S320000x256 ![0, 1] bcast_S320000x1_S320000x256_0_1 : (⟨S320000x1, .f32⟩ : BufTy).Contents (Elt F) → (⟨S320000x256, .f32⟩ : BufTy).Contents (Elt F)),
    binary main_v82 main_v84 main_v85 (mulf : (⟨S320000x256, .f32⟩ : BufTy).Contents (Elt F) → (⟨S320000x256, .f32⟩ : BufTy).Contents (Elt F) → (⟨S320000x256, .f32⟩ : BufTy).Contents (Elt F)),
    nullary main_cst_18 (constant S_ .f32 0x00000000#32),
    unary main_cst_18 main_v86 (broadcastInDim S20000x256 ![] bcast_S_S20000x256 : (⟨S_, .f32⟩ : BufTy).Contents (Elt F) → (⟨S20000x256, .f32⟩ : BufTy).Contents (Elt F)),
    unary main_v3 main_v87 (broadcastInDim S320000x1 ![0] bcast_S320000_S320000x1_0 : (⟨S320000, .i32⟩ : BufTy).Contents (Elt F) → (⟨S320000x1, .i32⟩ : BufTy).Contents (Elt F)),
    ternary main_v86 main_v87 main_v85 main_v88 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    binary main_v60 main_v60 main_v89 (mulf : (⟨S20000, .f32⟩ : BufTy).Contents (Elt F) → (⟨S20000, .f32⟩ : BufTy).Contents (Elt F) → (⟨S20000, .f32⟩ : BufTy).Contents (Elt F)),
    unary main_v89 main_v90 (broadcastInDim S20000x1 ![0] bcast_S20000_S20000x1_0 : (⟨S20000, .f32⟩ : BufTy).Contents (Elt F) → (⟨S20000x1, .f32⟩ : BufTy).Contents (Elt F)),
    unary main_v90 main_v91 (broadcastInDim S20000x256 ![0, 1] bcast_S20000x1_S20000x256_0_1 : (⟨S20000x1, .f32⟩ : BufTy).Contents (Elt F) → (⟨S20000x256, .f32⟩ : BufTy).Contents (Elt F)),
    binary main_v53 main_v91 main_v92 (mulf : (⟨S20000x256, .f32⟩ : BufTy).Contents (Elt F) → (⟨S20000x256, .f32⟩ : BufTy).Contents (Elt F) → (⟨S20000x256, .f32⟩ : BufTy).Contents (Elt F)),
    binary main_v88 main_v92 main_v93 (addf : (⟨S20000x256, .f32⟩ : BufTy).Contents (Elt F) → (⟨S20000x256, .f32⟩ : BufTy).Contents (Elt F) → (⟨S20000x256, .f32⟩ : BufTy).Contents (Elt F)),
    unary main_arg5 main_v94 (broadcastInDim S1x256 ![1] bcast_S256_S1x256_1 : (⟨S256, .f32⟩ : BufTy).Contents (Elt F) → (⟨S1x256, .f32⟩ : BufTy).Contents (Elt F)),
    unary main_v94 main_v95 (broadcastInDim S20000x256 ![0, 1] bcast_S1x256_S20000x256_0_1 : (⟨S1x256, .f32⟩ : BufTy).Contents (Elt F) → (⟨S20000x256, .f32⟩ : BufTy).Contents (Elt F)),
    binary main_v93 main_v95 main_v96 (addf : (⟨S20000x256, .f32⟩ : BufTy).Contents (Elt F) → (⟨S20000x256, .f32⟩ : BufTy).Contents (Elt F) → (⟨S20000x256, .f32⟩ : BufTy).Contents (Elt F)),
    nullary main_cst_19 (constant S_ .f32 0x00000000#32),
    unary main_cst_19 main_v97 (broadcastInDim S20000x256 ![] bcast_S_S20000x256 : (⟨S_, .f32⟩ : BufTy).Contents (Elt F) → (⟨S20000x256, .f32⟩ : BufTy).Contents (Elt F)),
    binary main_v96 main_v97 main_v98 (cmpf .ogt : (⟨S20000x256, .f32⟩ : BufTy).Contents (Elt F) → (⟨S20000x256, .f32⟩ : BufTy).Contents (Elt F) → (⟨S20000x256, .i1⟩ : BufTy).Contents (Elt F)),
    unary main_arg6 main_v99 (broadcastInDim S20000x256 ![] bcast_S_S20000x256 : (⟨S_, .f32⟩ : BufTy).Contents (Elt F) → (⟨S20000x256, .f32⟩ : BufTy).Contents (Elt F)),
    binary main_v99 main_v96 main_v100 (mulf : (⟨S20000x256, .f32⟩ : BufTy).Contents (Elt F) → (⟨S20000x256, .f32⟩ : BufTy).Contents (Elt F) → (⟨S20000x256, .f32⟩ : BufTy).Contents (Elt F)),
    TRef.ternary (.of main_v98 : TRef sig ⟨S20000x256, .i1⟩) (.of main_v96 : TRef sig ⟨S20000x256, .f32⟩) (.of main_v100 : TRef sig ⟨S20000x256, .f32⟩) main_call1.v0 select ]

/-- The third product and its bias: the second layer's output times `W₃`, plus `b₃` along the rows. -/
abbrev opsH : List (HloOp τ sig (Elt F)) :=
  [ binary main_v101 main_arg7 main_v102 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg8 main_v103 (broadcastInDim S1x256 ![1] bcast_S256_S1x256_1 : (⟨S256, .f32⟩ : BufTy).Contents (Elt F) → (⟨S1x256, .f32⟩ : BufTy).Contents (Elt F)),
    unary main_v103 main_v104 (broadcastInDim S20000x256 ![0, 1] bcast_S1x256_S20000x256_0_1 : (⟨S1x256, .f32⟩ : BufTy).Contents (Elt F) → (⟨S20000x256, .f32⟩ : BufTy).Contents (Elt F)),
    binary main_v102 main_v104 main_v105 (addf : (⟨S20000x256, .f32⟩ : BufTy).Contents (Elt F) → (⟨S20000x256, .f32⟩ : BufTy).Contents (Elt F) → (⟨S20000x256, .f32⟩ : BufTy).Contents (Elt F)) ]

/-- The exponential linear unit of `main_v105`, the module's `elu` with its two inner calls written out: the sign test twice against a broadcast zero; `_where_1` (the scalar zero converted, broadcast, and selected where the entry is positive, the entry itself elsewhere), so that the exponential-minus-one is taken of a non-positive number only; that times a broadcast one; and `_where_0` choosing the entry itself where it is positive and the scaled exponential elsewhere: `main_v106`. -/
abbrev opsI : List (HloOp τ sig (Elt F)) :=
  [ TRef.nullary main_call2.cst (constant S_ .f32 0x00000000#32),
    TRef.unary main_call2.cst main_call2.v0 (broadcastInDim S20000x256 ![] bcast_S_S20000x256),
    TRef.binary (.of main_v105 : TRef sig ⟨S20000x256, .f32⟩) main_call2.v0 main_call2.v1 (cmpf .ogt),
    TRef.nullary main_call2.cst_0 (constant S_ .f32 0x00000000#32),
    TRef.unary main_call2.cst_0 main_call2.v2 (broadcastInDim S20000x256 ![] bcast_S_S20000x256),
    TRef.binary (.of main_v105 : TRef sig ⟨S20000x256, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S20000x256 ![] bcast_S_S20000x256),
    TRef.ternary main_call2.v3 main_call2.call0.v1 (.of main_v105 : TRef sig ⟨S20000x256, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S20000x256 ![] bcast_S_S20000x256),
    TRef.binary main_call2.v6 main_call2.v5 main_call2.v7 mulf,
    TRef.ternary main_call2.v1 (.of main_v105 : TRef sig ⟨S20000x256, .f32⟩) main_call2.v7 main_call2.call1.v0 select ]

/-- The last product and its bias: that times `W₄`, plus `b₄` along the rows: the result `main_v110`. -/
abbrev opsJ : List (HloOp τ sig (Elt F)) :=
  [ binary main_v106 main_arg9 main_v107 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg10 main_v108 (broadcastInDim S1x256 ![1] bcast_S256_S1x256_1 : (⟨S256, .f32⟩ : BufTy).Contents (Elt F) → (⟨S1x256, .f32⟩ : BufTy).Contents (Elt F)),
    unary main_v108 main_v109 (broadcastInDim S20000x256 ![0, 1] bcast_S1x256_S20000x256_0_1 : (⟨S1x256, .f32⟩ : BufTy).Contents (Elt F) → (⟨S20000x256, .f32⟩ : BufTy).Contents (Elt F)),
    binary main_v107 main_v109 main_v110 (addf : (⟨S20000x256, .f32⟩ : BufTy).Contents (Elt F) → (⟨S20000x256, .f32⟩ : BufTy).Contents (Elt F) → (⟨S20000x256, .f32⟩ : BufTy).Contents (Elt F)) ]

/-- The whole computation: the ten stretches in order. -/
abbrev ops : List (HloOp τ sig (Elt F)) :=
  opsA ++ opsB ++ opsC ++ opsD ++ opsE ++ opsF ++ opsG ++ opsH ++ opsI ++ opsJ

theorem opsA_sub : (opsA : List (HloOp τ sig (Elt F))).Forall fun op => op.bufs ⊆ tcRefs τ sig :=
  ⟨unary_bufs_sub .., reshape_bufs_sub .., unary_bufs_sub .., reshape_bufs_sub ..⟩

theorem opsB_sub : (opsB : List (HloOp τ sig (Elt F))).Forall fun op => op.bufs ⊆ tcRefs τ sig :=
  binary_bufs_sub ..

theorem opsC_sub : (opsC : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., ternary_bufs_sub ..⟩

theorem opsE_sub : (opsE : List (HloOp τ sig (Elt F))).Forall fun op => op.bufs ⊆ tcRefs τ sig :=
  binary_bufs_sub ..

theorem opsF_sub : (opsF : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem opsG_sub : (opsG : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., ternary_bufs_sub ..⟩

theorem opsH_sub : (opsH : List (HloOp τ sig (Elt F))).Forall fun op => op.bufs ⊆ tcRefs τ sig :=
  ⟨binary_bufs_sub .., unary_bufs_sub .., unary_bufs_sub .., binary_bufs_sub ..⟩

theorem opsI_sub : (opsI : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem opsJ_sub : (opsJ : List (HloOp τ sig (Elt F))).Forall fun op => op.bufs ⊆ tcRefs τ sig :=
  ⟨binary_bufs_sub .., unary_bufs_sub .., unary_bufs_sub .., binary_bufs_sub ..⟩

/-- Every operation touches only buffers of the tensor core: stretch by stretch. -/
theorem ops_sub : (ops : List (HloOp τ sig (Elt F))).Forall fun op => op.bufs ⊆ tcRefs τ sig :=
  List.forall_append.2 ⟨List.forall_append.2 ⟨List.forall_append.2 ⟨List.forall_append.2 ⟨List.forall_append.2 ⟨List.forall_append.2 ⟨List.forall_append.2 ⟨List.forall_append.2 ⟨List.forall_append.2 ⟨opsA_sub, opsB_sub⟩, opsC_sub⟩, opsD_sub⟩, opsE_sub⟩, opsF_sub⟩, opsG_sub⟩, opsH_sub⟩, opsI_sub⟩, opsJ_sub⟩

-- the entry function's three windows, the four callees and the ten stretches unfolded leave one chain of 147 binds on each side; re-associating it recurses once per bind
set_option maxRecDepth 16384 in
set_option maxHeartbeats 4000000 in
/-- The entry function is that straight line: its windows and the callees' definitions unfolded at their calls, and
    the list's run unfolded stretch by stretch (`seq_append`), both sides are one chain of operation steps once
    sequencing is re-associated. -/
theorem main_eq (c : Dev nD) : main (F := F) c = seq ops := by
  simp only [ops, seq_append]
  simp only [main, main_part0, main_part1, main_part2, fn_where.body, fn_where_0.body, fn_where_1.body, fn_elu.body,
    opsA, opsB, opsC, opsD, opsE, opsF, opsG, opsH, opsI, opsJ, seq, bind_assoc, pure_bind]

/-- No buffer of the tensor core is scoped to a region, -/
theorem scopedRefs_eq : (Finset.univ.filter fun b : Ref sig .tc => b.isScoped) = ∅ := by decide
/-- and no semaphore is. -/
theorem scopedSems_eq : (Finset.univ.filter fun sm : SemLoc sig => sm.isScoped .tc) = ∅ := by decide

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

theorem opsC_fresh : ∀ op ∈ (opsC : List (HloOp τ sig (Elt F))), op.fresh = ∅ := by
  intro _ h; (repeat (cases h with | head => rfl | tail _ h => ?_)); exact nomatch h

theorem opsD_fresh : ∀ op ∈ (opsD : List (HloOp τ sig (Elt F))), op.fresh = ∅ := by
  intro _ h; (repeat (cases h with | head => rfl | tail _ h => ?_)); exact nomatch h

theorem opsE_fresh : ∀ op ∈ (opsE : List (HloOp τ sig (Elt F))), op.fresh = ∅ := by
  intro _ h; (repeat (cases h with | head => rfl | tail _ h => ?_)); exact nomatch h

theorem opsF_fresh : ∀ op ∈ (opsF : List (HloOp τ sig (Elt F))), op.fresh = ∅ := by
  intro _ h; (repeat (cases h with | head => rfl | tail _ h => ?_)); exact nomatch h

theorem opsG_fresh : ∀ op ∈ (opsG : List (HloOp τ sig (Elt F))), op.fresh = ∅ := by
  intro _ h; (repeat (cases h with | head => rfl | tail _ h => ?_)); exact nomatch h

theorem opsH_fresh : ∀ op ∈ (opsH : List (HloOp τ sig (Elt F))), op.fresh = ∅ := by
  intro _ h; (repeat (cases h with | head => rfl | tail _ h => ?_)); exact nomatch h

theorem opsI_fresh : ∀ op ∈ (opsI : List (HloOp τ sig (Elt F))), op.fresh = ∅ := by
  intro _ h; (repeat (cases h with | head => rfl | tail _ h => ?_)); exact nomatch h

theorem opsJ_fresh : ∀ op ∈ (opsJ : List (HloOp τ sig (Elt F))), op.fresh = ∅ := by
  intro _ h; (repeat (cases h with | head => rfl | tail _ h => ?_)); exact nomatch h

/-- Every operation determines what it writes (none leaves a buffer's contents open): stretch by stretch. -/
theorem ops_fresh : ∀ op ∈ (ops : List (HloOp τ sig (Elt F))), op.fresh = ∅ := by
  intro op h
  simp only [ops, List.mem_append] at h
  rcases h with (((((((((h | h) | h) | h) | h) | h) | h) | h) | h) | h)
  exacts [opsA_fresh op h, opsB_fresh op h, opsC_fresh op h, opsD_fresh op h, opsE_fresh op h, opsF_fresh op h, opsG_fresh op h, opsH_fresh op h, opsI_fresh op h, opsJ_fresh op h]

/-- On every device, for any float values, from any memory with zero counters: every weakly fair execution of the
    entry function on the tensor cores terminates, and every final state has each buffer at the fold of the 147
    operations' results over that device's initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValue.lean ====
import proofs.«133885_j69879117906024_1_alg».proof.Proof.RefRun
import proofs.«133885_j69879117906024_1_alg».proof.Proof.RefSpec

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! # What the reference computes

The reference's 147 operations are read stretch by stretch: each stretch's results as the pure functions of the
contents it starts from, and every buffer it does not write left as it was. Chained through the ten stretches this
gives the final buffer as the network's function `Spec.refFinal` of the eleven argument arrays, and the arguments
unchanged; the run theorem of the operation list then states it of every fair execution. -/

/-- The contents after two lines in a row are the second's after the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## Each stretch's results, from any contents -/

/-- The first stretch leaves the edges' sources in `main_v1` -/
theorem valA_v1 (V : Valuation τ sig (Elt F)) :
    after opsA V (main_v1 : DevRef τ sig) = Spec.srcIdx (V (main_arg1 : DevRef τ sig)) := by
  dsimp only [opsA]; after_results_simp; rfl

/-- and their targets in `main_v3`. -/
theorem valA_v3 (V : Valuation τ sig (Elt F)) :
    after opsA V (main_v3 : DevRef τ sig) = Spec.dstIdx (V (main_arg1 : DevRef τ sig)) := by
  dsimp only [opsA]; after_results_simp; rfl

/-- The first product. -/
theorem valB_v4 (V : Valuation τ sig (Elt F)) :
    after opsB V (main_v4 : DevRef τ sig) = Host.dotGeneral dot_S20000x512_S512x512_S20000x512_1_0_0_1_n_n none (V (main_arg0 : DevRef τ sig)) (V (main_arg2 : DevRef τ sig)) := by
  dsimp only [opsB]; after_results_simp

/-- From the targets of an edge array, the third stretch computes the nodes' weights -/
theorem valC_v11 (V : Valuation τ sig (Elt F)) (e : Spec.Arr F S2x320000 .i32)
    (h3 : V (main_v3 : DevRef τ sig) = Spec.dstIdx e) :
    after opsC V (main_v11 : DevRef τ sig) = Spec.dis e := by
  dsimp only [opsC]; after_results_simp; rw [h3]; rfl

/-- and, from its sources too, the edges' coefficients. -/
theorem valC_v26 (V : Valuation τ sig (Elt F)) (e : Spec.Arr F S2x320000 .i32)
    (h1 : V (main_v1 : DevRef τ sig) = Spec.srcIdx e) (h3 : V (main_v3 : DevRef τ sig) = Spec.dstIdx e) :
    after opsC V (main_v26 : DevRef τ sig) = Spec.coef e := by
  dsimp only [opsC]; after_results_simp; rw [h1, h3]; rfl

/-- The first layer's aggregation and leaky unit, from the projected rows, the sources, targets, coefficients and weights held so far. -/
theorem valD_v52 (V : Valuation τ sig (Elt F)) :
    after opsD V (main_v52 : DevRef τ sig)
      = Spec.prelu512 (V (main_arg6 : DevRef τ sig)) (Spec.layer512p (V (main_v4 : DevRef τ sig)) (V (main_v1 : DevRef τ sig)) (V (main_v3 : DevRef τ sig)) (V (main_v26 : DevRef τ sig))
          (mulf (V (main_v11 : DevRef τ sig)) (V (main_v11 : DevRef τ sig))) (V (main_arg3 : DevRef τ sig))) := by
  dsimp only [opsD]; after_results_simp; rfl

/-- The second product. -/
theorem valE_v53 (V : Valuation τ sig (Elt F)) :
    after opsE V (main_v53 : DevRef τ sig) = Host.dotGeneral dot_S20000x512_S512x256_S20000x256_1_0_0_1_n_n none (V (main_v52 : DevRef τ sig)) (V (main_arg4 : DevRef τ sig)) := by
  dsimp only [opsE]; after_results_simp

/-- The weights -/
theorem valF_v60 (V : Valuation τ sig (Elt F)) (e : Spec.Arr F S2x320000 .i32)
    (h3 : V (main_v3 : DevRef τ sig) = Spec.dstIdx e) :
    after opsF V (main_v60 : DevRef τ sig) = Spec.dis e := by
  dsimp only [opsF]; after_results_simp; rw [h3]; rfl

/-- and coefficients once more. -/
theorem valF_v75 (V : Valuation τ sig (Elt F)) (e : Spec.Arr F S2x320000 .i32)
    (h1 : V (main_v1 : DevRef τ sig) = Spec.srcIdx e) (h3 : V (main_v3 : DevRef τ sig) = Spec.dstIdx e) :
    after opsF V (main_v75 : DevRef τ sig) = Spec.coef e := by
  dsimp only [opsF]; after_results_simp; rw [h1, h3]; rfl

/-- The second layer's aggregation and leaky unit. -/
theorem valG_v101 (V : Valuation τ sig (Elt F)) :
    after opsG V (main_v101 : DevRef τ sig)
      = Spec.prelu256 (V (main_arg6 : DevRef τ sig)) (Spec.layer256p (V (main_v53 : DevRef τ sig)) (V (main_v1 : DevRef τ sig)) (V (main_v3 : DevRef τ sig)) (V (main_v75 : DevRef τ sig))
          (mulf (V (main_v60 : DevRef τ sig)) (V (main_v60 : DevRef τ sig))) (V (main_arg5 : DevRef τ sig))) := by
  dsimp only [opsG]; after_results_simp; rfl

/-- The third product and its bias. -/
theorem valH_v105 (V : Valuation τ sig (Elt F)) :
    after opsH V (main_v105 : DevRef τ sig) = addf (Host.dotGeneral dot_S20000x256_S256x256_S20000x256_1_0_0_1_n_n none (V (main_v101 : DevRef τ sig)) (V (main_arg7 : DevRef τ sig))) (Spec.biasRows256 (V (main_arg8 : DevRef τ sig))) := by
  dsimp only [opsH]; after_results_simp; rfl

/-- The exponential linear unit. -/
theorem valI_v106 (V : Valuation τ sig (Elt F)) :
    after opsI V (main_v106 : DevRef τ sig) = Spec.eluR (V (main_v105 : DevRef τ sig)) := by
  dsimp only [opsI]; after_results_simp; rfl

/-- The last dense layer. -/
theorem valJ_v110 (V : Valuation τ sig (Elt F)) :
    after opsJ V (main_v110 : DevRef τ sig) = Spec.stage4 (V (main_v106 : DevRef τ sig)) (V (main_arg9 : DevRef τ sig)) (V (main_arg10 : DevRef τ sig)) := by
  dsimp only [opsJ]; after_results_simp; rfl

/-! ## What each stretch writes, and so what it keeps -/

/-- The buffers stretch A writes: one per operation. -/
abbrev WA : List (Ref sig .tc) := [main_v0, main_v1, main_v2, main_v3]
theorem opsA_writes : (opsA : List (HloOp τ sig (Elt F))).Forall fun op => op.writes ⊆ (WA.map (Proc.devRef (τ := τ) .tc)).toFinset := by
  simp only [List.Forall]; exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- The buffers stretch B writes: one per operation. -/
abbrev WB : List (Ref sig .tc) := [main_v4]
theorem opsB_writes : (opsB : List (HloOp τ sig (Elt F))).Forall fun op => op.writes ⊆ (WB.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))

/-- The buffers stretch C writes: one per operation. -/
abbrev WC : List (Ref sig .tc) := [main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26]
theorem opsC_writes : (opsC : List (HloOp τ sig (Elt F))).Forall fun op => op.writes ⊆ (WC.map (Proc.devRef (τ := τ) .tc)).toFinset := by
  simp only [List.Forall]; exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- The buffers stretch D writes: one per operation. -/
abbrev WD : List (Ref sig .tc) := [main_c_5, main_v27, main_v28, main_c_6, main_v29, main_v30, main_v31, main_v32, main_v33, main_v34, main_v35, main_v36, main_cst_7, main_v37, main_v38, main_v39, main_v40, main_v41, main_v42, main_v43, main_v44, main_v45, main_v46, main_v47, main_cst_8, main_v48, main_v49, main_v50, main_v51, main_v52]
theorem opsD_writes : (opsD : List (HloOp τ sig (Elt F))).Forall fun op => op.writes ⊆ (WD.map (Proc.devRef (τ := τ) .tc)).toFinset := by
  simp only [List.Forall]; exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- The buffers stretch E writes: one per operation. -/
abbrev WE : List (Ref sig .tc) := [main_v53]
theorem opsE_writes : (opsE : List (HloOp τ sig (Elt F))).Forall fun op => op.writes ⊆ (WE.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))

/-- The buffers stretch F writes: one per operation. -/
abbrev WF : List (Ref sig .tc) := [main_cst_9, main_v54, main_cst_10, main_v55, main_v56, main_v57, main_cst_11, main_v58, main_v59, main_v60, main_c_12, main_v61, main_v62, main_c_13, main_v63, main_v64, main_v65, main_v66, main_v67, main_c_14, main_v68, main_v69, main_c_15, main_v70, main_v71, main_v72, main_v73, main_v74, main_v75]
theorem opsF_writes : (opsF : List (HloOp τ sig (Elt F))).Forall fun op => op.writes ⊆ (WF.map (Proc.devRef (τ := τ) .tc)).toFinset := by
  simp only [List.Forall]; exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- The buffers stretch G writes: one per operation. -/
abbrev WG : List (Ref sig .tc) := [main_c_16, main_v76, main_v77, main_c_17, main_v78, main_v79, main_v80, main_v81, main_v82, main_v83, main_v84, main_v85, main_cst_18, main_v86, main_v87, main_v88, main_v89, main_v90, main_v91, main_v92, main_v93, main_v94, main_v95, main_v96, main_cst_19, main_v97, main_v98, main_v99, main_v100, main_v101]
theorem opsG_writes : (opsG : List (HloOp τ sig (Elt F))).Forall fun op => op.writes ⊆ (WG.map (Proc.devRef (τ := τ) .tc)).toFinset := by
  simp only [List.Forall]; exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- The buffers stretch H writes: one per operation. -/
abbrev WH : List (Ref sig .tc) := [main_v102, main_v103, main_v104, main_v105]
theorem opsH_writes : (opsH : List (HloOp τ sig (Elt F))).Forall fun op => op.writes ⊆ (WH.map (Proc.devRef (τ := τ) .tc)).toFinset := by
  simp only [List.Forall]; exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- The buffers stretch I writes: one per operation. -/
abbrev WI : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v106]
theorem opsI_writes : (opsI : List (HloOp τ sig (Elt F))).Forall fun op => op.writes ⊆ (WI.map (Proc.devRef (τ := τ) .tc)).toFinset := by
  simp only [List.Forall]; exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-- The buffers stretch J writes: one per operation. -/
abbrev WJ : List (Ref sig .tc) := [main_v107, main_v108, main_v109, main_v110]
theorem opsJ_writes : (opsJ : List (HloOp τ sig (Elt F))).Forall fun op => op.writes ⊆ (WJ.map (Proc.devRef (τ := τ) .tc)).toFinset := by
  simp only [List.Forall]; exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩

/-! ## The contents after each stretch -/

/-- The contents after the first 1 stretch. -/
abbrev V1 (V : Valuation τ sig (Elt F)) : Valuation τ sig (Elt F) := after opsA V
theorem V1_keep (V : Valuation τ sig (Elt F)) (r : Ref sig .tc) (h : r ∉ WA) : V1 V (Proc.devRef .tc r) = V (Proc.devRef .tc r) :=
  after_of_writes_sub opsA _ opsA_writes h

/-- The contents after the first 2 stretches. -/
abbrev V2 (V : Valuation τ sig (Elt F)) : Valuation τ sig (Elt F) := after opsB (V1 V)
theorem V2_keep (V : Valuation τ sig (Elt F)) (r : Ref sig .tc) (h : r ∉ WB) : V2 V (Proc.devRef .tc r) = V1 V (Proc.devRef .tc r) :=
  after_of_writes_sub opsB _ opsB_writes h

/-- The contents after the first 3 stretches. -/
abbrev V3 (V : Valuation τ sig (Elt F)) : Valuation τ sig (Elt F) := after opsC (V2 V)
theorem V3_keep (V : Valuation τ sig (Elt F)) (r : Ref sig .tc) (h : r ∉ WC) : V3 V (Proc.devRef .tc r) = V2 V (Proc.devRef .tc r) :=
  after_of_writes_sub opsC _ opsC_writes h

/-- The contents after the first 4 stretches. -/
abbrev V4 (V : Valuation τ sig (Elt F)) : Valuation τ sig (Elt F) := after opsD (V3 V)
theorem V4_keep (V : Valuation τ sig (Elt F)) (r : Ref sig .tc) (h : r ∉ WD) : V4 V (Proc.devRef .tc r) = V3 V (Proc.devRef .tc r) :=
  after_of_writes_sub opsD _ opsD_writes h

/-- The contents after the first 5 stretches. -/
abbrev V5 (V : Valuation τ sig (Elt F)) : Valuation τ sig (Elt F) := after opsE (V4 V)
theorem V5_keep (V : Valuation τ sig (Elt F)) (r : Ref sig .tc) (h : r ∉ WE) : V5 V (Proc.devRef .tc r) = V4 V (Proc.devRef .tc r) :=
  after_of_writes_sub opsE _ opsE_writes h

/-- The contents after the first 6 stretches. -/
abbrev V6 (V : Valuation τ sig (Elt F)) : Valuation τ sig (Elt F) := after opsF (V5 V)
theorem V6_keep (V : Valuation τ sig (Elt F)) (r : Ref sig .tc) (h : r ∉ WF) : V6 V (Proc.devRef .tc r) = V5 V (Proc.devRef .tc r) :=
  after_of_writes_sub opsF _ opsF_writes h

/-- The contents after the first 7 stretches. -/
abbrev V7 (V : Valuation τ sig (Elt F)) : Valuation τ sig (Elt F) := after opsG (V6 V)
theorem V7_keep (V : Valuation τ sig (Elt F)) (r : Ref sig .tc) (h : r ∉ WG) : V7 V (Proc.devRef .tc r) = V6 V (Proc.devRef .tc r) :=
  after_of_writes_sub opsG _ opsG_writes h

/-- The contents after the first 8 stretches. -/
abbrev V8 (V : Valuation τ sig (Elt F)) : Valuation τ sig (Elt F) := after opsH (V7 V)
theorem V8_keep (V : Valuation τ sig (Elt F)) (r : Ref sig .tc) (h : r ∉ WH) : V8 V (Proc.devRef .tc r) = V7 V (Proc.devRef .tc r) :=
  after_of_writes_sub opsH _ opsH_writes h

/-- The contents after the first 9 stretches. -/
abbrev V9 (V : Valuation τ sig (Elt F)) : Valuation τ sig (Elt F) := after opsI (V8 V)
theorem V9_keep (V : Valuation τ sig (Elt F)) (r : Ref sig .tc) (h : r ∉ WI) : V9 V (Proc.devRef .tc r) = V8 V (Proc.devRef .tc r) :=
  after_of_writes_sub opsI _ opsI_writes h

/-- The contents after the first 10 stretches. -/
abbrev V10 (V : Valuation τ sig (Elt F)) : Valuation τ sig (Elt F) := after opsJ (V9 V)
theorem V10_keep (V : Valuation τ sig (Elt F)) (r : Ref sig .tc) (h : r ∉ WJ) : V10 V (Proc.devRef .tc r) = V9 V (Proc.devRef .tc r) :=
  after_of_writes_sub opsJ _ opsJ_writes h

/-- The whole line's contents are the tenth's. -/
theorem after_ops (V : Valuation τ sig (Elt F)) : after ops V = V10 V := by
  simp only [ops, after_app] <;> rfl

/-! ## The live buffers after each stretch, as functions of the initial contents -/

theorem s1_v1 (V : Valuation τ sig (Elt F)) : V1 V (main_v1 : DevRef τ sig) = Spec.srcIdx (V (main_arg1 : DevRef τ sig)) :=
  valA_v1 V
theorem s1_v3 (V : Valuation τ sig (Elt F)) : V1 V (main_v3 : DevRef τ sig) = Spec.dstIdx (V (main_arg1 : DevRef τ sig)) :=
  valA_v3 V
theorem s1_arg0 (V : Valuation τ sig (Elt F)) : V1 V (main_arg0 : DevRef τ sig) = V (main_arg0 : DevRef τ sig) :=
  V1_keep V main_arg0 (by decide)
theorem s1_arg2 (V : Valuation τ sig (Elt F)) : V1 V (main_arg2 : DevRef τ sig) = V (main_arg2 : DevRef τ sig) :=
  V1_keep V main_arg2 (by decide)
theorem s1_arg3 (V : Valuation τ sig (Elt F)) : V1 V (main_arg3 : DevRef τ sig) = V (main_arg3 : DevRef τ sig) :=
  V1_keep V main_arg3 (by decide)
theorem s1_arg4 (V : Valuation τ sig (Elt F)) : V1 V (main_arg4 : DevRef τ sig) = V (main_arg4 : DevRef τ sig) :=
  V1_keep V main_arg4 (by decide)
theorem s1_arg5 (V : Valuation τ sig (Elt F)) : V1 V (main_arg5 : DevRef τ sig) = V (main_arg5 : DevRef τ sig) :=
  V1_keep V main_arg5 (by decide)
theorem s1_arg6 (V : Valuation τ sig (Elt F)) : V1 V (main_arg6 : DevRef τ sig) = V (main_arg6 : DevRef τ sig) :=
  V1_keep V main_arg6 (by decide)
theorem s1_arg7 (V : Valuation τ sig (Elt F)) : V1 V (main_arg7 : DevRef τ sig) = V (main_arg7 : DevRef τ sig) :=
  V1_keep V main_arg7 (by decide)
theorem s1_arg8 (V : Valuation τ sig (Elt F)) : V1 V (main_arg8 : DevRef τ sig) = V (main_arg8 : DevRef τ sig) :=
  V1_keep V main_arg8 (by decide)
theorem s1_arg9 (V : Valuation τ sig (Elt F)) : V1 V (main_arg9 : DevRef τ sig) = V (main_arg9 : DevRef τ sig) :=
  V1_keep V main_arg9 (by decide)
theorem s1_arg10 (V : Valuation τ sig (Elt F)) : V1 V (main_arg10 : DevRef τ sig) = V (main_arg10 : DevRef τ sig) :=
  V1_keep V main_arg10 (by decide)

theorem s2_v4 (V : Valuation τ sig (Elt F)) : V2 V (main_v4 : DevRef τ sig) = Host.dotGeneral dot_S20000x512_S512x512_S20000x512_1_0_0_1_n_n none (V (main_arg0 : DevRef τ sig)) (V (main_arg2 : DevRef τ sig)) :=
  (valB_v4 (V1 V)).trans (by rw [s1_arg0 V, s1_arg2 V])
theorem s2_v1 (V : Valuation τ sig (Elt F)) : V2 V (main_v1 : DevRef τ sig) = Spec.srcIdx (V (main_arg1 : DevRef τ sig)) :=
  (V2_keep V main_v1 (by decide)).trans (s1_v1 V)
theorem s2_v3 (V : Valuation τ sig (Elt F)) : V2 V (main_v3 : DevRef τ sig) = Spec.dstIdx (V (main_arg1 : DevRef τ sig)) :=
  (V2_keep V main_v3 (by decide)).trans (s1_v3 V)
theorem s2_arg3 (V : Valuation τ sig (Elt F)) : V2 V (main_arg3 : DevRef τ sig) = V (main_arg3 : DevRef τ sig) :=
  (V2_keep V main_arg3 (by decide)).trans (s1_arg3 V)
theorem s2_arg4 (V : Valuation τ sig (Elt F)) : V2 V (main_arg4 : DevRef τ sig) = V (main_arg4 : DevRef τ sig) :=
  (V2_keep V main_arg4 (by decide)).trans (s1_arg4 V)
theorem s2_arg5 (V : Valuation τ sig (Elt F)) : V2 V (main_arg5 : DevRef τ sig) = V (main_arg5 : DevRef τ sig) :=
  (V2_keep V main_arg5 (by decide)).trans (s1_arg5 V)
theorem s2_arg6 (V : Valuation τ sig (Elt F)) : V2 V (main_arg6 : DevRef τ sig) = V (main_arg6 : DevRef τ sig) :=
  (V2_keep V main_arg6 (by decide)).trans (s1_arg6 V)
theorem s2_arg7 (V : Valuation τ sig (Elt F)) : V2 V (main_arg7 : DevRef τ sig) = V (main_arg7 : DevRef τ sig) :=
  (V2_keep V main_arg7 (by decide)).trans (s1_arg7 V)
theorem s2_arg8 (V : Valuation τ sig (Elt F)) : V2 V (main_arg8 : DevRef τ sig) = V (main_arg8 : DevRef τ sig) :=
  (V2_keep V main_arg8 (by decide)).trans (s1_arg8 V)
theorem s2_arg9 (V : Valuation τ sig (Elt F)) : V2 V (main_arg9 : DevRef τ sig) = V (main_arg9 : DevRef τ sig) :=
  (V2_keep V main_arg9 (by decide)).trans (s1_arg9 V)
theorem s2_arg10 (V : Valuation τ sig (Elt F)) : V2 V (main_arg10 : DevRef τ sig) = V (main_arg10 : DevRef τ sig) :=
  (V2_keep V main_arg10 (by decide)).trans (s1_arg10 V)

theorem s3_v11 (V : Valuation τ sig (Elt F)) : V3 V (main_v11 : DevRef τ sig) = Spec.dis (V (main_arg1 : DevRef τ sig)) :=
  valC_v11 (V2 V) _ (s2_v3 V)
theorem s3_v26 (V : Valuation τ sig (Elt F)) : V3 V (main_v26 : DevRef τ sig) = Spec.coef (V (main_arg1 : DevRef τ sig)) :=
  valC_v26 (V2 V) _ (s2_v1 V) (s2_v3 V)
theorem s3_v1 (V : Valuation τ sig (Elt F)) : V3 V (main_v1 : DevRef τ sig) = Spec.srcIdx (V (main_arg1 : DevRef τ sig)) :=
  (V3_keep V main_v1 (by decide)).trans (s2_v1 V)
theorem s3_v3 (V : Valuation τ sig (Elt F)) : V3 V (main_v3 : DevRef τ sig) = Spec.dstIdx (V (main_arg1 : DevRef τ sig)) :=
  (V3_keep V main_v3 (by decide)).trans (s2_v3 V)
theorem s3_v4 (V : Valuation τ sig (Elt F)) : V3 V (main_v4 : DevRef τ sig) = Host.dotGeneral dot_S20000x512_S512x512_S20000x512_1_0_0_1_n_n none (V (main_arg0 : DevRef τ sig)) (V (main_arg2 : DevRef τ sig)) :=
  (V3_keep V main_v4 (by decide)).trans (s2_v4 V)
theorem s3_arg3 (V : Valuation τ sig (Elt F)) : V3 V (main_arg3 : DevRef τ sig) = V (main_arg3 : DevRef τ sig) :=
  (V3_keep V main_arg3 (by decide)).trans (s2_arg3 V)
theorem s3_arg4 (V : Valuation τ sig (Elt F)) : V3 V (main_arg4 : DevRef τ sig) = V (main_arg4 : DevRef τ sig) :=
  (V3_keep V main_arg4 (by decide)).trans (s2_arg4 V)
theorem s3_arg5 (V : Valuation τ sig (Elt F)) : V3 V (main_arg5 : DevRef τ sig) = V (main_arg5 : DevRef τ sig) :=
  (V3_keep V main_arg5 (by decide)).trans (s2_arg5 V)
theorem s3_arg6 (V : Valuation τ sig (Elt F)) : V3 V (main_arg6 : DevRef τ sig) = V (main_arg6 : DevRef τ sig) :=
  (V3_keep V main_arg6 (by decide)).trans (s2_arg6 V)
theorem s3_arg7 (V : Valuation τ sig (Elt F)) : V3 V (main_arg7 : DevRef τ sig) = V (main_arg7 : DevRef τ sig) :=
  (V3_keep V main_arg7 (by decide)).trans (s2_arg7 V)
theorem s3_arg8 (V : Valuation τ sig (Elt F)) : V3 V (main_arg8 : DevRef τ sig) = V (main_arg8 : DevRef τ sig) :=
  (V3_keep V main_arg8 (by decide)).trans (s2_arg8 V)
theorem s3_arg9 (V : Valuation τ sig (Elt F)) : V3 V (main_arg9 : DevRef τ sig) = V (main_arg9 : DevRef τ sig) :=
  (V3_keep V main_arg9 (by decide)).trans (s2_arg9 V)
theorem s3_arg10 (V : Valuation τ sig (Elt F)) : V3 V (main_arg10 : DevRef τ sig) = V (main_arg10 : DevRef τ sig) :=
  (V3_keep V main_arg10 (by decide)).trans (s2_arg10 V)

theorem s4_v52 (V : Valuation τ sig (Elt F)) : V4 V (main_v52 : DevRef τ sig) = Spec.stage1 (V (main_arg0 : DevRef τ sig)) (V (main_arg1 : DevRef τ sig)) (V (main_arg2 : DevRef τ sig)) (V (main_arg3 : DevRef τ sig)) (V (main_arg6 : DevRef τ sig)) :=
  (valD_v52 (V3 V)).trans (by rw [s3_arg6 V, s3_v4 V, s3_v1 V, s3_v3 V, s3_v26 V, s3_v11 V, s3_arg3 V]; rfl)
theorem s4_v1 (V : Valuation τ sig (Elt F)) : V4 V (main_v1 : DevRef τ sig) = Spec.srcIdx (V (main_arg1 : DevRef τ sig)) :=
  (V4_keep V main_v1 (by decide)).trans (s3_v1 V)
theorem s4_v3 (V : Valuation τ sig (Elt F)) : V4 V (main_v3 : DevRef τ sig) = Spec.dstIdx (V (main_arg1 : DevRef τ sig)) :=
  (V4_keep V main_v3 (by decide)).trans (s3_v3 V)
theorem s4_arg4 (V : Valuation τ sig (Elt F)) : V4 V (main_arg4 : DevRef τ sig) = V (main_arg4 : DevRef τ sig) :=
  (V4_keep V main_arg4 (by decide)).trans (s3_arg4 V)
theorem s4_arg5 (V : Valuation τ sig (Elt F)) : V4 V (main_arg5 : DevRef τ sig) = V (main_arg5 : DevRef τ sig) :=
  (V4_keep V main_arg5 (by decide)).trans (s3_arg5 V)
theorem s4_arg6 (V : Valuation τ sig (Elt F)) : V4 V (main_arg6 : DevRef τ sig) = V (main_arg6 : DevRef τ sig) :=
  (V4_keep V main_arg6 (by decide)).trans (s3_arg6 V)
theorem s4_arg7 (V : Valuation τ sig (Elt F)) : V4 V (main_arg7 : DevRef τ sig) = V (main_arg7 : DevRef τ sig) :=
  (V4_keep V main_arg7 (by decide)).trans (s3_arg7 V)
theorem s4_arg8 (V : Valuation τ sig (Elt F)) : V4 V (main_arg8 : DevRef τ sig) = V (main_arg8 : DevRef τ sig) :=
  (V4_keep V main_arg8 (by decide)).trans (s3_arg8 V)
theorem s4_arg9 (V : Valuation τ sig (Elt F)) : V4 V (main_arg9 : DevRef τ sig) = V (main_arg9 : DevRef τ sig) :=
  (V4_keep V main_arg9 (by decide)).trans (s3_arg9 V)
theorem s4_arg10 (V : Valuation τ sig (Elt F)) : V4 V (main_arg10 : DevRef τ sig) = V (main_arg10 : DevRef τ sig) :=
  (V4_keep V main_arg10 (by decide)).trans (s3_arg10 V)

theorem s5_v53 (V : Valuation τ sig (Elt F)) : V5 V (main_v53 : DevRef τ sig) = Host.dotGeneral dot_S20000x512_S512x256_S20000x256_1_0_0_1_n_n none (Spec.stage1 (V (main_arg0 : DevRef τ sig)) (V (main_arg1 : DevRef τ sig)) (V (main_arg2 : DevRef τ sig)) (V (main_arg3 : DevRef τ sig)) (V (main_arg6 : DevRef τ sig))) (V (main_arg4 : DevRef τ sig)) :=
  (valE_v53 (V4 V)).trans (by rw [s4_v52 V, s4_arg4 V])
theorem s5_v1 (V : Valuation τ sig (Elt F)) : V5 V (main_v1 : DevRef τ sig) = Spec.srcIdx (V (main_arg1 : DevRef τ sig)) :=
  (V5_keep V main_v1 (by decide)).trans (s4_v1 V)
theorem s5_v3 (V : Valuation τ sig (Elt F)) : V5 V (main_v3 : DevRef τ sig) = Spec.dstIdx (V (main_arg1 : DevRef τ sig)) :=
  (V5_keep V main_v3 (by decide)).trans (s4_v3 V)
theorem s5_arg5 (V : Valuation τ sig (Elt F)) : V5 V (main_arg5 : DevRef τ sig) = V (main_arg5 : DevRef τ sig) :=
  (V5_keep V main_arg5 (by decide)).trans (s4_arg5 V)
theorem s5_arg6 (V : Valuation τ sig (Elt F)) : V5 V (main_arg6 : DevRef τ sig) = V (main_arg6 : DevRef τ sig) :=
  (V5_keep V main_arg6 (by decide)).trans (s4_arg6 V)
theorem s5_arg7 (V : Valuation τ sig (Elt F)) : V5 V (main_arg7 : DevRef τ sig) = V (main_arg7 : DevRef τ sig) :=
  (V5_keep V main_arg7 (by decide)).trans (s4_arg7 V)
theorem s5_arg8 (V : Valuation τ sig (Elt F)) : V5 V (main_arg8 : DevRef τ sig) = V (main_arg8 : DevRef τ sig) :=
  (V5_keep V main_arg8 (by decide)).trans (s4_arg8 V)
theorem s5_arg9 (V : Valuation τ sig (Elt F)) : V5 V (main_arg9 : DevRef τ sig) = V (main_arg9 : DevRef τ sig) :=
  (V5_keep V main_arg9 (by decide)).trans (s4_arg9 V)
theorem s5_arg10 (V : Valuation τ sig (Elt F)) : V5 V (main_arg10 : DevRef τ sig) = V (main_arg10 : DevRef τ sig) :=
  (V5_keep V main_arg10 (by decide)).trans (s4_arg10 V)

theorem s6_v60 (V : Valuation τ sig (Elt F)) : V6 V (main_v60 : DevRef τ sig) = Spec.dis (V (main_arg1 : DevRef τ sig)) :=
  valF_v60 (V5 V) _ (s5_v3 V)
theorem s6_v75 (V : Valuation τ sig (Elt F)) : V6 V (main_v75 : DevRef τ sig) = Spec.coef (V (main_arg1 : DevRef τ sig)) :=
  valF_v75 (V5 V) _ (s5_v1 V) (s5_v3 V)
theorem s6_v1 (V : Valuation τ sig (Elt F)) : V6 V (main_v1 : DevRef τ sig) = Spec.srcIdx (V (main_arg1 : DevRef τ sig)) :=
  (V6_keep V main_v1 (by decide)).trans (s5_v1 V)
theorem s6_v3 (V : Valuation τ sig (Elt F)) : V6 V (main_v3 : DevRef τ sig) = Spec.dstIdx (V (main_arg1 : DevRef τ sig)) :=
  (V6_keep V main_v3 (by decide)).trans (s5_v3 V)
theorem s6_v53 (V : Valuation τ sig (Elt F)) : V6 V (main_v53 : DevRef τ sig) = Host.dotGeneral dot_S20000x512_S512x256_S20000x256_1_0_0_1_n_n none (Spec.stage1 (V (main_arg0 : DevRef τ sig)) (V (main_arg1 : DevRef τ sig)) (V (main_arg2 : DevRef τ sig)) (V (main_arg3 : DevRef τ sig)) (V (main_arg6 : DevRef τ sig))) (V (main_arg4 : DevRef τ sig)) :=
  (V6_keep V main_v53 (by decide)).trans (s5_v53 V)
theorem s6_arg5 (V : Valuation τ sig (Elt F)) : V6 V (main_arg5 : DevRef τ sig) = V (main_arg5 : DevRef τ sig) :=
  (V6_keep V main_arg5 (by decide)).trans (s5_arg5 V)
theorem s6_arg6 (V : Valuation τ sig (Elt F)) : V6 V (main_arg6 : DevRef τ sig) = V (main_arg6 : DevRef τ sig) :=
  (V6_keep V main_arg6 (by decide)).trans (s5_arg6 V)
theorem s6_arg7 (V : Valuation τ sig (Elt F)) : V6 V (main_arg7 : DevRef τ sig) = V (main_arg7 : DevRef τ sig) :=
  (V6_keep V main_arg7 (by decide)).trans (s5_arg7 V)
theorem s6_arg8 (V : Valuation τ sig (Elt F)) : V6 V (main_arg8 : DevRef τ sig) = V (main_arg8 : DevRef τ sig) :=
  (V6_keep V main_arg8 (by decide)).trans (s5_arg8 V)
theorem s6_arg9 (V : Valuation τ sig (Elt F)) : V6 V (main_arg9 : DevRef τ sig) = V (main_arg9 : DevRef τ sig) :=
  (V6_keep V main_arg9 (by decide)).trans (s5_arg9 V)
theorem s6_arg10 (V : Valuation τ sig (Elt F)) : V6 V (main_arg10 : DevRef τ sig) = V (main_arg10 : DevRef τ sig) :=
  (V6_keep V main_arg10 (by decide)).trans (s5_arg10 V)

theorem s7_v101 (V : Valuation τ sig (Elt F)) : V7 V (main_v101 : DevRef τ sig) = Spec.stage2 (Spec.stage1 (V (main_arg0 : DevRef τ sig)) (V (main_arg1 : DevRef τ sig)) (V (main_arg2 : DevRef τ sig)) (V (main_arg3 : DevRef τ sig)) (V (main_arg6 : DevRef τ sig))) (V (main_arg1 : DevRef τ sig)) (V (main_arg4 : DevRef τ sig)) (V (main_arg5 : DevRef τ sig)) (V (main_arg6 : DevRef τ sig)) :=
  (valG_v101 (V6 V)).trans (by rw [s6_arg6 V, s6_v53 V, s6_v1 V, s6_v3 V, s6_v75 V, s6_v60 V, s6_arg5 V]; rfl)
theorem s7_arg7 (V : Valuation τ sig (Elt F)) : V7 V (main_arg7 : DevRef τ sig) = V (main_arg7 : DevRef τ sig) :=
  (V7_keep V main_arg7 (by decide)).trans (s6_arg7 V)
theorem s7_arg8 (V : Valuation τ sig (Elt F)) : V7 V (main_arg8 : DevRef τ sig) = V (main_arg8 : DevRef τ sig) :=
  (V7_keep V main_arg8 (by decide)).trans (s6_arg8 V)
theorem s7_arg9 (V : Valuation τ sig (Elt F)) : V7 V (main_arg9 : DevRef τ sig) = V (main_arg9 : DevRef τ sig) :=
  (V7_keep V main_arg9 (by decide)).trans (s6_arg9 V)
theorem s7_arg10 (V : Valuation τ sig (Elt F)) : V7 V (main_arg10 : DevRef τ sig) = V (main_arg10 : DevRef τ sig) :=
  (V7_keep V main_arg10 (by decide)).trans (s6_arg10 V)

theorem s8_v105 (V : Valuation τ sig (Elt F)) : V8 V (main_v105 : DevRef τ sig) = addf (Host.dotGeneral dot_S20000x256_S256x256_S20000x256_1_0_0_1_n_n none (Spec.stage2 (Spec.stage1 (V (main_arg0 : DevRef τ sig)) (V (main_arg1 : DevRef τ sig)) (V (main_arg2 : DevRef τ sig)) (V (main_arg3 : DevRef τ sig)) (V (main_arg6 : DevRef τ sig))) (V (main_arg1 : DevRef τ sig)) (V (main_arg4 : DevRef τ sig)) (V (main_arg5 : DevRef τ sig)) (V (main_arg6 : DevRef τ sig))) (V (main_arg7 : DevRef τ sig))) (Spec.biasRows256 (V (main_arg8 : DevRef τ sig))) :=
  (valH_v105 (V7 V)).trans (by rw [s7_v101 V, s7_arg7 V, s7_arg8 V])
theorem s8_arg9 (V : Valuation τ sig (Elt F)) : V8 V (main_arg9 : DevRef τ sig) = V (main_arg9 : DevRef τ sig) :=
  (V8_keep V main_arg9 (by decide)).trans (s7_arg9 V)
theorem s8_arg10 (V : Valuation τ sig (Elt F)) : V8 V (main_arg10 : DevRef τ sig) = V (main_arg10 : DevRef τ sig) :=
  (V8_keep V main_arg10 (by decide)).trans (s7_arg10 V)

theorem s9_v106 (V : Valuation τ sig (Elt F)) : V9 V (main_v106 : DevRef τ sig) = Spec.stage3 (Spec.stage2 (Spec.stage1 (V (main_arg0 : DevRef τ sig)) (V (main_arg1 : DevRef τ sig)) (V (main_arg2 : DevRef τ sig)) (V (main_arg3 : DevRef τ sig)) (V (main_arg6 : DevRef τ sig))) (V (main_arg1 : DevRef τ sig)) (V (main_arg4 : DevRef τ sig)) (V (main_arg5 : DevRef τ sig)) (V (main_arg6 : DevRef τ sig))) (V (main_arg7 : DevRef τ sig)) (V (main_arg8 : DevRef τ sig)) :=
  (valI_v106 (V8 V)).trans (by rw [s8_v105 V]; rfl)
theorem s9_arg9 (V : Valuation τ sig (Elt F)) : V9 V (main_arg9 : DevRef τ sig) = V (main_arg9 : DevRef τ sig) :=
  (V9_keep V main_arg9 (by decide)).trans (s8_arg9 V)
theorem s9_arg10 (V : Valuation τ sig (Elt F)) : V9 V (main_arg10 : DevRef τ sig) = V (main_arg10 : DevRef τ sig) :=
  (V9_keep V main_arg10 (by decide)).trans (s8_arg10 V)

theorem s10_v110 (V : Valuation τ sig (Elt F)) : V10 V (main_v110 : DevRef τ sig) = Spec.refFinal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) :=
  (valJ_v110 (V9 V)).trans (by rw [s9_v106 V, s9_arg9 V, s9_arg10 V]; rfl)

/-! ## The whole line -/

/-- From any contents, the line leaves the network's value of the eleven arguments in the result buffer, -/
theorem value (V : Valuation τ sig (Elt F)) : after ops V (main_v110 : DevRef τ sig) = Spec.refFinal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after_ops]; exact s10_v110 V

/-- and writes no argument: none of the 147 written buffers is one. -/
theorem arg0_eq (V : Valuation τ sig (Elt F)) : after ops V (main_arg0 : DevRef τ sig) = V (main_arg0 : DevRef τ sig) := by
  rw [after_ops]; exact (V10_keep V main_arg0 (by decide)).trans ((V9_keep V main_arg0 (by decide)).trans ((V8_keep V main_arg0 (by decide)).trans ((V7_keep V main_arg0 (by decide)).trans ((V6_keep V main_arg0 (by decide)).trans ((V5_keep V main_arg0 (by decide)).trans ((V4_keep V main_arg0 (by decide)).trans ((V3_keep V main_arg0 (by decide)).trans ((V2_keep V main_arg0 (by decide)).trans (V1_keep V main_arg0 (by decide))))))))))
theorem arg1_eq (V : Valuation τ sig (Elt F)) : after ops V (main_arg1 : DevRef τ sig) = V (main_arg1 : DevRef τ sig) := by
  rw [after_ops]; exact (V10_keep V main_arg1 (by decide)).trans ((V9_keep V main_arg1 (by decide)).trans ((V8_keep V main_arg1 (by decide)).trans ((V7_keep V main_arg1 (by decide)).trans ((V6_keep V main_arg1 (by decide)).trans ((V5_keep V main_arg1 (by decide)).trans ((V4_keep V main_arg1 (by decide)).trans ((V3_keep V main_arg1 (by decide)).trans ((V2_keep V main_arg1 (by decide)).trans (V1_keep V main_arg1 (by decide))))))))))
theorem arg2_eq (V : Valuation τ sig (Elt F)) : after ops V (main_arg2 : DevRef τ sig) = V (main_arg2 : DevRef τ sig) := by
  rw [after_ops]; exact (V10_keep V main_arg2 (by decide)).trans ((V9_keep V main_arg2 (by decide)).trans ((V8_keep V main_arg2 (by decide)).trans ((V7_keep V main_arg2 (by decide)).trans ((V6_keep V main_arg2 (by decide)).trans ((V5_keep V main_arg2 (by decide)).trans ((V4_keep V main_arg2 (by decide)).trans ((V3_keep V main_arg2 (by decide)).trans ((V2_keep V main_arg2 (by decide)).trans (V1_keep V main_arg2 (by decide))))))))))
theorem arg3_eq (V : Valuation τ sig (Elt F)) : after ops V (main_arg3 : DevRef τ sig) = V (main_arg3 : DevRef τ sig) := by
  rw [after_ops]; exact (V10_keep V main_arg3 (by decide)).trans ((V9_keep V main_arg3 (by decide)).trans ((V8_keep V main_arg3 (by decide)).trans ((V7_keep V main_arg3 (by decide)).trans ((V6_keep V main_arg3 (by decide)).trans ((V5_keep V main_arg3 (by decide)).trans ((V4_keep V main_arg3 (by decide)).trans ((V3_keep V main_arg3 (by decide)).trans ((V2_keep V main_arg3 (by decide)).trans (V1_keep V main_arg3 (by decide))))))))))
theorem arg4_eq (V : Valuation τ sig (Elt F)) : after ops V (main_arg4 : DevRef τ sig) = V (main_arg4 : DevRef τ sig) := by
  rw [after_ops]; exact (V10_keep V main_arg4 (by decide)).trans ((V9_keep V main_arg4 (by decide)).trans ((V8_keep V main_arg4 (by decide)).trans ((V7_keep V main_arg4 (by decide)).trans ((V6_keep V main_arg4 (by decide)).trans ((V5_keep V main_arg4 (by decide)).trans ((V4_keep V main_arg4 (by decide)).trans ((V3_keep V main_arg4 (by decide)).trans ((V2_keep V main_arg4 (by decide)).trans (V1_keep V main_arg4 (by decide))))))))))
theorem arg5_eq (V : Valuation τ sig (Elt F)) : after ops V (main_arg5 : DevRef τ sig) = V (main_arg5 : DevRef τ sig) := by
  rw [after_ops]; exact (V10_keep V main_arg5 (by decide)).trans ((V9_keep V main_arg5 (by decide)).trans ((V8_keep V main_arg5 (by decide)).trans ((V7_keep V main_arg5 (by decide)).trans ((V6_keep V main_arg5 (by decide)).trans ((V5_keep V main_arg5 (by decide)).trans ((V4_keep V main_arg5 (by decide)).trans ((V3_keep V main_arg5 (by decide)).trans ((V2_keep V main_arg5 (by decide)).trans (V1_keep V main_arg5 (by decide))))))))))
theorem arg6_eq (V : Valuation τ sig (Elt F)) : after ops V (main_arg6 : DevRef τ sig) = V (main_arg6 : DevRef τ sig) := by
  rw [after_ops]; exact (V10_keep V main_arg6 (by decide)).trans ((V9_keep V main_arg6 (by decide)).trans ((V8_keep V main_arg6 (by decide)).trans ((V7_keep V main_arg6 (by decide)).trans ((V6_keep V main_arg6 (by decide)).trans ((V5_keep V main_arg6 (by decide)).trans ((V4_keep V main_arg6 (by decide)).trans ((V3_keep V main_arg6 (by decide)).trans ((V2_keep V main_arg6 (by decide)).trans (V1_keep V main_arg6 (by decide))))))))))
theorem arg7_eq (V : Valuation τ sig (Elt F)) : after ops V (main_arg7 : DevRef τ sig) = V (main_arg7 : DevRef τ sig) := by
  rw [after_ops]; exact (V10_keep V main_arg7 (by decide)).trans ((V9_keep V main_arg7 (by decide)).trans ((V8_keep V main_arg7 (by decide)).trans ((V7_keep V main_arg7 (by decide)).trans ((V6_keep V main_arg7 (by decide)).trans ((V5_keep V main_arg7 (by decide)).trans ((V4_keep V main_arg7 (by decide)).trans ((V3_keep V main_arg7 (by decide)).trans ((V2_keep V main_arg7 (by decide)).trans (V1_keep V main_arg7 (by decide))))))))))
theorem arg8_eq (V : Valuation τ sig (Elt F)) : after ops V (main_arg8 : DevRef τ sig) = V (main_arg8 : DevRef τ sig) := by
  rw [after_ops]; exact (V10_keep V main_arg8 (by decide)).trans ((V9_keep V main_arg8 (by decide)).trans ((V8_keep V main_arg8 (by decide)).trans ((V7_keep V main_arg8 (by decide)).trans ((V6_keep V main_arg8 (by decide)).trans ((V5_keep V main_arg8 (by decide)).trans ((V4_keep V main_arg8 (by decide)).trans ((V3_keep V main_arg8 (by decide)).trans ((V2_keep V main_arg8 (by decide)).trans (V1_keep V main_arg8 (by decide))))))))))
theorem arg9_eq (V : Valuation τ sig (Elt F)) : after ops V (main_arg9 : DevRef τ sig) = V (main_arg9 : DevRef τ sig) := by
  rw [after_ops]; exact (V10_keep V main_arg9 (by decide)).trans ((V9_keep V main_arg9 (by decide)).trans ((V8_keep V main_arg9 (by decide)).trans ((V7_keep V main_arg9 (by decide)).trans ((V6_keep V main_arg9 (by decide)).trans ((V5_keep V main_arg9 (by decide)).trans ((V4_keep V main_arg9 (by decide)).trans ((V3_keep V main_arg9 (by decide)).trans ((V2_keep V main_arg9 (by decide)).trans (V1_keep V main_arg9 (by decide))))))))))
theorem arg10_eq (V : Valuation τ sig (Elt F)) : after ops V (main_arg10 : DevRef τ sig) = V (main_arg10 : DevRef τ sig) := by
  rw [after_ops]; exact (V10_keep V main_arg10 (by decide)).trans ((V9_keep V main_arg10 (by decide)).trans ((V8_keep V main_arg10 (by decide)).trans ((V7_keep V main_arg10 (by decide)).trans ((V6_keep V main_arg10 (by decide)).trans ((V5_keep V main_arg10 (by decide)).trans ((V4_keep V main_arg10 (by decide)).trans ((V3_keep V main_arg10 (by decide)).trans ((V2_keep V main_arg10 (by decide)).trans (V1_keep V main_arg10 (by decide))))))))))

/-- On every device, for any float values, from any memory with zero counters: every weakly fair execution of the
    reference terminates with the result buffer at the network's value of the eleven argument arrays, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110) = Spec.refFinal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v110).trans (value (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c))⟩)
    (run_main m ρ)

end Cert.ReferenceIdeal.RefValue

end
-- ==== Proof.Bridge.lean ====
/-
  The two spellings of the network are one function on the extended reals.

  The reference projects with a host matrix product, adds a bias as a row repeated on every row, and spells the exponential
  linear unit as: where z is positive, z; elsewhere one times (exp of (z with its positive entries replaced by zero) minus
  one). The kernel program's dense products are sums over the contracted index, its bias a 1×256 row, and its unit: where
  y is positive, y; elsewhere exp y minus one. Entry by entry these agree: a host product's entry is that sum; both biases
  read the same entry of the bias; and where z is not positive the replaced entry is z itself and the factor one changes
  nothing. No finiteness is used: the laws hold at the infinities too.
-/
import proofs.«133885_j69879117906024_1_alg».proof.Proof.KernelSpec
import proofs.«133885_j69879117906024_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx
open Cert.ReferenceIdeal.Spec (Arr)
open Cert.KernelIdeal.KValue (IArr)

/-! ## Constants -/

/-- The word of +0.0 denotes zero. -/
theorem ofBits_zero : Ideal.ofBits .f32 0x00000000#32 = 0 := Ideal.ofBits_zero_f32

/-- The word of 1.0 denotes one. -/
theorem ofBits_one : Ideal.ofBits .f32 0x3F800000#32 = 1 := by
  simp [Ideal.ofBits, Ideal.ieee, -EReal.coe_mul]; norm_num

/-! ## A host product is the sum over the contracted index -/

theorem dot_512_512 (x : Arr Ideal Cert.ReferenceIdeal.S20000x512 .f32) (w : Arr Ideal Cert.ReferenceIdeal.S512x512 .f32) :
    Host.dotGeneral (F := Ideal) (φ₁ := .f32) (φ₂ := .f32) Cert.ReferenceIdeal.dot_S20000x512_S512x512_S20000x512_1_0_0_1_n_n none x w
      = Cert.Spec.mm (M := 20000) (K := 512) (N := 512) x w :=
  funext fun j => PlainDot.hostDot_apply _ rfl none x w j

theorem dot_512_256 (x : Arr Ideal Cert.ReferenceIdeal.S20000x512 .f32) (w : Arr Ideal Cert.ReferenceIdeal.S512x256 .f32) :
    Host.dotGeneral (F := Ideal) (φ₁ := .f32) (φ₂ := .f32) Cert.ReferenceIdeal.dot_S20000x512_S512x256_S20000x256_1_0_0_1_n_n none x w
      = Cert.Spec.mm (M := 20000) (K := 512) (N := 256) x w :=
  funext fun j => PlainDot.hostDot_apply _ rfl none x w j

theorem dot_256_256 (x : Arr Ideal Cert.ReferenceIdeal.S20000x256 .f32) (w : Arr Ideal Cert.ReferenceIdeal.S256x256 .f32) :
    Host.dotGeneral (F := Ideal) (φ₁ := .f32) (φ₂ := .f32) Cert.ReferenceIdeal.dot_S20000x256_S256x256_S20000x256_1_0_0_1_n_n none x w
      = Cert.Spec.mm (M := 20000) (K := 256) (N := 256) x w :=
  funext fun j => PlainDot.hostDot_apply _ rfl none x w j

/-! ## The two layouts of a bias -/

/-- The bias repeated on every row reads, at (p, q), entry q of the bias. -/
theorem biasRows_ix (b : Arr Ideal Cert.ReferenceIdeal.S256 .f32) (p : Fin 20000) (q : Fin 256) :
    Cert.ReferenceIdeal.Spec.biasRows256 b (ix2 p q) = b (ix1 q) := by
  unfold Cert.ReferenceIdeal.Spec.biasRows256
  refine (broadcastInDim_apply _ _ _ (ix2 p q) (ix2 (0 : Fin 1) q) (fun a => by
    match a with
    | ⟨0, _⟩ => rfl
    | ⟨1, _⟩ => rfl)).trans ?_
  exact broadcastInDim_apply _ _ _ (ix2 (0 : Fin 1) q) (ix1 q) (fun a => by
    match a with
    | ⟨0, _⟩ => rfl)

/-- The bias as one row reads, at (0, q), entry q of the bias. -/
theorem biasRow_ix (b : IArr Cert.KernelIdeal.S256 .f32) (q : Fin 256) :
    Cert.KernelIdeal.KValue.biasRow b (ix2 (0 : Fin 1) q) = b (ix1 q) :=
  shapeCast_a_1a_apply b _ 0 q

/-! ## The two spellings of the exponential linear unit -/

/-- On one extended real: where z is positive both give z; elsewhere the reference's replaced entry is z itself, and one
    times (exp z - 1) is exp z - 1. -/
theorem eluR_apply (z : Arr Ideal Cert.ReferenceIdeal.S20000x256 .f32) (j : Cert.ReferenceIdeal.S20000x256.Idx) :
    Cert.ReferenceIdeal.Spec.eluR z j = Cert.Spec.elu (z j) := by
  unfold Cert.ReferenceIdeal.Spec.eluR Cert.Spec.elu
  simp only [select_apply, cmpf_apply, mulf_apply, broadcastInDim, constant_apply, id, Host.expm1, Ideal.cmpf_def, Ideal.cmp,
    ofBits_zero, ofBits_one, Scalar.select, Ideal.hostUnary_expm1_def, one_mul]
  by_cases h : 0 < z j
  · simp [h]
  · simp [h]

/-! ## Stage by stage -/

theorem stage3_eq (h : Arr Ideal Cert.ReferenceIdeal.S20000x256 .f32) (W3 : Arr Ideal Cert.ReferenceIdeal.S256x256 .f32)
    (b3 : Arr Ideal Cert.ReferenceIdeal.S256 .f32) :
    Cert.ReferenceIdeal.Spec.stage3 (F := Ideal) h W3 b3 = Cert.KernelIdeal.KValue.kstage3 h W3 b3 := by
  funext j
  obtain ⟨p, q, rfl⟩ : ∃ (p : Fin 20000) (q : Fin 256), j = ix2 p q := ⟨j 0, j 1, eq_ix2 j⟩
  unfold Cert.ReferenceIdeal.Spec.stage3 Cert.KernelIdeal.KValue.kstage3 Cert.Spec.mmbElu Cert.Spec.mmb
  rw [eluR_apply, addf_apply, dot_256_256, biasRows_ix]
  exact congrArg (fun v => Cert.Spec.elu (Cert.Spec.mm (M := 20000) (K := 256) (N := 256) h W3 (ix2 p q) + v)) (biasRow_ix b3 q).symm

theorem stage4_eq (h : Arr Ideal Cert.ReferenceIdeal.S20000x256 .f32) (W4 : Arr Ideal Cert.ReferenceIdeal.S256x256 .f32)
    (b4 : Arr Ideal Cert.ReferenceIdeal.S256 .f32) :
    Cert.ReferenceIdeal.Spec.stage4 (F := Ideal) h W4 b4 = Cert.KernelIdeal.KValue.kstage4 h W4 b4 := by
  funext j
  obtain ⟨p, q, rfl⟩ : ∃ (p : Fin 20000) (q : Fin 256), j = ix2 p q := ⟨j 0, j 1, eq_ix2 j⟩
  unfold Cert.ReferenceIdeal.Spec.stage4 Cert.KernelIdeal.KValue.kstage4 Cert.Spec.mmb
  rw [addf_apply, dot_256_256, biasRows_ix]
  exact congrArg (fun v => Cert.Spec.mm (M := 20000) (K := 256) (N := 256) h W4 (ix2 p q) + v) (biasRow_ix b4 q).symm

theorem stage1_eq (x : Arr Ideal Cert.ReferenceIdeal.S20000x512 .f32) (e : Arr Ideal Cert.ReferenceIdeal.S2x320000 .i32)
    (W1 : Arr Ideal Cert.ReferenceIdeal.S512x512 .f32) (b1 : Arr Ideal Cert.ReferenceIdeal.S512 .f32) (a : Arr Ideal Cert.ReferenceIdeal.S_ .f32) :
    Cert.ReferenceIdeal.Spec.stage1 (F := Ideal) x e W1 b1 a = Cert.KernelIdeal.KValue.kstage1 x e W1 b1 a := by
  unfold Cert.ReferenceIdeal.Spec.stage1 Cert.KernelIdeal.KValue.kstage1
  rw [dot_512_512]

theorem stage2_eq (h : Arr Ideal Cert.ReferenceIdeal.S20000x512 .f32) (e : Arr Ideal Cert.ReferenceIdeal.S2x320000 .i32)
    (W2 : Arr Ideal Cert.ReferenceIdeal.S512x256 .f32) (b2 : Arr Ideal Cert.ReferenceIdeal.S256 .f32) (a : Arr Ideal Cert.ReferenceIdeal.S_ .f32) :
    Cert.ReferenceIdeal.Spec.stage2 (F := Ideal) h e W2 b2 a = Cert.KernelIdeal.KValue.kstage2 h e W2 b2 a := by
  unfold Cert.ReferenceIdeal.Spec.stage2 Cert.KernelIdeal.KValue.kstage2
  rw [dot_512_256]

/-- The reference's network and the kernel program's network are one function of the arguments. -/
theorem final_eq (x : Arr Ideal Cert.ReferenceIdeal.S20000x512 .f32) (e : Arr Ideal Cert.ReferenceIdeal.S2x320000 .i32)
    (W1 : Arr Ideal Cert.ReferenceIdeal.S512x512 .f32) (b1 : Arr Ideal Cert.ReferenceIdeal.S512 .f32)
    (W2 : Arr Ideal Cert.ReferenceIdeal.S512x256 .f32) (b2 : Arr Ideal Cert.ReferenceIdeal.S256 .f32) (a : Arr Ideal Cert.ReferenceIdeal.S_ .f32)
    (W3 : Arr Ideal Cert.ReferenceIdeal.S256x256 .f32) (b3 : Arr Ideal Cert.ReferenceIdeal.S256 .f32)
    (W4 : Arr Ideal Cert.ReferenceIdeal.S256x256 .f32) (b4 : Arr Ideal Cert.ReferenceIdeal.S256 .f32) :
    Cert.ReferenceIdeal.Spec.refFinal (F := Ideal) x e W1 b1 W2 b2 a W3 b3 W4 b4
      = Cert.KernelIdeal.KValue.kfinal x e W1 b1 W2 b2 a W3 b3 W4 b4 := by
  unfold Cert.ReferenceIdeal.Spec.refFinal Cert.KernelIdeal.KValue.kfinal
  rw [stage1_eq, stage2_eq, stage3_eq, stage4_eq]

end Cert.Bridge

end
-- ==== Proof.lean ====
/-
  The certificate: the kernel program and its idealization run, terminate and leave their arguments as launched; the
  idealization rewrote nothing; and on the extended reals the idealized kernel program and the idealized reference compute
  one function of their arguments.

  The kernel side's value is read off its run segment by segment: four dense products, each a region's row blocks put back
  together, between the host stretches that aggregate a layer over the graph's edges. The reference's value is its
  straight-line run read back. The two networks differ in three spellings only — a host product against a sum over the
  contracted index, a bias repeated on every row against a 1×256 row, and two forms of the exponential linear unit — and
  each pair agrees entry by entry on every extended real.
-/
import proofs.«133885_j69879117906024_1_alg».proof.Defs
import proofs.«133885_j69879117906024_1_alg».proof.Proof.Gen.Kernel
import proofs.«133885_j69879117906024_1_alg».proof.Proof.Gen.Kernel.Frame
import proofs.«133885_j69879117906024_1_alg».proof.Proof.Gen.KernelIdeal
import proofs.«133885_j69879117906024_1_alg».proof.Proof.Gen.KernelIdeal.Frame
import proofs.«133885_j69879117906024_1_alg».proof.Proof.Gen.ReferenceIdeal
import proofs.«133885_j69879117906024_1_alg».proof.Proof.Gen.Pre_finite_inputs
import proofs.«133885_j69879117906024_1_alg».proof.Proof.KernelRun
import proofs.«133885_j69879117906024_1_alg».proof.Proof.KernelValue
import proofs.«133885_j69879117906024_1_alg».proof.Proof.Region0
import proofs.«133885_j69879117906024_1_alg».proof.Proof.Region1
import proofs.«133885_j69879117906024_1_alg».proof.Proof.Region2
import proofs.«133885_j69879117906024_1_alg».proof.Proof.Region3
import proofs.«133885_j69879117906024_1_alg».proof.Proof.RefValue
import proofs.«133885_j69879117906024_1_alg».proof.Proof.Bridge
import Idealize.ShloMosaic.Adequacy
import Idealize.ShloMosaic.Init

noncomputable section

namespace Cert.Proof

open Idealize.ShloMosaic Idealize.SL.Sem

/-- The kernel program as printed runs, and its arguments end as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From memories agreeing on the arguments both programs end with the network applied to the arguments: the kernel
    program's run read segment by segment, the reference's read back, and the two networks one function. -/
theorem algebraic : Cert.algebraic_KernelIdeal_ReferenceIdeal := by
  intro m ρ m' ρ' _ hagree
  refine ⟨fun c => Cert.KernelIdeal.KValue.kfinal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.result m ρ c Cert.KernelIdeal.RegionValue.region0 Cert.KernelIdeal.RegionValue.region1 Cert.KernelIdeal.RegionValue.region2 Cert.KernelIdeal.RegionValue.region3), (h c).2⟩)
      (Cert.KernelIdeal.KValue.run_value m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact Cert.Bridge.final_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
